-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8192x256 .f32) (main_arg1 : FVec F S256x256 .f32) (main_arg2 : FVec F S256x256 .f32) (main_arg3 : FVec F S256x256 .f32) (main_arg4 : IVec S8192x8192 1) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8192x256 : Shape := ⟨2, ![8192, 256]⟩
abbrev S256x256 : Shape := ⟨2, ![256, 256]⟩
abbrev S8192x8192 : Shape := ⟨2, ![8192, 8192]⟩
abbrev S8 : Shape := ⟨1, ![8]⟩
abbrev S768x256 : Shape := ⟨2, ![768, 256]⟩
abbrev S256x768 : Shape := ⟨2, ![256, 768]⟩
abbrev S8192x768 : Shape := ⟨2, ![8192, 768]⟩
abbrev S1024x256 : Shape := ⟨2, ![1024, 256]⟩
abbrev S1 : Shape := ⟨1, ![1]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 16
  | .vmem => 13
  | .smem => 1
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8192x8192, .i1⟩
  | .hbm, ⟨5, _⟩ => ⟨S768x256, .f32⟩
  | .hbm, ⟨6, _⟩ => ⟨S256x768, .f32⟩
  | .hbm, ⟨7, _⟩ => ⟨S8192x768, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .bf16⟩
  | .hbm, ⟨12, _⟩ => ⟨S8192x256, .bf16⟩
  | .hbm, ⟨13, _⟩ => ⟨S8192x256, .bf16⟩
  | .hbm, ⟨14, _⟩ => ⟨S8192x8192, .i32⟩
  | .hbm, ⟨15, _⟩ => ⟨S8192x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .i32⟩
  | .local _ .vmem, ⟨7, _⟩ => ⟨S1024x1024, .i32⟩
  | .local _ .vmem, ⟨8, _⟩ => ⟨S1024x256, .f32⟩
  | .local _ .vmem, ⟨9, _⟩ => ⟨S1024x256, .f32⟩
  | .local _ .vmem, ⟨10, _⟩ => ⟨S1024x1, .f32⟩
  | .local _ .vmem, ⟨11, _⟩ => ⟨S1024x1, .f32⟩
  | .local _ .vmem, ⟨12, _⟩ => ⟨S1024x256, .f32⟩
  | .local _ .smem, ⟨0, _⟩ => ⟨S8, .i32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_2 : BitVec 32 := 0#32
  let v10 : BitVec 1 := Scalar.cmpi .ne v9 c0_i32_2
  v10

def cc0_transform_0 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : BitVec 32 := Scalar.minsi arg1 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : BitVec 32 := Scalar.minsi arg1 v1
  let c0_i32 : BitVec 32 := 0#32
  let c0_i32_0 : BitVec 32 := 0#32
  ![v2.toNat, c0_i32.toNat]

def cc0_transform_3 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : BitVec 32 := Scalar.minsi arg1 v1
  let c0_i32 : BitVec 32 := 0#32
  ![v1.toNat, v2.toNat]

def cc0_transform_4 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  concatenates_S256x256_S256x256_S256x256_S768x256_d0 : Shape.Concatenates [S256x256, S256x256, S256x256] S768x256 0
  transposes_S768x256_S256x768_1_0 : S768x256.Transposes [1, 0] S256x768
  slices_S8192x768_S8192x256_0_0 : S8192x768.Slices ![0, 0] S8192x256
  slices_S8192x768_S8192x256_0_256 : S8192x768.Slices ![0, 256] S8192x256
  slices_S8192x768_S8192x256_0_512 : S8192x768.Slices ![0, 512] S8192x256
  bitsLt_bf16_f32 : FTy.bits .bf16 < FTy.bits .f32
  natLt_1_32 : 1 < 32
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  broadcasts_S1024x1_S1024x256 : S1024x1.Broadcasts S1024x256
  dot_S8192x256_S256x768_S8192x768_1_0_0_1_n_n_wf : DotDims.WF S8192x256 S256x768 S8192x768 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'

variable [Facts₀]

def dot_S8192x256_S256x768_S8192x768_1_0_0_1_n_n : DotDims S8192x256 S256x768 S8192x768 where
  lhsContracting := [1]
  rhsContracting := [0]
  lhsNonContracting := [0]
  rhsNonContracting := [1]
  lhsBatch := []
  rhsBatch := []
  wf := dot_S8192x256_S256x768_S8192x768_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev spec0_0 : Pipeline.WinSpec sig grid0.rank :=
  Pipeline.WinSpec.ofSpec (Memref.whole main_v6) S1024x256.size reads0_0 false false 2 stage0_0 sem0_0 nbuf0_0 hstage0_0

abbrev spec0_1 : Pipeline.WinSpec sig grid0.rank :=
  Pipeline.WinSpec.ofSpec (Memref.whole main_v7) S1024x256.size reads0_1 false false 2 stage0_1 sem0_1 nbuf0_1 hstage0_1

abbrev spec0_2 : Pipeline.WinSpec sig grid0.rank :=
  Pipeline.WinSpec.ofSpec (Memref.whole main_v8) S1024x256.size reads0_2 false false 2 stage0_2 sem0_2 nbuf0_2 hstage0_2

abbrev spec0_3 : Pipeline.WinSpec sig grid0.rank :=
  Pipeline.WinSpec.ofSpec (Memref.whole main_v9) S1024x1024.size reads0_3 false false 2 stage0_3 sem0_3 nbuf0_3 hstage0_3

abbrev spec0_4 : Pipeline.WinSpec sig grid0.rank :=
  Pipeline.WinSpec.ofSpec (Memref.whole main_v10) S1024x256.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1024x256.size a ≤ S8192x256.size a), EltTy.bits .bf16 = 32 ∨ (Rect.block (s := S8192x256) S1024x256.size (cc0_transform_0 k0_off1_inb numel1_S1 pf i) h).WholeWords (EltTy.packing .bf16)) ∧
  (∀ i : grid0.Coords, ∃ h : (∀ a, (cc0_transform_1 k0_off1_inb numel1_S1 pf i a + 1) * S1024x256.size a ≤ S8192x256.size a), EltTy.bits .bf16 = 32 ∨ (Rect.block (s := S8192x256) S1024x256.size (cc0_transform_1 k0_off1_inb numel1_S1 pf i) h).WholeWords (EltTy.packing .bf16)) ∧
  (∀ i : grid0.Coords, ∃ h : (∀ a, (cc0_transform_2 k0_off1_inb numel1_S1 pf i a + 1) * S1024x256.size a ≤ S8192x256.size a), EltTy.bits .bf16 = 32 ∨ (Rect.block (s := S8192x256) S1024x256.size (cc0_transform_2 k0_off1_inb numel1_S1 pf i) h).WholeWords (EltTy.packing .bf16)) ∧
  (∀ i : grid0.Coords, ∃ h : (∀ a, (cc0_transform_3 k0_off1_inb numel1_S1 pf i a + 1) * S1024x1024.size a ≤ S8192x8192.size a), EltTy.bits .i32 = 32 ∨ (Rect.block (s := S8192x8192) S1024x1024.size (cc0_transform_3 k0_off1_inb numel1_S1 pf i) h).WholeWords (EltTy.packing .i32)) ∧
  (∀ i : grid0.Coords, ∃ h : (∀ a, (cc0_transform_4 k0_off1_inb numel1_S1 pf i a + 1) * S1024x256.size a ≤ S8192x256.size a), EltTy.bits .f32 = 32 ∨ (Rect.block (s := S8192x256) S1024x256.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2 i).elim fun h _ => h a | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2 i).elim fun _ h => h | ⟨_ + 5, h⟩ => absurd h (Nat.not_lt.2 (Nat.le_add_left _ _))
abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S8192x256 : Shape := ⟨2, ![8192, 256]⟩
abbrev S256x256 : Shape := ⟨2, ![256, 256]⟩
abbrev S8192x8192 : Shape := ⟨2, ![8192, 8192]⟩
abbrev S256x8192 : Shape := ⟨2, ![256, 8192]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8192x8192, .i1⟩
  | .hbm, ⟨5, _⟩ => ⟨S256x256, .f32⟩
  | .hbm, ⟨6, _⟩ => ⟨S8192x256, .f32⟩
  | .hbm, ⟨7, _⟩ => ⟨S256x256, .f32⟩
  | .hbm, ⟨8, _⟩ => ⟨S8192x256, .f32⟩
  | .hbm, ⟨9, _⟩ => ⟨S256x256, .f32⟩
  | .hbm, ⟨10, _⟩ => ⟨S8192x256, .f32⟩
  | .hbm, ⟨11, _⟩ => ⟨S256x8192, .f32⟩
  | .hbm, ⟨12, _⟩ => ⟨S8192x8192, .f32⟩
  | .hbm, ⟨13, _⟩ => ⟨S_, .i1⟩
  | .hbm, ⟨14, _⟩ => ⟨S8192x8192, .i1⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .i1⟩
  | .hbm, ⟨22, _⟩ => ⟨S8192x8192, .i1⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v9 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]

class Facts₀ : Prop where
  transposes_S256x256_S256x256_1_0 : S256x256.Transposes [1, 0] S256x256
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KFrameDefs.lean ====
/-
  What the pallas_call finds when it is entered, and what the grid's points are called with.

  @main is eleven host operations and then the one pallas_call. The contents `V` of the TensorCore's buffers at the
  call are the launch memory folded through those operations; none of them writes an argument array. The call's
  prefetched table is the constant permutation [0, 7, 1, 6, 2, 5, 3, 4] that @main itself writes, so at every
  grid point (slot s, step k) the query tile is table[s], the key/value tile is min(k, table[s]) and every block
  lies inside its array.
-/
import proofs.«101383_j27444841022105_2_alg».proof.Proof.Gen.Kernel.Launch
import proofs.«101383_j27444841022105_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the pallas_call -/

/-- Core `c`'s buffers when the pallas_call is entered: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the pallas_call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The prefetched table -/

/-- The table's contents when the pallas_call is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table is the constant @main writes first: the permutation's words in order. -/
theorem tbl_eq : tbl m = fun (j : Fin 1) => match j with | ⟨0, _⟩ => (fun i => lit0 (S8.rowMajor i) : (⟨S8, .i32⟩ : BufTy).Contents (Elt F)) := by
  funext j
  match j with
  | ⟨0, _⟩ =>
    show (V m 0 main_c : (⟨S8, .i32⟩ : BufTy).Contents (Elt F)) = _
    dsimp only [V, hostOps0]; after_results; rfl

/-- The pipeline's side condition of the table: every block inside its array, transfers word-exact. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it. -/
abbrev tbM0_0 : Memref sig .tc .smem S8 .i32 := Memref.whole main_c
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half the region hands the body. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the pallas_call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

/-- One staging buffer of the output window, through which its contents are stated; the three scratch buffers. -/
abbrev VO0_4 : View sig .tc .vmem S1024x256 .f32 := (Memref.whole cc0_stg4_0 : Memref sig .tc .vmem S1024x256 .f32).view
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x256 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x256 .f32 := scM0_2.view

abbrev ms0_0 (hO : Ok m) (t : Fin (cfgM m hO).N) : Memref sig .tc .vmem S1024x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x1024 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x256 .f32 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with. -/
abbrev bodyAt0 (a : (pcfg0 (F := F)).Adm) (t : Fin (cfg0 a).N) : Prog (TpuEff nD τ sig (Elt F) Λ₀ .tc) PUnit :=
  cc0__attn_kernel (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

end Cert.Kernel.Hand

end
-- ==== Proof.KConds.lean ====
/-
  The three conditions of the kernel body at a grid point (slot s, step k): "k = 0" (the running maximum and sums are
  reset), "k ≤ table[s]" (the tile pair is on or below the diagonal: one online-softmax step), "k = 7" (the row's
  result is written). The second reads the table's word; the others only the step.
-/
import proofs.«101383_j27444841022105_2_alg».proof.Proof.KFrameDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "k = 0". -/
abbrev cond1 (i : grid0.Coords) : Prop := (Scalar.cmpi .ne (Scalar.extui (Scalar.cmpi .eq (BitVec.ofNat 32 (i 1).val) 0#32)) 0#32) = 1#1
/-- "k ≤ w", w the table's word for the slot. -/
abbrev cond2 (i : grid0.Coords) (w : BitVec 32) : Prop := (Scalar.cmpi .ne (Scalar.extui (Scalar.cmpi .sle (BitVec.ofNat 32 (i 1).val) w)) 0#32) = 1#1
/-- "k = 7". -/
abbrev cond3 (i : grid0.Coords) : Prop := k0_cond3 i = 1#1

/-- The table's word for the point's slot, as the body reads it off the table held at contents `xt`. -/
abbrev wordOf (c : Dev nD) (i : grid0.Coords) (xt : TbBuf0 (F := F) c tbM0_0) : Elt F .i32 :=
  tbM0_0.view.readAt (Elt F) (Rect.unit (s := S8) (k0_off1 i) S1.size (k0_off1_inb i)).toLoadRect xt (Shape.Idx.first (numel1_S1.symm ▸ Nat.one_pos))

end Cert.Kernel.Hand

end
-- ==== Proof.KSched.lean ====
/-
  The schedule of the pallas_call: the 8×8 grid's point t has slot t / 8 and step t % 8; the prefetched table is
  the constant permutation [0, 7, 1, 6, 2, 5, 3, 4]; so at point t the query tile is perm (t / 8), the key/value
  tile is min (t % 8) (perm (t / 8)), the three conditions of the body are t % 8 = 0, t % 8 ≤ perm (t / 8) and
  t % 8 = 7, and the output window is written back exactly at the points with t % 8 = 7.
-/
import proofs.«101383_j27444841022105_2_alg».proof.Proof.KConds
import Idealize.ShloMosaic.PureOps.Ideal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Where the windows are idle, and the output window's write-backs -/

theorem idle_a0 (a : (pcfg0 (F := F)).Adm) (i : grid0.Coords) : (cfg0 a).idle 0 i = false := rfl
theorem idle_a1 (a : (pcfg0 (F := F)).Adm) (i : grid0.Coords) : (cfg0 a).idle 1 i = false := rfl
theorem idle_a2 (a : (pcfg0 (F := F)).Adm) (i : grid0.Coords) : (cfg0 a).idle 2 i = false := rfl
theorem idle_a3 (a : (pcfg0 (F := F)).Adm) (i : grid0.Coords) : (cfg0 a).idle 3 i = false := rfl
/-- The output window is idle exactly off the last step. -/
theorem idle_a4 (a : (pcfg0 (F := F)).Adm) (i : grid0.Coords) : (cfg0 a).idle 4 i = !(k0_cond3 i == 1#1) := rfl

/-- The input windows are idle nowhere. -/
theorem liveAt0_0 (hO : Ok m) (t : Fin (cfgM m hO).N) : (cfgM m hO).idle 0 (grid0.coords t) = false :=
  idle_a0 (adm m hO) (grid0.coords t)
theorem liveAt0_1 (hO : Ok m) (t : Fin (cfgM m hO).N) : (cfgM m hO).idle 1 (grid0.coords t) = false :=
  idle_a1 (adm m hO) (grid0.coords t)
theorem liveAt0_2 (hO : Ok m) (t : Fin (cfgM m hO).N) : (cfgM m hO).idle 2 (grid0.coords t) = false :=
  idle_a2 (adm m hO) (grid0.coords t)
theorem liveAt0_3 (hO : Ok m) (t : Fin (cfgM m hO).N) : (cfgM m hO).idle 3 (grid0.coords t) = false :=
  idle_a3 (adm m hO) (grid0.coords t)

theorem idleAt0_4 (hO : Ok m) (t : Fin (cfgM m hO).N) (h3 : ¬cond3 (grid0.coords t)) :
    (cfgM m hO).idle 4 (grid0.coords t) = true :=
  (idle_a4 (adm m hO) (grid0.coords t)).trans (by rw [beq_eq_false_iff_ne.mpr h3]; rfl)

theorem liveAt0_4 (hO : Ok m) (t : Fin (cfgM m hO).N) (h3 : cond3 (grid0.coords t)) :
    (cfgM m hO).idle 4 (grid0.coords t) = false :=
  (idle_a4 (adm m hO) (grid0.coords t)).trans (by rw [beq_iff_eq.mpr h3]; rfl)

/-- Off the last step the next point exists and has the same slot. -/
theorem next_same_slot : ∀ t : Fin grid0.N, ¬cond3 (grid0.coords t) →
    ∃ h : t.val + 1 < grid0.N, (grid0.coords ⟨t.val + 1, h⟩) 0 = (grid0.coords t) 0 := by decide +kernel

/-- A window whose block index at the next point is the one at this point is not written back here. -/
theorem flush_false_of {G : Pipeline.Grid} (w : Pipeline.Window sig G) (t : Fin G.N) (h : t.val + 1 < G.N)
    (he : w.index ⟨t.val + 1, h⟩ = w.index t) : w.flush t = false := by
  unfold Pipeline.Window.flush
  have h1 : ¬ (t.val + 1 = G.N) := by omega
  have h2 : ¬ (∃ h' : t.val + 1 < G.N, w.index ⟨t.val + 1, h'⟩ ≠ w.index t) := fun ⟨_, hne⟩ => hne he
  simp [h1, h2]

/-- The output window's block index is its index map at the point's coordinates, which reads the slot only. -/
theorem index_a4 (a : (pcfg0 (F := F)).Adm) (t : Fin (cfg0 a).N) :
    ((cfg0 a).win 4).index t = cc0_transform_4 Facts₀.k0_off1_inb Facts₀.numel1_S1 a.1 (grid0.coords t) := rfl

theorem noFlush_a4 (a : (pcfg0 (F := F)).Adm) (t : Fin (cfg0 a).N) (h3 : ¬cond3 (grid0.coords t)) :
    ((cfg0 a).win 4).flush t = false := by
  obtain ⟨h, hs⟩ := next_same_slot t h3
  refine flush_false_of ((cfg0 a).win 4) t h ?_
  rw [index_a4 a, index_a4 a]
  refine Facts₀.hreads0_4 a.1 _ _ (fun x hx => ?_)
  match x, hx with
  | ⟨0, _⟩, _ => exact hs
  | ⟨1, _⟩, hx => exact absurd (show false = true from hx) Bool.false_ne_true

theorem noFlush0_4 (hO : Ok m) (t : Fin (cfgM m hO).N) (h3 : ¬cond3 (grid0.coords t)) :
    ((cfgM m hO).win 4).flush t = false :=
  noFlush_a4 (adm m hO) t h3

theorem no13 : ∀ i : grid0.Coords, cond1 i → cond3 i → False := by decide +kernel

theorem nz_of_not1 : ∀ t : Fin grid0.N, ¬cond1 (grid0.coords t) → t.val ≠ 0 := by decide +kernel

/-- The pipeline's own part of the invariant: the three scratch buffers owned whole at some contents, and the
    random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The permutation and the side condition -/

/-- The table's words as natural numbers. -/
def perm : Fin 8 → Nat := ![0, 7, 1, 6, 2, 5, 3, 4]

/-- The table's contents, as a literal. -/
abbrev litTbl : pre0.Contents (Elt F) := fun (j : Fin 1) => match j with
  | ⟨0, _⟩ => (fun i => lit0 (S8.rowMajor i) : (⟨S8, .i32⟩ : BufTy).Contents (Elt F))

set_option maxHeartbeats 2000000 in
/-- Every block named by the literal table lies inside its array (checked at the extended reals, where the
    statement is about 32-bit words only). -/
theorem ok_ideal : ok0 (F := Ideal) (litTbl (F := Ideal)) := by decide +kernel

/-- The same at any float instance: the statement mentions words only. -/
theorem ok_lit : ok0 (F := F) (litTbl (F := F)) := ok_ideal

/-- The pipeline's side condition holds. -/
theorem ok : Ok m := by
  show ok0 (tbl m)
  rw [tbl_eq]
  exact ok_lit

/-! ## The grid's coordinates -/

theorem t_lt (t : Fin grid0.N) : t.val < 64 := by
  exact lt_of_lt_of_eq t.isLt N_0

/-- Point t has slot t / 8 -/
theorem coords0 (t : Fin grid0.N) : ((grid0.coords t) 0).val = t.val / 8 := by
  have h := t_lt t
  show t.val / grid0.stride 0 % 8 = t.val / 8
  have hs : grid0.stride 0 = 8 := by decide
  rw [hs]
  omega

/-- and step t % 8. -/
theorem coords1 (t : Fin grid0.N) : ((grid0.coords t) 1).val = t.val % 8 := by
  show t.val / grid0.stride 1 % 8 = t.val % 8
  have hs : grid0.stride 1 = 1 := by decide
  rw [hs, Nat.div_one]

theorem slot_eq (t : Fin grid0.N) (h : t.val / 8 < 8) : (grid0.coords t) 0 = ⟨t.val / 8, h⟩ :=
  Fin.ext (coords0 t)

theorem step_eq (t : Fin grid0.N) (h : t.val % 8 < 8) : (grid0.coords t) 1 = ⟨t.val % 8, h⟩ :=
  Fin.ext (coords1 t)

/-! ## The table's word at a point -/

/-- Index k of the [8] table. -/
def ik (k : Fin 8) : S8.Idx := fun a => match a with | ⟨0, _⟩ => k

/-- A unit rectangle's index at offset k of the [8] table is index k. -/
theorem idx_eq (k : Fin 8) (off : Fin 1 → Nat) (hoff : off 0 = k.val) (inb : ∀ a, off a + S1.size a ≤ S8.size a)
    (h1 : 0 < S1.numel) : (Rect.unit (s := S8) off S1.size inb).idx (Shape.Idx.first h1) = ik k := by
  funext a
  apply Fin.ext
  fin_cases a
  show off 0 + 1 * (Shape.Idx.first h1 (0 : Fin 1)).val = k.val
  have : (Shape.Idx.first h1 (0 : Fin 1)).val = 0 := rfl
  rw [this, hoff]; omega

/-- The offset the body and the index maps read the table at is the point's slot. -/
theorem off1_eq (i : grid0.Coords) : k0_off1 i 0 = (i 0).val := by
  show (BitVec.ofNat 32 (i 0).val).toNat = (i 0).val
  rw [BitVec.toNat_ofNat]
  have h : (i 0).val < 8 := (i 0).isLt
  omega

/-- The word read through the whole table at the point's unit rectangle is the table's entry at the slot. -/
theorem wordOf_eq (c : Dev nD) (i : grid0.Coords) (xt : TbBuf0 (F := F) c tbM0_0) :
    wordOf c i xt = xt (ik (i 0)) :=
  congrArg xt (idx_eq (i 0) _ (off1_eq i) _ _)

/-- The literal's entries are the permutation's words. -/
theorem lit_perm : ∀ k : Fin 8, lit0 (S8.rowMajor (ik k)) = BitVec.ofNat 32 (perm k) := by decide +kernel

/-- The table's entry at slot k is perm k. -/
theorem tbl_at (k : Fin 8) : tbl m 0 (ik k) = BitVec.ofNat 32 (perm k) :=
  (congrFun (congrFun (tbl_eq m) 0) (ik k)).trans (lit_perm k)

/-- The table's word at a point is the permutation at its slot. -/
theorem word_tbl (c : Dev nD) (i : grid0.Coords) : wordOf c i (tbl m 0) = BitVec.ofNat 32 (perm (i 0)) :=
  (wordOf_eq c i (tbl m 0)).trans (tbl_at m (i 0))

/-! ## The body's three conditions in closed form -/

theorem cond1_iff : ∀ t : Fin grid0.N, (cond1 (grid0.coords t) ↔ t.val % 8 = 0) := by decide +kernel

theorem cond3_iff : ∀ t : Fin grid0.N, (cond3 (grid0.coords t) ↔ t.val % 8 = 7) := by decide +kernel

theorem cond2_iff : ∀ t : Fin grid0.N,
    (cond2 (grid0.coords t) (BitVec.ofNat 32 (perm ((grid0.coords t) 0))) ↔ t.val % 8 ≤ perm ((grid0.coords t) 0)) := by
  decide +kernel

theorem cond2_iff' (t : Fin grid0.N) (h : t.val / 8 < 8) :
    cond2 (grid0.coords t) (BitVec.ofNat 32 (perm ⟨t.val / 8, h⟩)) ↔ t.val % 8 ≤ perm ⟨t.val / 8, h⟩ := by
  have e := cond2_iff t
  rw [slot_eq t h] at e
  exact e

/-! ## The windows' block indices -/

theorem toNat_perm : ∀ k : Fin 8, (BitVec.ofNat 32 (perm k)).toNat = perm k := by decide +kernel

theorem toNat_min : ∀ k0 k1 : Fin 8,
    (Scalar.minsi (BitVec.ofNat 32 k1.val) (BitVec.ofNat 32 (perm k0))).toNat = min k1.val (perm k0) := by
  decide +kernel

/-- The index maps' read of the table is the table's entry at the slot. -/
theorem at_eq (pf : pre0.Contents (Elt F)) (i : grid0.Coords) :
    pf.at 0 (Rect.unit (s := S8) (k0_off1 i) S1.size (Facts₀.k0_off1_inb i)) Facts₀.numel1_S1 = pf 0 (ik (i 0)) :=
  congrArg (pf 0) (idx_eq (i 0) _ (off1_eq i) _ _)

theorem transform_0_eq (pf : pre0.Contents (Elt F)) (i : grid0.Coords) :
    cc0_transform_0 Facts₀.k0_off1_inb Facts₀.numel1_S1 pf i
      = ![(pf.at 0 (Rect.unit (s := S8) (k0_off1 i) S1.size (Facts₀.k0_off1_inb i)) Facts₀.numel1_S1 : BitVec 32).toNat, 0] := rfl

theorem transform_1_eq (pf : pre0.Contents (Elt F)) (i : grid0.Coords) :
    cc0_transform_1 Facts₀.k0_off1_inb Facts₀.numel1_S1 pf i
      = ![(Scalar.minsi (BitVec.ofNat 32 (i 1).val)
            (pf.at 0 (Rect.unit (s := S8) (k0_off1 i) S1.size (Facts₀.k0_off1_inb i)) Facts₀.numel1_S1 : BitVec 32)).toNat, 0] := rfl

theorem transform_2_eq (pf : pre0.Contents (Elt F)) (i : grid0.Coords) :
    cc0_transform_2 Facts₀.k0_off1_inb Facts₀.numel1_S1 pf i
      = ![(Scalar.minsi (BitVec.ofNat 32 (i 1).val)
            (pf.at 0 (Rect.unit (s := S8) (k0_off1 i) S1.size (Facts₀.k0_off1_inb i)) Facts₀.numel1_S1 : BitVec 32)).toNat, 0] := rfl

theorem transform_3_eq (pf : pre0.Contents (Elt F)) (i : grid0.Coords) :
    cc0_transform_3 Facts₀.k0_off1_inb Facts₀.numel1_S1 pf i
      = ![(pf.at 0 (Rect.unit (s := S8) (k0_off1 i) S1.size (Facts₀.k0_off1_inb i)) Facts₀.numel1_S1 : BitVec 32).toNat,
          (Scalar.minsi (BitVec.ofNat 32 (i 1).val)
            (pf.at 0 (Rect.unit (s := S8) (k0_off1 i) S1.size (Facts₀.k0_off1_inb i)) Facts₀.numel1_S1 : BitVec 32)).toNat] := rfl

theorem transform_4_eq (pf : pre0.Contents (Elt F)) (i : grid0.Coords) :
    cc0_transform_4 Facts₀.k0_off1_inb Facts₀.numel1_S1 pf i
      = ![(pf.at 0 (Rect.unit (s := S8) (k0_off1 i) S1.size (Facts₀.k0_off1_inb i)) Facts₀.numel1_S1 : BitVec 32).toNat, 0] := rfl

section
variable (pf : pre0.Contents (Elt F)) (hpf : ∀ k : Fin 8, pf 0 (ik k) = BitVec.ofNat 32 (perm k)) (i : grid0.Coords)
include hpf

/-- At a table holding the permutation, the index maps' read is perm at the slot. -/
theorem at_perm :
    (pf.at 0 (Rect.unit (s := S8) (k0_off1 i) S1.size (Facts₀.k0_off1_inb i)) Facts₀.numel1_S1 : BitVec 32)
      = BitVec.ofNat 32 (perm (i 0)) :=
  (at_eq pf i).trans (hpf (i 0))

theorem transform_0_perm : cc0_transform_0 Facts₀.k0_off1_inb Facts₀.numel1_S1 pf i = ![perm (i 0), 0] := by
  rw [transform_0_eq, at_perm pf hpf i, toNat_perm (i 0)]

theorem transform_1_perm :
    cc0_transform_1 Facts₀.k0_off1_inb Facts₀.numel1_S1 pf i = ![min (i 1).val (perm (i 0)), 0] := by
  rw [transform_1_eq, at_perm pf hpf i, toNat_min (i 0) (i 1)]

theorem transform_2_perm :
    cc0_transform_2 Facts₀.k0_off1_inb Facts₀.numel1_S1 pf i = ![min (i 1).val (perm (i 0)), 0] := by
  rw [transform_2_eq, at_perm pf hpf i, toNat_min (i 0) (i 1)]

theorem transform_3_perm :
    cc0_transform_3 Facts₀.k0_off1_inb Facts₀.numel1_S1 pf i = ![perm (i 0), min (i 1).val (perm (i 0))] := by
  rw [transform_3_eq, at_perm pf hpf i, toNat_perm (i 0), toNat_min (i 0) (i 1)]

theorem transform_4_perm : cc0_transform_4 Facts₀.k0_off1_inb Facts₀.numel1_S1 pf i = ![perm (i 0), 0] := by
  rw [transform_4_eq, at_perm pf hpf i, toNat_perm (i 0)]

end

/-- Each window's block index is its index map at the point's coordinates. -/
theorem index_a0 (a : (pcfg0 (F := F)).Adm) (t : Fin (cfg0 a).N) :
    ((cfg0 a).win 0).index t = cc0_transform_0 Facts₀.k0_off1_inb Facts₀.numel1_S1 a.1 (grid0.coords t) := rfl
theorem index_a1 (a : (pcfg0 (F := F)).Adm) (t : Fin (cfg0 a).N) :
    ((cfg0 a).win 1).index t = cc0_transform_1 Facts₀.k0_off1_inb Facts₀.numel1_S1 a.1 (grid0.coords t) := rfl
theorem index_a2 (a : (pcfg0 (F := F)).Adm) (t : Fin (cfg0 a).N) :
    ((cfg0 a).win 2).index t = cc0_transform_2 Facts₀.k0_off1_inb Facts₀.numel1_S1 a.1 (grid0.coords t) := rfl
theorem index_a3 (a : (pcfg0 (F := F)).Adm) (t : Fin (cfg0 a).N) :
    ((cfg0 a).win 3).index t = cc0_transform_3 Facts₀.k0_off1_inb Facts₀.numel1_S1 a.1 (grid0.coords t) := rfl

/-- The query window (0) and the output window (4) are at tile perm (slot). -/
theorem index0 (hO : Ok m) (t : Fin (cfgM m hO).N) :
    ((cfgM m hO).win 0).index t = ![perm ((grid0.coords t) 0), 0] :=
  (index_a0 (adm m hO) t).trans (transform_0_perm (tbl m) (tbl_at m) (grid0.coords t))
theorem index4 (hO : Ok m) (t : Fin (cfgM m hO).N) :
    ((cfgM m hO).win 4).index t = ![perm ((grid0.coords t) 0), 0] :=
  (index_a4 (adm m hO) t).trans (transform_4_perm (tbl m) (tbl_at m) (grid0.coords t))
/-- The key and value windows (1, 2) are at tile min (step) (perm (slot)). -/
theorem index1 (hO : Ok m) (t : Fin (cfgM m hO).N) :
    ((cfgM m hO).win 1).index t = ![min ((grid0.coords t) 1).val (perm ((grid0.coords t) 0)), 0] :=
  (index_a1 (adm m hO) t).trans (transform_1_perm (tbl m) (tbl_at m) (grid0.coords t))
theorem index2 (hO : Ok m) (t : Fin (cfgM m hO).N) :
    ((cfgM m hO).win 2).index t = ![min ((grid0.coords t) 1).val (perm ((grid0.coords t) 0)), 0] :=
  (index_a2 (adm m hO) t).trans (transform_2_perm (tbl m) (tbl_at m) (grid0.coords t))
/-- The mask window (3) is at the tile pair (perm (slot), min (step) (perm (slot))). -/
theorem index3 (hO : Ok m) (t : Fin (cfgM m hO).N) :
    ((cfgM m hO).win 3).index t
      = ![perm ((grid0.coords t) 0), min ((grid0.coords t) 1).val (perm ((grid0.coords t) 0))] :=
  (index_a3 (adm m hO) t).trans (transform_3_perm (tbl m) (tbl_at m) (grid0.coords t))

/-! ## The output window's write-backs -/

theorem isOut_a4 (a : (pcfg0 (F := F)).Adm) : ((cfg0 a).win 4).isOut = true := rfl

/-- An output window is written back at the last point and wherever the next point's block index differs. -/
theorem flush_true_of {G : Pipeline.Grid} (w : Pipeline.Window sig G) (t : Fin G.N) (ho : w.isOut = true)
    (h : t.val + 1 = G.N ∨ ∃ h : t.val + 1 < G.N, w.index ⟨t.val + 1, h⟩ ≠ w.index t) : w.flush t = true := by
  unfold Pipeline.Window.flush
  rw [ho, Bool.true_and, Bool.or_eq_true, decide_eq_true_eq, decide_eq_true_eq]
  exact h

/-- At the last step the point is the last one, or the next point's slot holds another tile (the permutation
    is injective). -/
theorem last_or_next : ∀ t : Fin grid0.N, t.val % 8 = 7 →
    t.val + 1 = grid0.N ∨ ∃ h : t.val + 1 < grid0.N,
      perm ((grid0.coords ⟨t.val + 1, h⟩) 0) ≠ perm ((grid0.coords t) 0) := by decide +kernel

/-- The output window is written back exactly at the last step of each slot. -/
theorem flush4_iff (hO : Ok m) (t : Fin (cfgM m hO).N) : ((cfgM m hO).win 4).flush t = true ↔ t.val % 8 = 7 := by
  constructor
  · intro hf
    by_contra h7
    have h3 : ¬cond3 (grid0.coords t) := fun h => h7 ((cond3_iff t).mp h)
    rw [noFlush0_4 m hO t h3] at hf
    exact Bool.false_ne_true hf
  · intro h7
    refine flush_true_of _ t (isOut_a4 (adm m hO)) ?_
    rcases last_or_next t h7 with h | ⟨h, hne⟩
    · exact Or.inl h
    · refine Or.inr ⟨h, fun he => hne ?_⟩
      have e1 := index4 m hO ⟨t.val + 1, h⟩
      have e2 := index4 m hO t
      rw [e1, e2] at he
      exact congrFun he 0

/-- The output window is idle exactly off the last step. -/
theorem idle4_iff (hO : Ok m) (t : Fin (cfgM m hO).N) :
    (cfgM m hO).idle 4 (grid0.coords t) = true ↔ t.val % 8 ≠ 7 := by
  constructor
  · intro h h7
    rw [liveAt0_4 m hO t ((cond3_iff t).mpr h7)] at h
    exact Bool.false_ne_true h
  · intro h7
    exact idleAt0_4 m hO t (fun h => h7 ((cond3_iff t).mp h))

end Cert.Kernel.Hand

end
-- ==== Proof.KRuns.lean ====
/-
  The kernel body run once per control case. A grid point is (slot s, step k); the body's three conditions are
  "k = 0" (reset of the running maximum and sums), "k ≤ table[s]" (the tile pair is on or below the diagonal: one
  online-softmax step) and "k = 7" (the row tile's result is stored). Six combinations can be stated without knowing
  the table (reset and last step never coincide). Each run holds the q, k, v and mask blocks, the output window's
  buffer, the three scratch buffers and the table's half, and returns what the stores leave: every store is of a
  whole buffer.
-/
import proofs.«101383_j27444841022105_2_alg».proof.Proof.KConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Case A
  The kernel body at the first step of a row's sweep (k = 0) with the tile pair on or below the diagonal: the three
  scratch buffers are reset (running maximum -∞, running sum 0, running weighted sum 0) and one online-softmax step is
  taken from them; each scratch buffer ends written twice, whole each time; the output window is untouched.
-/

set_option maxHeartbeats 4000000 in
noncomputable def kernelRun0_A (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) :
    Σ' (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, ⟨%ds1, %fs1, %hfs1, HS1⟩, ⟨%ds2, %fs2, %hfs2, HS2⟩, HT0, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexact HT0

/-- The stores into scratch buffer 0 cover it (each is a store of the whole buffer). -/
theorem scover0_A_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) (y : S1024x1.Idx) :
    ∃ pc ∈ (kernelRun0_A c i arg3 harg3 arg4 harg4 arg5 harg5 arg6 harg6 arg7 harg7 arg8 harg8 arg9 harg9 arg10 harg10 hc1 hc3 x0 x1 x2 x3 xt0 hc2).1, y ∈ pc.1.set :=
  View.cover_of_tiledL (kernelRun0_A c i arg3 harg3 arg4 harg4 arg5 harg5 arg6 harg6 arg7 harg7 arg8 harg8 arg9 harg9 arg10 harg10 hc1 hc3 x0 x1 x2 x3 xt0 hc2).1 S1024x1.size (by sl_kernel_rfl) y

/-- The stores into scratch buffer 1 cover it (each is a store of the whole buffer). -/
theorem scover0_A_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) (y : S1024x1.Idx) :
    ∃ pc ∈ (kernelRun0_A c i arg3 harg3 arg4 harg4 arg5 harg5 arg6 harg6 arg7 harg7 arg8 harg8 arg9 harg9 arg10 harg10 hc1 hc3 x0 x1 x2 x3 xt0 hc2).2.1, y ∈ pc.1.set :=
  View.cover_of_tiledL (kernelRun0_A c i arg3 harg3 arg4 harg4 arg5 harg5 arg6 harg6 arg7 harg7 arg8 harg8 arg9 harg9 arg10 harg10 hc1 hc3 x0 x1 x2 x3 xt0 hc2).2.1 S1024x1.size (by sl_kernel_rfl) y

/-- The stores into scratch buffer 2 cover it (each is a store of the whole buffer). -/
theorem scover0_A_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) (y : S1024x256.Idx) :
    ∃ pc ∈ (kernelRun0_A c i arg3 harg3 arg4 harg4 arg5 harg5 arg6 harg6 arg7 harg7 arg8 harg8 arg9 harg9 arg10 harg10 hc1 hc3 x0 x1 x2 x3 xt0 hc2).2.2.1, y ∈ pc.1.set :=
  View.cover_of_tiledL (kernelRun0_A c i arg3 harg3 arg4 harg4 arg5 harg5 arg6 harg6 arg7 harg7 arg8 harg8 arg9 harg9 arg10 harg10 hc1 hc3 x0 x1 x2 x3 xt0 hc2).2.2.1 S1024x256.size (by sl_kernel_rfl) y

/-! ## Case Ap
  The kernel body at the first step of a row's sweep (k = 0) when the tile pair is above the diagonal: only the reset of
  the three scratch buffers; the output window is untouched.
-/

set_option maxHeartbeats 4000000 in
noncomputable def kernelRun0_Ap (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) :
    Σ' (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, ⟨%ds1, %fs1, %hfs1, HS1⟩, ⟨%ds2, %fs2, %hfs2, HS2⟩, HT0, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexact HT0

/-- The stores into scratch buffer 0 cover it (each is a store of the whole buffer). -/
theorem scover0_Ap_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) (y : S1024x1.Idx) :
    ∃ pc ∈ (kernelRun0_Ap c i arg3 harg3 arg4 harg4 arg5 harg5 arg6 harg6 arg7 harg7 arg8 harg8 arg9 harg9 arg10 harg10 hc1 hc3 x0 x1 x2 x3 xt0 hc2).1, y ∈ pc.1.set :=
  View.cover_of_tiledL (kernelRun0_Ap c i arg3 harg3 arg4 harg4 arg5 harg5 arg6 harg6 arg7 harg7 arg8 harg8 arg9 harg9 arg10 harg10 hc1 hc3 x0 x1 x2 x3 xt0 hc2).1 S1024x1.size (by sl_kernel_rfl) y

/-- The stores into scratch buffer 1 cover it (each is a store of the whole buffer). -/
theorem scover0_Ap_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) (y : S1024x1.Idx) :
    ∃ pc ∈ (kernelRun0_Ap c i arg3 harg3 arg4 harg4 arg5 harg5 arg6 harg6 arg7 harg7 arg8 harg8 arg9 harg9 arg10 harg10 hc1 hc3 x0 x1 x2 x3 xt0 hc2).2.1, y ∈ pc.1.set :=
  View.cover_of_tiledL (kernelRun0_Ap c i arg3 harg3 arg4 harg4 arg5 harg5 arg6 harg6 arg7 harg7 arg8 harg8 arg9 harg9 arg10 harg10 hc1 hc3 x0 x1 x2 x3 xt0 hc2).2.1 S1024x1.size (by sl_kernel_rfl) y

/-- The stores into scratch buffer 2 cover it (each is a store of the whole buffer). -/
theorem scover0_Ap_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) (y : S1024x256.Idx) :
    ∃ pc ∈ (kernelRun0_Ap c i arg3 harg3 arg4 harg4 arg5 harg5 arg6 harg6 arg7 harg7 arg8 harg8 arg9 harg9 arg10 harg10 hc1 hc3 x0 x1 x2 x3 xt0 hc2).2.2.1, y ∈ pc.1.set :=
  View.cover_of_tiledL (kernelRun0_Ap c i arg3 harg3 arg4 harg4 arg5 harg5 arg6 harg6 arg7 harg7 arg8 harg8 arg9 harg9 arg10 harg10 hc1 hc3 x0 x1 x2 x3 xt0 hc2).2.2.1 S1024x256.size (by sl_kernel_rfl) y

/-! ## Case B
  The kernel body at a step strictly inside a row's sweep (0 < k < 7) with the tile pair on or below the diagonal: one
  online-softmax step. It reads the q, k, v and mask blocks and the three scratch buffers (running maximum, running sum,
  running weighted sum) and overwrites each scratch buffer whole; the output window is untouched.
-/

set_option maxHeartbeats 4000000 in
noncomputable def kernelRun0_B (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    Σ' (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare xs0 ∗ owns (c : Thread nD τ) arg9 fullShare xs1 ∗ owns (c : Thread nD τ) arg10 fullShare xs2
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0; obtain rfl := harg9.eq_unread hfs1; obtain rfl := harg10.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexact HT0

/-- The stores into scratch buffer 0 cover it (each is a store of the whole buffer). -/
theorem scover0_B_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x1.Idx) :
    ∃ pc ∈ (kernelRun0_B c i arg3 harg3 arg4 harg4 arg5 harg5 arg6 harg6 arg7 harg7 arg8 harg8 arg9 harg9 arg10 harg10 hc1 hc3 x0 x1 x2 x3 xs0 xs1 xs2 xt0 hc2).1, y ∈ pc.1.set :=
  View.cover_of_tiledL (kernelRun0_B c i arg3 harg3 arg4 harg4 arg5 harg5 arg6 harg6 arg7 harg7 arg8 harg8 arg9 harg9 arg10 harg10 hc1 hc3 x0 x1 x2 x3 xs0 xs1 xs2 xt0 hc2).1 S1024x1.size (by sl_kernel_rfl) y

/-- The stores into scratch buffer 1 cover it (each is a store of the whole buffer). -/
theorem scover0_B_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x1.Idx) :
    ∃ pc ∈ (kernelRun0_B c i arg3 harg3 arg4 harg4 arg5 harg5 arg6 harg6 arg7 harg7 arg8 harg8 arg9 harg9 arg10 harg10 hc1 hc3 x0 x1 x2 x3 xs0 xs1 xs2 xt0 hc2).2.1, y ∈ pc.1.set :=
  View.cover_of_tiledL (kernelRun0_B c i arg3 harg3 arg4 harg4 arg5 harg5 arg6 harg6 arg7 harg7 arg8 harg8 arg9 harg9 arg10 harg10 hc1 hc3 x0 x1 x2 x3 xs0 xs1 xs2 xt0 hc2).2.1 S1024x1.size (by sl_kernel_rfl) y

/-- The stores into scratch buffer 2 cover it (each is a store of the whole buffer). -/
theorem scover0_B_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x256.Idx) :
    ∃ pc ∈ (kernelRun0_B c i arg3 harg3 arg4 harg4 arg5 harg5 arg6 harg6 arg7 harg7 arg8 harg8 arg9 harg9 arg10 harg10 hc1 hc3 x0 x1 x2 x3 xs0 xs1 xs2 xt0 hc2).2.2.1, y ∈ pc.1.set :=
  View.cover_of_tiledL (kernelRun0_B c i arg3 harg3 arg4 harg4 arg5 harg5 arg6 harg6 arg7 harg7 arg8 harg8 arg9 harg9 arg10 harg10 hc1 hc3 x0 x1 x2 x3 xs0 xs1 xs2 xt0 hc2).2.2.1 S1024x256.size (by sl_kernel_rfl) y

/-! ## Case C
  The kernel body at a step strictly inside a row's sweep (0 < k < 7) with the tile pair above the diagonal: nothing is
  stored; every buffer is handed back as it was found.
-/

set_option maxHeartbeats 4000000 in
theorem kernelRun0_C (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : ¬cond2 i (wordOf c i xt0)) :
    ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare xs0 ∗ owns (c : Thread nD τ) arg9 fullShare xs1 ∗ owns (c : Thread nD τ) arg10 fullShare xs2
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ owns (c : Thread nD τ) arg8 fullShare xs0 ∗ owns (c : Thread nD τ) arg9 fullShare xs1 ∗ owns (c : Thread nD τ) arg10 fullShare xs2
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K := by
  intro xi4 E K
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, HT0, Hk⟩
  obtain rfl := harg3.eq_unread hf0; obtain rfl := harg4.eq_unread hf1; obtain rfl := harg5.eq_unread hf2; obtain rfl := harg6.eq_unread hf3
  obtain rfl := harg7.eq_unread hf4
  obtain rfl := harg8.eq_unread hfs0; obtain rfl := harg9.eq_unread hfs1; obtain rfl := harg10.eq_unread hfs2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  iexact HT0

/-! ## Case D
  The kernel body at the last step of a row's sweep (k = 7) with the tile pair on or below the diagonal: one
  online-softmax step, then the row's result, the weighted sum times two over the running sum, is stored into the
  output window whole.
-/

set_option maxHeartbeats 4000000 in
noncomputable def kernelRun0_D (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, %hf4, H4⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexact HT0

/-- The stores into the output window cover it (each is a store of the whole buffer). -/
theorem cover0_D_4 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x256.Idx) :
    ∃ pc ∈ (kernelRun0_D c i arg3 harg3 arg4 harg4 arg5 harg5 arg6 harg6 arg7 harg7 arg8 harg8 arg9 harg9 arg10 harg10 hc1 hc3 x0 x1 x2 x3 xs0 xs1 xs2 xt0 hc2).1, y ∈ pc.1.set :=
  View.cover_of_tiledL (kernelRun0_D c i arg3 harg3 arg4 harg4 arg5 harg5 arg6 harg6 arg7 harg7 arg8 harg8 arg9 harg9 arg10 harg10 hc1 hc3 x0 x1 x2 x3 xs0 xs1 xs2 xt0 hc2).1 S1024x256.size (by sl_kernel_rfl) y

/-- The stores into scratch buffer 0 cover it (each is a store of the whole buffer). -/
theorem scover0_D_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x1.Idx) :
    ∃ pc ∈ (kernelRun0_D c i arg3 harg3 arg4 harg4 arg5 harg5 arg6 harg6 arg7 harg7 arg8 harg8 arg9 harg9 arg10 harg10 hc1 hc3 x0 x1 x2 x3 xs0 xs1 xs2 xt0 hc2).2.1, y ∈ pc.1.set :=
  View.cover_of_tiledL (kernelRun0_D c i arg3 harg3 arg4 harg4 arg5 harg5 arg6 harg6 arg7 harg7 arg8 harg8 arg9 harg9 arg10 harg10 hc1 hc3 x0 x1 x2 x3 xs0 xs1 xs2 xt0 hc2).2.1 S1024x1.size (by sl_kernel_rfl) y

/-- The stores into scratch buffer 1 cover it (each is a store of the whole buffer). -/
theorem scover0_D_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x1.Idx) :
    ∃ pc ∈ (kernelRun0_D c i arg3 harg3 arg4 harg4 arg5 harg5 arg6 harg6 arg7 harg7 arg8 harg8 arg9 harg9 arg10 harg10 hc1 hc3 x0 x1 x2 x3 xs0 xs1 xs2 xt0 hc2).2.2.1, y ∈ pc.1.set :=
  View.cover_of_tiledL (kernelRun0_D c i arg3 harg3 arg4 harg4 arg5 harg5 arg6 harg6 arg7 harg7 arg8 harg8 arg9 harg9 arg10 harg10 hc1 hc3 x0 x1 x2 x3 xs0 xs1 xs2 xt0 hc2).2.2.1 S1024x1.size (by sl_kernel_rfl) y

/-- The stores into scratch buffer 2 cover it (each is a store of the whole buffer). -/
theorem scover0_D_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x256.Idx) :
    ∃ pc ∈ (kernelRun0_D c i arg3 harg3 arg4 harg4 arg5 harg5 arg6 harg6 arg7 harg7 arg8 harg8 arg9 harg9 arg10 harg10 hc1 hc3 x0 x1 x2 x3 xs0 xs1 xs2 xt0 hc2).2.2.2.1, y ∈ pc.1.set :=
  View.cover_of_tiledL (kernelRun0_D c i arg3 harg3 arg4 harg4 arg5 harg5 arg6 harg6 arg7 harg7 arg8 harg8 arg9 harg9 arg10 harg10 hc1 hc3 x0 x1 x2 x3 xs0 xs1 xs2 xt0 hc2).2.2.2.1 S1024x256.size (by sl_kernel_rfl) y

/-! ## Case E
  The kernel body at the last step of a row's sweep (k = 7) with the tile pair above the diagonal: the scratch buffers are
  only read, and the row's result, the weighted sum times two over the running sum, is stored into the output window whole.
-/

set_option maxHeartbeats 4000000 in
noncomputable def kernelRun0_E (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : ¬cond2 i (wordOf c i xt0)) :
    { L4 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ owns (c : Thread nD τ) arg8 fullShare xs0 ∗ owns (c : Thread nD τ) arg9 fullShare xs1 ∗ owns (c : Thread nD τ) arg10 fullShare xs2
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, %hf4, H4⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    iexact HT0

/-- The stores into the output window cover it (each is a store of the whole buffer). -/
theorem cover0_E_4 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : ¬cond2 i (wordOf c i xt0)) (y : S1024x256.Idx) :
    ∃ pc ∈ (kernelRun0_E c i arg3 harg3 arg4 harg4 arg5 harg5 arg6 harg6 arg7 harg7 arg8 harg8 arg9 harg9 arg10 harg10 hc1 hc3 x0 x1 x2 x3 xs0 xs1 xs2 xt0 hc2).1, y ∈ pc.1.set :=
  View.cover_of_tiledL (kernelRun0_E c i arg3 harg3 arg4 harg4 arg5 harg5 arg6 harg6 arg7 harg7 arg8 harg8 arg9 harg9 arg10 harg10 hc1 hc3 x0 x1 x2 x3 xs0 xs1 xs2 xt0 hc2).1 S1024x256.size (by sl_kernel_rfl) y

end Cert.Kernel.Hand

end
-- ==== Proof.KOuts.lean ====
/-
  What the three scratch buffers and the output window hold after each grid point.

  Point t = 8·s + k is step k of slot s. The scratch buffers carry one row tile's online-softmax state from step to
  step; `outsAt0` records, point by point, what the body leaves in the output window's buffer and in the three scratch
  buffers: at k = 0 they are reset and, the tile pair being on or below the diagonal, advanced once; at later steps
  they are advanced when the pair is on or below the diagonal and kept otherwise; at k = 7 the output window receives
  the row tile's result.
-/
import proofs.«101383_j27444841022105_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three scratch buffers' contents. -/
abbrev SSt (F : FTy → Type) [FloatOps F] : Type := Vec F S1024x1 .f32 × Vec F S1024x1 .f32 × Vec F S1024x256 .f32

/-- A list of stores read back, through each buffer's own view. -/
def rd0 (L : List (View.Piece (Elt F) S1024x1 .f32)) : Vec F S1024x1 .f32 := VS0_0.read (Elt F) (VS0_0.writes (Elt F) VS0_0.junk L)
def rd1 (L : List (View.Piece (Elt F) S1024x1 .f32)) : Vec F S1024x1 .f32 := VS0_1.read (Elt F) (VS0_1.writes (Elt F) VS0_1.junk L)
def rd2 (L : List (View.Piece (Elt F) S1024x256 .f32)) : Vec F S1024x256 .f32 := VS0_2.read (Elt F) (VS0_2.writes (Elt F) VS0_2.junk L)
def rdO (L : List (View.Piece (Elt F) S1024x256 .f32)) : Vec F S1024x256 .f32 := VO0_4.read (Elt F) (VO0_4.writes (Elt F) VO0_4.junk L)

/-- Scratch contents nothing depends on (before the first reset). -/
def junkS : SSt F := (VS0_0.read (Elt F) VS0_0.junk, VS0_1.read (Elt F) VS0_1.junk, VS0_2.read (Elt F) VS0_2.junk)

/-! ## What one point leaves -/

/-- What the body leaves at point `t` in the output window's buffer and the scratch buffers, given the scratch
    contents `prev` it finds: by the three conditions. (Reset and last step never coincide; the value given for that case is never used.) -/
def stepAt (hO : Ok m) (c : Dev nD) (t : Fin (cfgM m hO).N) (prev : SSt F) : Vec F S1024x256 .f32 × SSt F :=
  if h1 : cond1 (grid0.coords t) then
    if h2 : cond2 (grid0.coords t) (wordOf c (grid0.coords t) (tbl m 0)) then
      if h3 : cond3 (grid0.coords t) then (VO0_4.read (Elt F) VO0_4.junk, prev)
      else ((VO0_4.read (Elt F) VO0_4.junk), (rd0 (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).1, rd1 (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.1, rd2 (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.1))
    else
      if h3 : cond3 (grid0.coords t) then (VO0_4.read (Elt F) VO0_4.junk, prev)
      else ((VO0_4.read (Elt F) VO0_4.junk), (rd0 (kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).1, rd1 (kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.1, rd2 (kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.1))
  else
    if h2 : cond2 (grid0.coords t) (wordOf c (grid0.coords t) (tbl m 0)) then
      if h3 : cond3 (grid0.coords t) then (rdO (kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).1, (rd0 (kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.1, rd1 (kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.2.1, rd2 (kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.2.2.1))
      else ((VO0_4.read (Elt F) VO0_4.junk), (rd0 (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).1, rd1 (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.1, rd2 (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.2.1))
    else
      if h3 : cond3 (grid0.coords t) then (rdO (kernelRun0_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).1, prev)
      else ((VO0_4.read (Elt F) VO0_4.junk), prev)

/-- THE ACCUMULATION: the contents after the body at position `n`, each point from what the point before left. -/
def outsAt0 (hO : Ok m) (c : Dev nD) : (n : ℕ) → n < (cfgM m hO).N → Vec F S1024x256 .f32 × SSt F
  | 0, hn => stepAt m hO c ⟨0, hn⟩ junkS
  | n + 1, hn => stepAt m hO c ⟨n + 1, hn⟩ (outsAt0 hO c n (Nat.lt_of_succ_lt hn)).2

/-- The scratch contents the body finds at point `t`. -/
def prevAt (hO : Ok m) (c : Dev nD) (n : ℕ) (hn : n < (cfgM m hO).N) : SSt F :=
  match n, hn with
  | 0, _ => junkS
  | k + 1, h => (outsAt0 m hO c k (Nat.lt_of_succ_lt h)).2

theorem outsAt0_eq (hO : Ok m) (c : Dev nD) (t : Fin (cfgM m hO).N) :
    outsAt0 m hO c t.val t.isLt = stepAt m hO c t (prevAt m hO c t.val t.isLt) := by
  obtain ⟨n, hn⟩ := t
  cases n with
  | zero => rfl
  | succ n => rfl

theorem prevAt_pos (hO : Ok m) (c : Dev nD) (n : ℕ) (hn : n < (cfgM m hO).N) (hz : n ≠ 0) :
    prevAt m hO c n hn = (outsAt0 m hO c (n - 1) (by omega)).2 := by
  cases n with
  | zero => exact absurd rfl hz
  | succ n => rfl

end Cert.Kernel.Hand

end
-- ==== Proof.KFrame.lean ====
/-
  The pallas_call as a whole: the invariant between grid points (the scratch buffers at exactly what the point before
  left), the body's obligation at every point, and the run of @main with the argument arrays unchanged.
-/
import proofs.«101383_j27444841022105_2_alg».proof.Proof.KOuts
import proofs.«101383_j27444841022105_2_alg».proof.Proof.KSched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before the first point the scratch buffers hold anything; afterwards what the point before left. -/
def PhiS (hO : Ok m) (c : Dev nD) : (n : ℕ) → n ≤ (cfgM m hO).N → sProp 𝕄
  | 0, _ => Pipeline.ΦA spec0 c
  | n + 1, hn => iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r))

theorem PhiS_zero (hO : Ok m) (c : Dev nD) (n : ℕ) (h : n ≤ (cfgM m hO).N) (hz : n = 0) : PhiS m hO c n h = Pipeline.ΦA spec0 c := by
  subst hz; rfl

theorem PhiS_succ (hO : Ok m) (c : Dev nD) (n : ℕ) (hn : n < (cfgM m hO).N) :
    PhiS m hO c (n + 1) hn = iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) := rfl

theorem PhiS_pos (hO : Ok m) (c : Dev nD) (n : ℕ) (h : n ≤ (cfgM m hO).N) (hz : n ≠ 0) :
    PhiS m hO c n h = iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) := by
  cases n with
  | zero => exact absurd rfl hz
  | succ n => rfl

/-! ## The pipeline's proof data -/

/-- The arrays as the pallas_call finds them; after the body each input's buffer at its block, the output's at
    `outsAt0`; the invariant `PhiS` together with the table's half. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := iprop(PhiS m hO c t.val (Nat.le_of_lt_succ t.isLt) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = iprop(PhiS m hO c t.val (Nat.le_of_lt t.isLt) ∗ Pipeline.ΦT pre0 (tbl m) c) := by
  dsimp only [dats]; simp only [Fin.coe_castSucc]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 8000000 in
/-- The body at any point: the inputs' buffers hold their blocks; the three conditions select the case; the invariant
    hands the body the scratch buffers at what the point before left (at anything before a reset) and takes them back
    at this point's contents. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = iprop(PhiS m hO c (t.val + 1) t.isLt ∗ Pipeline.ΦT pre0 (tbl m) c) from rfl, PhiS_succ, PhiS_castSucc m hO c t, PhiT0_eq]
  by_cases h1 : cond1 (grid0.coords t)
  · by_cases h2 : cond2 (grid0.coords t) (wordOf c (grid0.coords t) (tbl m 0))
    · by_cases h3 : cond3 (grid0.coords t)
      · exact absurd h3 (fun h => no13 _ h1 h)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [Dat.leavesExact_idle (dats m hO 0 c) 4 t (idleAt0_4 m hO t h3) (noFlush0_4 m hO t h3)]
        rw [outsAt0_eq]; unfold stepAt; rw [dif_pos h1, dif_pos h2, dif_neg h3]; (try dsimp only)
        by_cases hz : t.val = 0
        · rw [PhiS_zero m hO c _ _ hz, PhiA0_eq]
          iintro ⟨⟨⟨⟨⟨%ds0, HS0⟩, ⟨%ds1, HS1⟩, ⟨%ds2, HS2⟩⟩, Hg⟩, HT0⟩, Ho, ⟨%d0, H0⟩, ⟨%d1, H1⟩, ⟨%d2, H2⟩, ⟨%d3, H3⟩, ⟨%d4, H4⟩⟩
          iapply ((kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HS2]; · iexists _; iexact HS2
          isplitl [HT0]; · iexact HT0
          iintro ⟨H0, H1, H2, H3, H4, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns rd0; iexists _; isplitr
                  swap; · iexact HS0
                  ipureintro; exact View.read_writes_of_cover _ _ _ _ _ (scover0_A_0 c _ _ _ _ _ _ _ _ _ _ _ _ _ _ _ _ _ _ _ _ _ _ _ _ _)
                isplitl [HS1]
                · unfold owns rd1; iexists _; isplitr
                  swap; · iexact HS1
                  ipureintro; exact View.read_writes_of_cover _ _ _ _ _ (scover0_A_1 c _ _ _ _ _ _ _ _ _ _ _ _ _ _ _ _ _ _ _ _ _ _ _ _ _)
                unfold owns rd2; iexists _; isplitr
                swap; · iexact HS2
                ipureintro; exact View.read_writes_of_cover _ _ _ _ _ (scover0_A_2 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          iexists _; iexact H4
        · rw [PhiS_pos m hO c _ _ hz]
          iintro ⟨⟨⟨⟨HS0, HS1, HS2⟩, Hg⟩, HT0⟩, Ho, ⟨%d0, H0⟩, ⟨%d1, H1⟩, ⟨%d2, H2⟩, ⟨%d3, H3⟩, ⟨%d4, H4⟩⟩
          iapply ((kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HS2]; · iexists _; iexact HS2
          isplitl [HT0]; · iexact HT0
          iintro ⟨H0, H1, H2, H3, H4, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns rd0; iexists _; isplitr
                  swap; · iexact HS0
                  ipureintro; exact View.read_writes_of_cover _ _ _ _ _ (scover0_A_0 c _ _ _ _ _ _ _ _ _ _ _ _ _ _ _ _ _ _ _ _ _ _ _ _ _)
                isplitl [HS1]
                · unfold owns rd1; iexists _; isplitr
                  swap; · iexact HS1
                  ipureintro; exact View.read_writes_of_cover _ _ _ _ _ (scover0_A_1 c _ _ _ _ _ _ _ _ _ _ _ _ _ _ _ _ _ _ _ _ _ _ _ _ _)
                unfold owns rd2; iexists _; isplitr
                swap; · iexact HS2
                ipureintro; exact View.read_writes_of_cover _ _ _ _ _ (scover0_A_2 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          iexists _; iexact H4
    · by_cases h3 : cond3 (grid0.coords t)
      · exact absurd h3 (fun h => no13 _ h1 h)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [Dat.leavesExact_idle (dats m hO 0 c) 4 t (idleAt0_4 m hO t h3) (noFlush0_4 m hO t h3)]
        rw [outsAt0_eq]; unfold stepAt; rw [dif_pos h1, dif_neg h2, dif_neg h3]; (try dsimp only)
        by_cases hz : t.val = 0
        · rw [PhiS_zero m hO c _ _ hz, PhiA0_eq]
          iintro ⟨⟨⟨⟨⟨%ds0, HS0⟩, ⟨%ds1, HS1⟩, ⟨%ds2, HS2⟩⟩, Hg⟩, HT0⟩, Ho, ⟨%d0, H0⟩, ⟨%d1, H1⟩, ⟨%d2, H2⟩, ⟨%d3, H3⟩, ⟨%d4, H4⟩⟩
          iapply ((kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HS2]; · iexists _; iexact HS2
          isplitl [HT0]; · iexact HT0
          iintro ⟨H0, H1, H2, H3, H4, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns rd0; iexists _; isplitr
                  swap; · iexact HS0
                  ipureintro; exact View.read_writes_of_cover _ _ _ _ _ (scover0_Ap_0 c _ _ _ _ _ _ _ _ _ _ _ _ _ _ _ _ _ _ _ _ _ _ _ _ _)
                isplitl [HS1]
                · unfold owns rd1; iexists _; isplitr
                  swap; · iexact HS1
                  ipureintro; exact View.read_writes_of_cover _ _ _ _ _ (scover0_Ap_1 c _ _ _ _ _ _ _ _ _ _ _ _ _ _ _ _ _ _ _ _ _ _ _ _ _)
                unfold owns rd2; iexists _; isplitr
                swap; · iexact HS2
                ipureintro; exact View.read_writes_of_cover _ _ _ _ _ (scover0_Ap_2 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          iexists _; iexact H4
        · rw [PhiS_pos m hO c _ _ hz]
          iintro ⟨⟨⟨⟨HS0, HS1, HS2⟩, Hg⟩, HT0⟩, Ho, ⟨%d0, H0⟩, ⟨%d1, H1⟩, ⟨%d2, H2⟩, ⟨%d3, H3⟩, ⟨%d4, H4⟩⟩
          iapply ((kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HS2]; · iexists _; iexact HS2
          isplitl [HT0]; · iexact HT0
          iintro ⟨H0, H1, H2, H3, H4, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns rd0; iexists _; isplitr
                  swap; · iexact HS0
                  ipureintro; exact View.read_writes_of_cover _ _ _ _ _ (scover0_Ap_0 c _ _ _ _ _ _ _ _ _ _ _ _ _ _ _ _ _ _ _ _ _ _ _ _ _)
                isplitl [HS1]
                · unfold owns rd1; iexists _; isplitr
                  swap; · iexact HS1
                  ipureintro; exact View.read_writes_of_cover _ _ _ _ _ (scover0_Ap_1 c _ _ _ _ _ _ _ _ _ _ _ _ _ _ _ _ _ _ _ _ _ _ _ _ _)
                unfold owns rd2; iexists _; isplitr
                swap; · iexact HS2
                ipureintro; exact View.read_writes_of_cover _ _ _ _ _ (scover0_Ap_2 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          iexists _; iexact H4
  · by_cases h2 : cond2 (grid0.coords t) (wordOf c (grid0.coords t) (tbl m 0))
    · by_cases h3 : cond3 (grid0.coords t)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [show (dats m hO 0 c).leavesExact 4 t = owns (c : Thread nD τ) (ms0_4 m hO t) fullShare ((dats m hO 0 c).after 4 t) from by
          unfold Dat.leavesExact; rw [liveAt0_4 m hO t h3]; rfl, after0_4]
        rw [outsAt0_eq]; unfold stepAt; rw [dif_neg h1, dif_pos h2, dif_pos h3]; (try dsimp only)
        have hz : t.val ≠ 0 := nz_of_not1 t h1
        rw [prevAt_pos m hO c _ _ hz]
        rw [PhiS_pos m hO c _ _ hz]
        iintro ⟨⟨⟨⟨HS0, HS1, HS2⟩, Hg⟩, HT0⟩, Ho, ⟨%d0, H0⟩, ⟨%d1, H1⟩, ⟨%d2, H2⟩, ⟨%d3, H3⟩, ⟨%d4, H4⟩⟩
        iapply ((kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) _ _ _ (tbl m 0) h2).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HT0]; · iexact HT0
        iintro ⟨H0, H1, H2, H3, ⟨%e4, H4⟩, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns rd0; iexists _; isplitr
                swap; · iexact HS0
                ipureintro; exact View.read_writes_of_cover _ _ _ _ _ (scover0_D_0 c _ _ _ _ _ _ _ _ _ _ _ _ _ _ _ _ _ _ _ _ _ _ _ _ _ _ _ _)
              isplitl [HS1]
              · unfold owns rd1; iexists _; isplitr
                swap; · iexact HS1
                ipureintro; exact View.read_writes_of_cover _ _ _ _ _ (scover0_D_1 c _ _ _ _ _ _ _ _ _ _ _ _ _ _ _ _ _ _ _ _ _ _ _ _ _ _ _ _)
              unfold owns rd2; iexists _; isplitr
              swap; · iexact HS2
              ipureintro; exact View.read_writes_of_cover _ _ _ _ _ (scover0_D_2 c _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        unfold owns rdO; iexists _; isplitr
        swap; · iexact H4
        ipureintro; exact View.read_writes_of_cover _ _ _ _ _ (cover0_D_4 c _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [Dat.leavesExact_idle (dats m hO 0 c) 4 t (idleAt0_4 m hO t h3) (noFlush0_4 m hO t h3)]
        rw [outsAt0_eq]; unfold stepAt; rw [dif_neg h1, dif_pos h2, dif_neg h3]; (try dsimp only)
        have hz : t.val ≠ 0 := nz_of_not1 t h1
        rw [prevAt_pos m hO c _ _ hz]
        rw [PhiS_pos m hO c _ _ hz]
        iintro ⟨⟨⟨⟨HS0, HS1, HS2⟩, Hg⟩, HT0⟩, Ho, ⟨%d0, H0⟩, ⟨%d1, H1⟩, ⟨%d2, H2⟩, ⟨%d3, H3⟩, ⟨%d4, H4⟩⟩
        iapply ((kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) _ _ _ (tbl m 0) h2).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HT0]; · iexact HT0
        iintro ⟨H0, H1, H2, H3, H4, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns rd0; iexists _; isplitr
                swap; · iexact HS0
                ipureintro; exact View.read_writes_of_cover _ _ _ _ _ (scover0_B_0 c _ _ _ _ _ _ _ _ _ _ _ _ _ _ _ _ _ _ _ _ _ _ _ _ _ _ _ _)
              isplitl [HS1]
              · unfold owns rd1; iexists _; isplitr
                swap; · iexact HS1
                ipureintro; exact View.read_writes_of_cover _ _ _ _ _ (scover0_B_1 c _ _ _ _ _ _ _ _ _ _ _ _ _ _ _ _ _ _ _ _ _ _ _ _ _ _ _ _)
              unfold owns rd2; iexists _; isplitr
              swap; · iexact HS2
              ipureintro; exact View.read_writes_of_cover _ _ _ _ _ (scover0_B_2 c _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        iexists _; iexact H4
    · by_cases h3 : cond3 (grid0.coords t)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [show (dats m hO 0 c).leavesExact 4 t = owns (c : Thread nD τ) (ms0_4 m hO t) fullShare ((dats m hO 0 c).after 4 t) from by
          unfold Dat.leavesExact; rw [liveAt0_4 m hO t h3]; rfl, after0_4]
        rw [outsAt0_eq]; unfold stepAt; rw [dif_neg h1, dif_neg h2, dif_pos h3]; (try dsimp only)
        have hz : t.val ≠ 0 := nz_of_not1 t h1
        rw [prevAt_pos m hO c _ _ hz]
        rw [PhiS_pos m hO c _ _ hz]
        iintro ⟨⟨⟨⟨HS0, HS1, HS2⟩, Hg⟩, HT0⟩, Ho, ⟨%d0, H0⟩, ⟨%d1, H1⟩, ⟨%d2, H2⟩, ⟨%d3, H3⟩, ⟨%d4, H4⟩⟩
        iapply ((kernelRun0_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) _ _ _ (tbl m 0) h2).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HT0]; · iexact HT0
        iintro ⟨H0, H1, H2, H3, ⟨%e4, H4⟩, HS0, HS1, HS2, HT0⟩
        isplitl [HS0 HS1 HS2 Hg HT0]
        · isplitl [HS0 HS1 HS2 Hg]
          · isplitl [HS0 HS1 HS2]
            · isplitl [HS0]
              · iexact HS0
              isplitl [HS1]
              · iexact HS1
              iexact HS2
            iexact Hg
          iexact HT0
        isplitl [Ho]; · iexact Ho
        isplitl [H0]; · iexact H0
        isplitl [H1]; · iexact H1
        isplitl [H2]; · iexact H2
        isplitl [H3]; · iexact H3
        unfold owns rdO; iexists _; isplitr
        swap; · iexact H4
        ipureintro; exact View.read_writes_of_cover _ _ _ _ _ (cover0_E_4 c _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [Dat.leavesExact_idle (dats m hO 0 c) 4 t (idleAt0_4 m hO t h3) (noFlush0_4 m hO t h3)]
        rw [outsAt0_eq]; unfold stepAt; rw [dif_neg h1, dif_neg h2, dif_neg h3]; (try dsimp only)
        have hz : t.val ≠ 0 := nz_of_not1 t h1
        rw [prevAt_pos m hO c _ _ hz]
        rw [PhiS_pos m hO c _ _ hz]
        iintro ⟨⟨⟨⟨HS0, HS1, HS2⟩, Hg⟩, HT0⟩, Ho, ⟨%d0, H0⟩, ⟨%d1, H1⟩, ⟨%d2, H2⟩, ⟨%d3, H3⟩, ⟨%d4, H4⟩⟩
        iapply ((kernelRun0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) _ _ _ (tbl m 0) h2) _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HT0]; · iexact HT0
        iintro ⟨H0, H1, H2, H3, H4, HS0, HS1, HS2, HT0⟩
        isplitl [HS0 HS1 HS2 Hg HT0]
        · isplitl [HS0 HS1 HS2 Hg]
          · isplitl [HS0 HS1 HS2]
            · isplitl [HS0]
              · iexact HS0
              isplitl [HS1]
              · iexact HS1
              iexact HS2
            iexact Hg
          iexact HT0
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

/-- What the launch hands the pallas_call is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = iprop(PhiS m hO c 0 (Nat.zero_le _) ∗ Pipeline.ΦT pre0 (tbl m) c) from rfl, PhiS_zero m hO c 0 _ rfl]
  try exact Idealize.SL.BI.Entails.refl _

/-- After the last point the scratch contents are forgotten and the table's half let go. -/
theorem hout (hO : Ok m) (c : Dev nD) : (dats m hO 0 c).Φ (Fin.last (cfgM m hO).N) ⊢ Pipeline.ΦA spec0 c := by
  have hN : (cfgM m hO).N = 64 := N_0
  rw [show (dats m hO 0 c).Φ (Fin.last (cfgM m hO).N) = iprop(PhiS m hO c (Fin.last (cfgM m hO).N).val (Nat.le_of_lt_succ (Fin.last (cfgM m hO).N).isLt) ∗ Pipeline.ΦT pre0 (tbl m) c) from rfl,
    PhiS_pos m hO c _ _ (by rw [Fin.val_last]; omega), PhiA0_eq]
  iintro ⟨⟨⟨HS0, HS1, HS2⟩, Hg⟩, -⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- Every weakly fair execution of @main terminates, every array of the pallas_call at what the proof data compute and
    every other unscoped buffer as the pallas_call found it. -/
theorem run_main (hO : Ok m) : θ_run defs (onTc (τ := τ) (main (F := F))) (s₀ m ρ) (Pipeline.FramePost (Pipeline.pin pcfgs fun _ => adm m hO) (dats m hO) 0 (V m)) :=
  Pipeline.θ_run_frameP_track pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame: the argument arrays end unchanged. -/
theorem frame_of (hO : Ok m) (h : θ_run defs (onTc (τ := τ) (main (F := F))) (s₀ m ρ) (Pipeline.FramePost (Pipeline.pin pcfgs fun _ => adm m hO) (dats m hO) 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (run_main m ρ hO)

end Cert.Kernel.Hand

end
-- ==== Proof.FrameDefs.lean ====
/-
  What the pallas_call finds when it is entered, and what the grid's points are called with.

  @main is eleven host operations and then the one pallas_call. The contents `V` of the TensorCore's buffers at the
  call are the launch memory folded through those operations; none of them writes an argument array. The call's
  prefetched table is the constant permutation [0, 7, 1, 6, 2, 5, 3, 4] that @main itself writes, so at every
  grid point (slot s, step k) the query tile is table[s], the key/value tile is min(k, table[s]) and every block
  lies inside its array.
-/
import proofs.«101383_j27444841022105_2_alg».proof.Proof.Gen.KernelIdeal.Launch
import proofs.«101383_j27444841022105_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the pallas_call -/

/-- Core `c`'s buffers when the pallas_call is entered: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the pallas_call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The prefetched table -/

/-- The table's contents when the pallas_call is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table is the constant @main writes first: the permutation's words in order. -/
theorem tbl_eq : tbl m = fun (j : Fin 1) => match j with | ⟨0, _⟩ => (fun i => lit0 (S8.rowMajor i) : (⟨S8, .i32⟩ : BufTy).Contents (Elt F)) := by
  funext j
  match j with
  | ⟨0, _⟩ =>
    show (V m 0 main_c : (⟨S8, .i32⟩ : BufTy).Contents (Elt F)) = _
    dsimp only [V, hostOps0]; after_results; rfl

/-- The pipeline's side condition of the table: every block inside its array, transfers word-exact. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it. -/
abbrev tbM0_0 : Memref sig .tc .smem S8 .i32 := Memref.whole main_c
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half the region hands the body. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the pallas_call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

/-- One staging buffer of the output window, through which its contents are stated; the three scratch buffers. -/
abbrev VO0_4 : View sig .tc .vmem S1024x256 .f32 := (Memref.whole cc0_stg4_0 : Memref sig .tc .vmem S1024x256 .f32).view
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x256 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x256 .f32 := scM0_2.view

abbrev ms0_0 (hO : Ok m) (t : Fin (cfgM m hO).N) : Memref sig .tc .vmem S1024x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x1024 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x256 .f32 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with. -/
abbrev bodyAt0 (a : (pcfg0 (F := F)).Adm) (t : Fin (cfg0 a).N) : Prog (TpuEff nD τ sig (Elt F) Λ₀ .tc) PUnit :=
  cc0__attn_kernel (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

end Cert.KernelIdeal.Hand

end
-- ==== Proof.Conds.lean ====
/-
  The three conditions of the kernel body at a grid point (slot s, step k): "k = 0" (the running maximum and sums are
  reset), "k ≤ table[s]" (the tile pair is on or below the diagonal: one online-softmax step), "k = 7" (the row's
  result is written). The second reads the table's word; the others only the step.
-/
import proofs.«101383_j27444841022105_2_alg».proof.Proof.FrameDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- "k = 0". -/
abbrev cond1 (i : grid0.Coords) : Prop := (Scalar.cmpi .ne (Scalar.extui (Scalar.cmpi .eq (BitVec.ofNat 32 (i 1).val) 0#32)) 0#32) = 1#1
/-- "k ≤ w", w the table's word for the slot. -/
abbrev cond2 (i : grid0.Coords) (w : BitVec 32) : Prop := (Scalar.cmpi .ne (Scalar.extui (Scalar.cmpi .sle (BitVec.ofNat 32 (i 1).val) w)) 0#32) = 1#1
/-- "k = 7". -/
abbrev cond3 (i : grid0.Coords) : Prop := k0_cond3 i = 1#1

/-- The table's word for the point's slot, as the body reads it off the table held at contents `xt`. -/
abbrev wordOf (c : Dev nD) (i : grid0.Coords) (xt : TbBuf0 (F := F) c tbM0_0) : Elt F .i32 :=
  tbM0_0.view.readAt (Elt F) (Rect.unit (s := S8) (k0_off1 i) S1.size (k0_off1_inb i)).toLoadRect xt (Shape.Idx.first (numel1_S1.symm ▸ Nat.one_pos))

end Cert.KernelIdeal.Hand

end
-- ==== Proof.Sched.lean ====
/-
  The schedule of the pallas_call: the 8×8 grid's point t has slot t / 8 and step t % 8; the prefetched table is
  the constant permutation [0, 7, 1, 6, 2, 5, 3, 4]; so at point t the query tile is perm (t / 8), the key/value
  tile is min (t % 8) (perm (t / 8)), the three conditions of the body are t % 8 = 0, t % 8 ≤ perm (t / 8) and
  t % 8 = 7, and the output window is written back exactly at the points with t % 8 = 7.
-/
import proofs.«101383_j27444841022105_2_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## Where the windows are idle, and the output window's write-backs -/

theorem idle_a0 (a : (pcfg0 (F := F)).Adm) (i : grid0.Coords) : (cfg0 a).idle 0 i = false := rfl
theorem idle_a1 (a : (pcfg0 (F := F)).Adm) (i : grid0.Coords) : (cfg0 a).idle 1 i = false := rfl
theorem idle_a2 (a : (pcfg0 (F := F)).Adm) (i : grid0.Coords) : (cfg0 a).idle 2 i = false := rfl
theorem idle_a3 (a : (pcfg0 (F := F)).Adm) (i : grid0.Coords) : (cfg0 a).idle 3 i = false := rfl
/-- The output window is idle exactly off the last step. -/
theorem idle_a4 (a : (pcfg0 (F := F)).Adm) (i : grid0.Coords) : (cfg0 a).idle 4 i = !(k0_cond3 i == 1#1) := rfl

/-- The input windows are idle nowhere. -/
theorem liveAt0_0 (hO : Ok m) (t : Fin (cfgM m hO).N) : (cfgM m hO).idle 0 (grid0.coords t) = false :=
  idle_a0 (adm m hO) (grid0.coords t)
theorem liveAt0_1 (hO : Ok m) (t : Fin (cfgM m hO).N) : (cfgM m hO).idle 1 (grid0.coords t) = false :=
  idle_a1 (adm m hO) (grid0.coords t)
theorem liveAt0_2 (hO : Ok m) (t : Fin (cfgM m hO).N) : (cfgM m hO).idle 2 (grid0.coords t) = false :=
  idle_a2 (adm m hO) (grid0.coords t)
theorem liveAt0_3 (hO : Ok m) (t : Fin (cfgM m hO).N) : (cfgM m hO).idle 3 (grid0.coords t) = false :=
  idle_a3 (adm m hO) (grid0.coords t)

theorem idleAt0_4 (hO : Ok m) (t : Fin (cfgM m hO).N) (h3 : ¬cond3 (grid0.coords t)) :
    (cfgM m hO).idle 4 (grid0.coords t) = true :=
  (idle_a4 (adm m hO) (grid0.coords t)).trans (by rw [beq_eq_false_iff_ne.mpr h3]; rfl)

theorem liveAt0_4 (hO : Ok m) (t : Fin (cfgM m hO).N) (h3 : cond3 (grid0.coords t)) :
    (cfgM m hO).idle 4 (grid0.coords t) = false :=
  (idle_a4 (adm m hO) (grid0.coords t)).trans (by rw [beq_iff_eq.mpr h3]; rfl)

/-- Off the last step the next point exists and has the same slot. -/
theorem next_same_slot : ∀ t : Fin grid0.N, ¬cond3 (grid0.coords t) →
    ∃ h : t.val + 1 < grid0.N, (grid0.coords ⟨t.val + 1, h⟩) 0 = (grid0.coords t) 0 := by decide +kernel

/-- A window whose block index at the next point is the one at this point is not written back here. -/
theorem flush_false_of {G : Pipeline.Grid} (w : Pipeline.Window sig G) (t : Fin G.N) (h : t.val + 1 < G.N)
    (he : w.index ⟨t.val + 1, h⟩ = w.index t) : w.flush t = false := by
  unfold Pipeline.Window.flush
  have h1 : ¬ (t.val + 1 = G.N) := by omega
  have h2 : ¬ (∃ h' : t.val + 1 < G.N, w.index ⟨t.val + 1, h'⟩ ≠ w.index t) := fun ⟨_, hne⟩ => hne he
  simp [h1, h2]

/-- The output window's block index is its index map at the point's coordinates, which reads the slot only. -/
theorem index_a4 (a : (pcfg0 (F := F)).Adm) (t : Fin (cfg0 a).N) :
    ((cfg0 a).win 4).index t = cc0_transform_4 Facts₀.k0_off1_inb Facts₀.numel1_S1 a.1 (grid0.coords t) := rfl

theorem noFlush_a4 (a : (pcfg0 (F := F)).Adm) (t : Fin (cfg0 a).N) (h3 : ¬cond3 (grid0.coords t)) :
    ((cfg0 a).win 4).flush t = false := by
  obtain ⟨h, hs⟩ := next_same_slot t h3
  refine flush_false_of ((cfg0 a).win 4) t h ?_
  rw [index_a4 a, index_a4 a]
  refine Facts₀.hreads0_4 a.1 _ _ (fun x hx => ?_)
  match x, hx with
  | ⟨0, _⟩, _ => exact hs
  | ⟨1, _⟩, hx => exact absurd (show false = true from hx) Bool.false_ne_true

theorem noFlush0_4 (hO : Ok m) (t : Fin (cfgM m hO).N) (h3 : ¬cond3 (grid0.coords t)) :
    ((cfgM m hO).win 4).flush t = false :=
  noFlush_a4 (adm m hO) t h3

theorem no13 : ∀ i : grid0.Coords, cond1 i → cond3 i → False := by decide +kernel

theorem nz_of_not1 : ∀ t : Fin grid0.N, ¬cond1 (grid0.coords t) → t.val ≠ 0 := by decide +kernel

/-- The pipeline's own part of the invariant: the three scratch buffers owned whole at some contents, and the
    random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The permutation and the side condition -/

/-- The table's words as natural numbers. -/
def perm : Fin 8 → Nat := ![0, 7, 1, 6, 2, 5, 3, 4]

/-- The table's contents, as a literal. -/
abbrev litTbl : pre0.Contents (Elt F) := fun (j : Fin 1) => match j with
  | ⟨0, _⟩ => (fun i => lit0 (S8.rowMajor i) : (⟨S8, .i32⟩ : BufTy).Contents (Elt F))

set_option maxHeartbeats 2000000 in
/-- Every block named by the literal table lies inside its array (checked at the extended reals, where the
    statement is about 32-bit words only). -/
theorem ok_ideal : ok0 (F := Ideal) (litTbl (F := Ideal)) := by decide +kernel

/-- The same at any float instance: the statement mentions words only. -/
theorem ok_lit : ok0 (F := F) (litTbl (F := F)) := ok_ideal

/-- The pipeline's side condition holds. -/
theorem ok : Ok m := by
  show ok0 (tbl m)
  rw [tbl_eq]
  exact ok_lit

/-! ## The grid's coordinates -/

theorem t_lt (t : Fin grid0.N) : t.val < 64 := by
  exact lt_of_lt_of_eq t.isLt N_0

/-- Point t has slot t / 8 -/
theorem coords0 (t : Fin grid0.N) : ((grid0.coords t) 0).val = t.val / 8 := by
  have h := t_lt t
  show t.val / grid0.stride 0 % 8 = t.val / 8
  have hs : grid0.stride 0 = 8 := by decide
  rw [hs]
  omega

/-- and step t % 8. -/
theorem coords1 (t : Fin grid0.N) : ((grid0.coords t) 1).val = t.val % 8 := by
  show t.val / grid0.stride 1 % 8 = t.val % 8
  have hs : grid0.stride 1 = 1 := by decide
  rw [hs, Nat.div_one]

theorem slot_eq (t : Fin grid0.N) (h : t.val / 8 < 8) : (grid0.coords t) 0 = ⟨t.val / 8, h⟩ :=
  Fin.ext (coords0 t)

theorem step_eq (t : Fin grid0.N) (h : t.val % 8 < 8) : (grid0.coords t) 1 = ⟨t.val % 8, h⟩ :=
  Fin.ext (coords1 t)

/-! ## The table's word at a point -/

/-- Index k of the [8] table. -/
def ik (k : Fin 8) : S8.Idx := fun a => match a with | ⟨0, _⟩ => k

/-- A unit rectangle's index at offset k of the [8] table is index k. -/
theorem idx_eq (k : Fin 8) (off : Fin 1 → Nat) (hoff : off 0 = k.val) (inb : ∀ a, off a + S1.size a ≤ S8.size a)
    (h1 : 0 < S1.numel) : (Rect.unit (s := S8) off S1.size inb).idx (Shape.Idx.first h1) = ik k := by
  funext a
  apply Fin.ext
  fin_cases a
  show off 0 + 1 * (Shape.Idx.first h1 (0 : Fin 1)).val = k.val
  have : (Shape.Idx.first h1 (0 : Fin 1)).val = 0 := rfl
  rw [this, hoff]; omega

/-- The offset the body and the index maps read the table at is the point's slot. -/
theorem off1_eq (i : grid0.Coords) : k0_off1 i 0 = (i 0).val := by
  show (BitVec.ofNat 32 (i 0).val).toNat = (i 0).val
  rw [BitVec.toNat_ofNat]
  have h : (i 0).val < 8 := (i 0).isLt
  omega

/-- The word read through the whole table at the point's unit rectangle is the table's entry at the slot. -/
theorem wordOf_eq (c : Dev nD) (i : grid0.Coords) (xt : TbBuf0 (F := F) c tbM0_0) :
    wordOf c i xt = xt (ik (i 0)) :=
  congrArg xt (idx_eq (i 0) _ (off1_eq i) _ _)

/-- The literal's entries are the permutation's words. -/
theorem lit_perm : ∀ k : Fin 8, lit0 (S8.rowMajor (ik k)) = BitVec.ofNat 32 (perm k) := by decide +kernel

/-- The table's entry at slot k is perm k. -/
theorem tbl_at (k : Fin 8) : tbl m 0 (ik k) = BitVec.ofNat 32 (perm k) :=
  (congrFun (congrFun (tbl_eq m) 0) (ik k)).trans (lit_perm k)

/-- The table's word at a point is the permutation at its slot. -/
theorem word_tbl (c : Dev nD) (i : grid0.Coords) : wordOf c i (tbl m 0) = BitVec.ofNat 32 (perm (i 0)) :=
  (wordOf_eq c i (tbl m 0)).trans (tbl_at m (i 0))

/-! ## The body's three conditions in closed form -/

theorem cond1_iff : ∀ t : Fin grid0.N, (cond1 (grid0.coords t) ↔ t.val % 8 = 0) := by decide +kernel

theorem cond3_iff : ∀ t : Fin grid0.N, (cond3 (grid0.coords t) ↔ t.val % 8 = 7) := by decide +kernel

theorem cond2_iff : ∀ t : Fin grid0.N,
    (cond2 (grid0.coords t) (BitVec.ofNat 32 (perm ((grid0.coords t) 0))) ↔ t.val % 8 ≤ perm ((grid0.coords t) 0)) := by
  decide +kernel

theorem cond2_iff' (t : Fin grid0.N) (h : t.val / 8 < 8) :
    cond2 (grid0.coords t) (BitVec.ofNat 32 (perm ⟨t.val / 8, h⟩)) ↔ t.val % 8 ≤ perm ⟨t.val / 8, h⟩ := by
  have e := cond2_iff t
  rw [slot_eq t h] at e
  exact e

/-! ## The windows' block indices -/

theorem toNat_perm : ∀ k : Fin 8, (BitVec.ofNat 32 (perm k)).toNat = perm k := by decide +kernel

theorem toNat_min : ∀ k0 k1 : Fin 8,
    (Scalar.minsi (BitVec.ofNat 32 k1.val) (BitVec.ofNat 32 (perm k0))).toNat = min k1.val (perm k0) := by
  decide +kernel

/-- The index maps' read of the table is the table's entry at the slot. -/
theorem at_eq (pf : pre0.Contents (Elt F)) (i : grid0.Coords) :
    pf.at 0 (Rect.unit (s := S8) (k0_off1 i) S1.size (Facts₀.k0_off1_inb i)) Facts₀.numel1_S1 = pf 0 (ik (i 0)) :=
  congrArg (pf 0) (idx_eq (i 0) _ (off1_eq i) _ _)

theorem transform_0_eq (pf : pre0.Contents (Elt F)) (i : grid0.Coords) :
    cc0_transform_0 Facts₀.k0_off1_inb Facts₀.numel1_S1 pf i
      = ![(pf.at 0 (Rect.unit (s := S8) (k0_off1 i) S1.size (Facts₀.k0_off1_inb i)) Facts₀.numel1_S1 : BitVec 32).toNat, 0] := rfl

theorem transform_1_eq (pf : pre0.Contents (Elt F)) (i : grid0.Coords) :
    cc0_transform_1 Facts₀.k0_off1_inb Facts₀.numel1_S1 pf i
      = ![(Scalar.minsi (BitVec.ofNat 32 (i 1).val)
            (pf.at 0 (Rect.unit (s := S8) (k0_off1 i) S1.size (Facts₀.k0_off1_inb i)) Facts₀.numel1_S1 : BitVec 32)).toNat, 0] := rfl

theorem transform_2_eq (pf : pre0.Contents (Elt F)) (i : grid0.Coords) :
    cc0_transform_2 Facts₀.k0_off1_inb Facts₀.numel1_S1 pf i
      = ![(Scalar.minsi (BitVec.ofNat 32 (i 1).val)
            (pf.at 0 (Rect.unit (s := S8) (k0_off1 i) S1.size (Facts₀.k0_off1_inb i)) Facts₀.numel1_S1 : BitVec 32)).toNat, 0] := rfl

theorem transform_3_eq (pf : pre0.Contents (Elt F)) (i : grid0.Coords) :
    cc0_transform_3 Facts₀.k0_off1_inb Facts₀.numel1_S1 pf i
      = ![(pf.at 0 (Rect.unit (s := S8) (k0_off1 i) S1.size (Facts₀.k0_off1_inb i)) Facts₀.numel1_S1 : BitVec 32).toNat,
          (Scalar.minsi (BitVec.ofNat 32 (i 1).val)
            (pf.at 0 (Rect.unit (s := S8) (k0_off1 i) S1.size (Facts₀.k0_off1_inb i)) Facts₀.numel1_S1 : BitVec 32)).toNat] := rfl

theorem transform_4_eq (pf : pre0.Contents (Elt F)) (i : grid0.Coords) :
    cc0_transform_4 Facts₀.k0_off1_inb Facts₀.numel1_S1 pf i
      = ![(pf.at 0 (Rect.unit (s := S8) (k0_off1 i) S1.size (Facts₀.k0_off1_inb i)) Facts₀.numel1_S1 : BitVec 32).toNat, 0] := rfl

section
variable (pf : pre0.Contents (Elt F)) (hpf : ∀ k : Fin 8, pf 0 (ik k) = BitVec.ofNat 32 (perm k)) (i : grid0.Coords)
include hpf

/-- At a table holding the permutation, the index maps' read is perm at the slot. -/
theorem at_perm :
    (pf.at 0 (Rect.unit (s := S8) (k0_off1 i) S1.size (Facts₀.k0_off1_inb i)) Facts₀.numel1_S1 : BitVec 32)
      = BitVec.ofNat 32 (perm (i 0)) :=
  (at_eq pf i).trans (hpf (i 0))

theorem transform_0_perm : cc0_transform_0 Facts₀.k0_off1_inb Facts₀.numel1_S1 pf i = ![perm (i 0), 0] := by
  rw [transform_0_eq, at_perm pf hpf i, toNat_perm (i 0)]

theorem transform_1_perm :
    cc0_transform_1 Facts₀.k0_off1_inb Facts₀.numel1_S1 pf i = ![min (i 1).val (perm (i 0)), 0] := by
  rw [transform_1_eq, at_perm pf hpf i, toNat_min (i 0) (i 1)]

theorem transform_2_perm :
    cc0_transform_2 Facts₀.k0_off1_inb Facts₀.numel1_S1 pf i = ![min (i 1).val (perm (i 0)), 0] := by
  rw [transform_2_eq, at_perm pf hpf i, toNat_min (i 0) (i 1)]

theorem transform_3_perm :
    cc0_transform_3 Facts₀.k0_off1_inb Facts₀.numel1_S1 pf i = ![perm (i 0), min (i 1).val (perm (i 0))] := by
  rw [transform_3_eq, at_perm pf hpf i, toNat_perm (i 0), toNat_min (i 0) (i 1)]

theorem transform_4_perm : cc0_transform_4 Facts₀.k0_off1_inb Facts₀.numel1_S1 pf i = ![perm (i 0), 0] := by
  rw [transform_4_eq, at_perm pf hpf i, toNat_perm (i 0)]

end

/-- Each window's block index is its index map at the point's coordinates. -/
theorem index_a0 (a : (pcfg0 (F := F)).Adm) (t : Fin (cfg0 a).N) :
    ((cfg0 a).win 0).index t = cc0_transform_0 Facts₀.k0_off1_inb Facts₀.numel1_S1 a.1 (grid0.coords t) := rfl
theorem index_a1 (a : (pcfg0 (F := F)).Adm) (t : Fin (cfg0 a).N) :
    ((cfg0 a).win 1).index t = cc0_transform_1 Facts₀.k0_off1_inb Facts₀.numel1_S1 a.1 (grid0.coords t) := rfl
theorem index_a2 (a : (pcfg0 (F := F)).Adm) (t : Fin (cfg0 a).N) :
    ((cfg0 a).win 2).index t = cc0_transform_2 Facts₀.k0_off1_inb Facts₀.numel1_S1 a.1 (grid0.coords t) := rfl
theorem index_a3 (a : (pcfg0 (F := F)).Adm) (t : Fin (cfg0 a).N) :
    ((cfg0 a).win 3).index t = cc0_transform_3 Facts₀.k0_off1_inb Facts₀.numel1_S1 a.1 (grid0.coords t) := rfl

/-- The query window (0) and the output window (4) are at tile perm (slot). -/
theorem index0 (hO : Ok m) (t : Fin (cfgM m hO).N) :
    ((cfgM m hO).win 0).index t = ![perm ((grid0.coords t) 0), 0] :=
  (index_a0 (adm m hO) t).trans (transform_0_perm (tbl m) (tbl_at m) (grid0.coords t))
theorem index4 (hO : Ok m) (t : Fin (cfgM m hO).N) :
    ((cfgM m hO).win 4).index t = ![perm ((grid0.coords t) 0), 0] :=
  (index_a4 (adm m hO) t).trans (transform_4_perm (tbl m) (tbl_at m) (grid0.coords t))
/-- The key and value windows (1, 2) are at tile min (step) (perm (slot)). -/
theorem index1 (hO : Ok m) (t : Fin (cfgM m hO).N) :
    ((cfgM m hO).win 1).index t = ![min ((grid0.coords t) 1).val (perm ((grid0.coords t) 0)), 0] :=
  (index_a1 (adm m hO) t).trans (transform_1_perm (tbl m) (tbl_at m) (grid0.coords t))
theorem index2 (hO : Ok m) (t : Fin (cfgM m hO).N) :
    ((cfgM m hO).win 2).index t = ![min ((grid0.coords t) 1).val (perm ((grid0.coords t) 0)), 0] :=
  (index_a2 (adm m hO) t).trans (transform_2_perm (tbl m) (tbl_at m) (grid0.coords t))
/-- The mask window (3) is at the tile pair (perm (slot), min (step) (perm (slot))). -/
theorem index3 (hO : Ok m) (t : Fin (cfgM m hO).N) :
    ((cfgM m hO).win 3).index t
      = ![perm ((grid0.coords t) 0), min ((grid0.coords t) 1).val (perm ((grid0.coords t) 0))] :=
  (index_a3 (adm m hO) t).trans (transform_3_perm (tbl m) (tbl_at m) (grid0.coords t))

/-! ## The output window's write-backs -/

theorem isOut_a4 (a : (pcfg0 (F := F)).Adm) : ((cfg0 a).win 4).isOut = true := rfl

/-- An output window is written back at the last point and wherever the next point's block index differs. -/
theorem flush_true_of {G : Pipeline.Grid} (w : Pipeline.Window sig G) (t : Fin G.N) (ho : w.isOut = true)
    (h : t.val + 1 = G.N ∨ ∃ h : t.val + 1 < G.N, w.index ⟨t.val + 1, h⟩ ≠ w.index t) : w.flush t = true := by
  unfold Pipeline.Window.flush
  rw [ho, Bool.true_and, Bool.or_eq_true, decide_eq_true_eq, decide_eq_true_eq]
  exact h

/-- At the last step the point is the last one, or the next point's slot holds another tile (the permutation
    is injective). -/
theorem last_or_next : ∀ t : Fin grid0.N, t.val % 8 = 7 →
    t.val + 1 = grid0.N ∨ ∃ h : t.val + 1 < grid0.N,
      perm ((grid0.coords ⟨t.val + 1, h⟩) 0) ≠ perm ((grid0.coords t) 0) := by decide +kernel

/-- The output window is written back exactly at the last step of each slot. -/
theorem flush4_iff (hO : Ok m) (t : Fin (cfgM m hO).N) : ((cfgM m hO).win 4).flush t = true ↔ t.val % 8 = 7 := by
  constructor
  · intro hf
    by_contra h7
    have h3 : ¬cond3 (grid0.coords t) := fun h => h7 ((cond3_iff t).mp h)
    rw [noFlush0_4 m hO t h3] at hf
    exact Bool.false_ne_true hf
  · intro h7
    refine flush_true_of _ t (isOut_a4 (adm m hO)) ?_
    rcases last_or_next t h7 with h | ⟨h, hne⟩
    · exact Or.inl h
    · refine Or.inr ⟨h, fun he => hne ?_⟩
      have e1 := index4 m hO ⟨t.val + 1, h⟩
      have e2 := index4 m hO t
      rw [e1, e2] at he
      exact congrFun he 0

/-- The output window is idle exactly off the last step. -/
theorem idle4_iff (hO : Ok m) (t : Fin (cfgM m hO).N) :
    (cfgM m hO).idle 4 (grid0.coords t) = true ↔ t.val % 8 ≠ 7 := by
  constructor
  · intro h h7
    rw [liveAt0_4 m hO t ((cond3_iff t).mpr h7)] at h
    exact Bool.false_ne_true h
  · intro h7
    exact idleAt0_4 m hO t (fun h => h7 ((cond3_iff t).mp h))

end Cert.KernelIdeal.Hand

end
-- ==== Proof.Runs.lean ====
/-
  The kernel body run once per control case. A grid point is (slot s, step k); the body's three conditions are
  "k = 0" (reset of the running maximum and sums), "k ≤ table[s]" (the tile pair is on or below the diagonal: one
  online-softmax step) and "k = 7" (the row tile's result is stored). Six combinations can be stated without knowing
  the table (reset and last step never coincide). Each run holds the q, k, v and mask blocks, the output window's
  buffer, the three scratch buffers and the table's half, and returns what the stores leave: every store is of a
  whole buffer.
-/
import proofs.«101383_j27444841022105_2_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Case A
  The kernel body at the first step of a row's sweep (k = 0) with the tile pair on or below the diagonal: the three
  scratch buffers are reset (running maximum -∞, running sum 0, running weighted sum 0) and one online-softmax step is
  taken from them; each scratch buffer ends written twice, whole each time; the output window is untouched.
-/

set_option maxHeartbeats 4000000 in
noncomputable def kernelRun0_A (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) :
    Σ' (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, ⟨%ds1, %fs1, %hfs1, HS1⟩, ⟨%ds2, %fs2, %hfs2, HS2⟩, HT0, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexact HT0

/-- The stores into scratch buffer 0 cover it (each is a store of the whole buffer). -/
theorem scover0_A_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) (y : S1024x1.Idx) :
    ∃ pc ∈ (kernelRun0_A c i arg3 harg3 arg4 harg4 arg5 harg5 arg6 harg6 arg7 harg7 arg8 harg8 arg9 harg9 arg10 harg10 hc1 hc3 x0 x1 x2 x3 xt0 hc2).1, y ∈ pc.1.set :=
  View.cover_of_tiledL (kernelRun0_A c i arg3 harg3 arg4 harg4 arg5 harg5 arg6 harg6 arg7 harg7 arg8 harg8 arg9 harg9 arg10 harg10 hc1 hc3 x0 x1 x2 x3 xt0 hc2).1 S1024x1.size (by sl_kernel_rfl) y

/-- The stores into scratch buffer 1 cover it (each is a store of the whole buffer). -/
theorem scover0_A_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) (y : S1024x1.Idx) :
    ∃ pc ∈ (kernelRun0_A c i arg3 harg3 arg4 harg4 arg5 harg5 arg6 harg6 arg7 harg7 arg8 harg8 arg9 harg9 arg10 harg10 hc1 hc3 x0 x1 x2 x3 xt0 hc2).2.1, y ∈ pc.1.set :=
  View.cover_of_tiledL (kernelRun0_A c i arg3 harg3 arg4 harg4 arg5 harg5 arg6 harg6 arg7 harg7 arg8 harg8 arg9 harg9 arg10 harg10 hc1 hc3 x0 x1 x2 x3 xt0 hc2).2.1 S1024x1.size (by sl_kernel_rfl) y

/-- The stores into scratch buffer 2 cover it (each is a store of the whole buffer). -/
theorem scover0_A_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) (y : S1024x256.Idx) :
    ∃ pc ∈ (kernelRun0_A c i arg3 harg3 arg4 harg4 arg5 harg5 arg6 harg6 arg7 harg7 arg8 harg8 arg9 harg9 arg10 harg10 hc1 hc3 x0 x1 x2 x3 xt0 hc2).2.2.1, y ∈ pc.1.set :=
  View.cover_of_tiledL (kernelRun0_A c i arg3 harg3 arg4 harg4 arg5 harg5 arg6 harg6 arg7 harg7 arg8 harg8 arg9 harg9 arg10 harg10 hc1 hc3 x0 x1 x2 x3 xt0 hc2).2.2.1 S1024x256.size (by sl_kernel_rfl) y

/-! ## Case Ap
  The kernel body at the first step of a row's sweep (k = 0) when the tile pair is above the diagonal: only the reset of
  the three scratch buffers; the output window is untouched.
-/

set_option maxHeartbeats 4000000 in
noncomputable def kernelRun0_Ap (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) :
    Σ' (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, ⟨%ds1, %fs1, %hfs1, HS1⟩, ⟨%ds2, %fs2, %hfs2, HS2⟩, HT0, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexact HT0

/-- The stores into scratch buffer 0 cover it (each is a store of the whole buffer). -/
theorem scover0_Ap_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) (y : S1024x1.Idx) :
    ∃ pc ∈ (kernelRun0_Ap c i arg3 harg3 arg4 harg4 arg5 harg5 arg6 harg6 arg7 harg7 arg8 harg8 arg9 harg9 arg10 harg10 hc1 hc3 x0 x1 x2 x3 xt0 hc2).1, y ∈ pc.1.set :=
  View.cover_of_tiledL (kernelRun0_Ap c i arg3 harg3 arg4 harg4 arg5 harg5 arg6 harg6 arg7 harg7 arg8 harg8 arg9 harg9 arg10 harg10 hc1 hc3 x0 x1 x2 x3 xt0 hc2).1 S1024x1.size (by sl_kernel_rfl) y

/-- The stores into scratch buffer 1 cover it (each is a store of the whole buffer). -/
theorem scover0_Ap_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) (y : S1024x1.Idx) :
    ∃ pc ∈ (kernelRun0_Ap c i arg3 harg3 arg4 harg4 arg5 harg5 arg6 harg6 arg7 harg7 arg8 harg8 arg9 harg9 arg10 harg10 hc1 hc3 x0 x1 x2 x3 xt0 hc2).2.1, y ∈ pc.1.set :=
  View.cover_of_tiledL (kernelRun0_Ap c i arg3 harg3 arg4 harg4 arg5 harg5 arg6 harg6 arg7 harg7 arg8 harg8 arg9 harg9 arg10 harg10 hc1 hc3 x0 x1 x2 x3 xt0 hc2).2.1 S1024x1.size (by sl_kernel_rfl) y

/-- The stores into scratch buffer 2 cover it (each is a store of the whole buffer). -/
theorem scover0_Ap_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) (y : S1024x256.Idx) :
    ∃ pc ∈ (kernelRun0_Ap c i arg3 harg3 arg4 harg4 arg5 harg5 arg6 harg6 arg7 harg7 arg8 harg8 arg9 harg9 arg10 harg10 hc1 hc3 x0 x1 x2 x3 xt0 hc2).2.2.1, y ∈ pc.1.set :=
  View.cover_of_tiledL (kernelRun0_Ap c i arg3 harg3 arg4 harg4 arg5 harg5 arg6 harg6 arg7 harg7 arg8 harg8 arg9 harg9 arg10 harg10 hc1 hc3 x0 x1 x2 x3 xt0 hc2).2.2.1 S1024x256.size (by sl_kernel_rfl) y

/-! ## Case B
  The kernel body at a step strictly inside a row's sweep (0 < k < 7) with the tile pair on or below the diagonal: one
  online-softmax step. It reads the q, k, v and mask blocks and the three scratch buffers (running maximum, running sum,
  running weighted sum) and overwrites each scratch buffer whole; the output window is untouched.
-/

set_option maxHeartbeats 4000000 in
noncomputable def kernelRun0_B (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    Σ' (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare xs0 ∗ owns (c : Thread nD τ) arg9 fullShare xs1 ∗ owns (c : Thread nD τ) arg10 fullShare xs2
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0; obtain rfl := harg9.eq_unread hfs1; obtain rfl := harg10.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexact HT0

/-- The stores into scratch buffer 0 cover it (each is a store of the whole buffer). -/
theorem scover0_B_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x1.Idx) :
    ∃ pc ∈ (kernelRun0_B c i arg3 harg3 arg4 harg4 arg5 harg5 arg6 harg6 arg7 harg7 arg8 harg8 arg9 harg9 arg10 harg10 hc1 hc3 x0 x1 x2 x3 xs0 xs1 xs2 xt0 hc2).1, y ∈ pc.1.set :=
  View.cover_of_tiledL (kernelRun0_B c i arg3 harg3 arg4 harg4 arg5 harg5 arg6 harg6 arg7 harg7 arg8 harg8 arg9 harg9 arg10 harg10 hc1 hc3 x0 x1 x2 x3 xs0 xs1 xs2 xt0 hc2).1 S1024x1.size (by sl_kernel_rfl) y

/-- The stores into scratch buffer 1 cover it (each is a store of the whole buffer). -/
theorem scover0_B_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x1.Idx) :
    ∃ pc ∈ (kernelRun0_B c i arg3 harg3 arg4 harg4 arg5 harg5 arg6 harg6 arg7 harg7 arg8 harg8 arg9 harg9 arg10 harg10 hc1 hc3 x0 x1 x2 x3 xs0 xs1 xs2 xt0 hc2).2.1, y ∈ pc.1.set :=
  View.cover_of_tiledL (kernelRun0_B c i arg3 harg3 arg4 harg4 arg5 harg5 arg6 harg6 arg7 harg7 arg8 harg8 arg9 harg9 arg10 harg10 hc1 hc3 x0 x1 x2 x3 xs0 xs1 xs2 xt0 hc2).2.1 S1024x1.size (by sl_kernel_rfl) y

/-- The stores into scratch buffer 2 cover it (each is a store of the whole buffer). -/
theorem scover0_B_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x256.Idx) :
    ∃ pc ∈ (kernelRun0_B c i arg3 harg3 arg4 harg4 arg5 harg5 arg6 harg6 arg7 harg7 arg8 harg8 arg9 harg9 arg10 harg10 hc1 hc3 x0 x1 x2 x3 xs0 xs1 xs2 xt0 hc2).2.2.1, y ∈ pc.1.set :=
  View.cover_of_tiledL (kernelRun0_B c i arg3 harg3 arg4 harg4 arg5 harg5 arg6 harg6 arg7 harg7 arg8 harg8 arg9 harg9 arg10 harg10 hc1 hc3 x0 x1 x2 x3 xs0 xs1 xs2 xt0 hc2).2.2.1 S1024x256.size (by sl_kernel_rfl) y

/-! ## Case C
  The kernel body at a step strictly inside a row's sweep (0 < k < 7) with the tile pair above the diagonal: nothing is
  stored; every buffer is handed back as it was found.
-/

set_option maxHeartbeats 4000000 in
theorem kernelRun0_C (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : ¬cond2 i (wordOf c i xt0)) :
    ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare xs0 ∗ owns (c : Thread nD τ) arg9 fullShare xs1 ∗ owns (c : Thread nD τ) arg10 fullShare xs2
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ owns (c : Thread nD τ) arg8 fullShare xs0 ∗ owns (c : Thread nD τ) arg9 fullShare xs1 ∗ owns (c : Thread nD τ) arg10 fullShare xs2
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K := by
  intro xi4 E K
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, HT0, Hk⟩
  obtain rfl := harg3.eq_unread hf0; obtain rfl := harg4.eq_unread hf1; obtain rfl := harg5.eq_unread hf2; obtain rfl := harg6.eq_unread hf3
  obtain rfl := harg7.eq_unread hf4
  obtain rfl := harg8.eq_unread hfs0; obtain rfl := harg9.eq_unread hfs1; obtain rfl := harg10.eq_unread hfs2
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  iexact HT0

/-! ## Case D
  The kernel body at the last step of a row's sweep (k = 7) with the tile pair on or below the diagonal: one
  online-softmax step, then the row's result, the weighted sum times two over the running sum, is stored into the
  output window whole.
-/

set_option maxHeartbeats 4000000 in
noncomputable def kernelRun0_D (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, %hf4, H4⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexact HT0

/-- The stores into the output window cover it (each is a store of the whole buffer). -/
theorem cover0_D_4 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x256.Idx) :
    ∃ pc ∈ (kernelRun0_D c i arg3 harg3 arg4 harg4 arg5 harg5 arg6 harg6 arg7 harg7 arg8 harg8 arg9 harg9 arg10 harg10 hc1 hc3 x0 x1 x2 x3 xs0 xs1 xs2 xt0 hc2).1, y ∈ pc.1.set :=
  View.cover_of_tiledL (kernelRun0_D c i arg3 harg3 arg4 harg4 arg5 harg5 arg6 harg6 arg7 harg7 arg8 harg8 arg9 harg9 arg10 harg10 hc1 hc3 x0 x1 x2 x3 xs0 xs1 xs2 xt0 hc2).1 S1024x256.size (by sl_kernel_rfl) y

/-- The stores into scratch buffer 0 cover it (each is a store of the whole buffer). -/
theorem scover0_D_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x1.Idx) :
    ∃ pc ∈ (kernelRun0_D c i arg3 harg3 arg4 harg4 arg5 harg5 arg6 harg6 arg7 harg7 arg8 harg8 arg9 harg9 arg10 harg10 hc1 hc3 x0 x1 x2 x3 xs0 xs1 xs2 xt0 hc2).2.1, y ∈ pc.1.set :=
  View.cover_of_tiledL (kernelRun0_D c i arg3 harg3 arg4 harg4 arg5 harg5 arg6 harg6 arg7 harg7 arg8 harg8 arg9 harg9 arg10 harg10 hc1 hc3 x0 x1 x2 x3 xs0 xs1 xs2 xt0 hc2).2.1 S1024x1.size (by sl_kernel_rfl) y

/-- The stores into scratch buffer 1 cover it (each is a store of the whole buffer). -/
theorem scover0_D_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x1.Idx) :
    ∃ pc ∈ (kernelRun0_D c i arg3 harg3 arg4 harg4 arg5 harg5 arg6 harg6 arg7 harg7 arg8 harg8 arg9 harg9 arg10 harg10 hc1 hc3 x0 x1 x2 x3 xs0 xs1 xs2 xt0 hc2).2.2.1, y ∈ pc.1.set :=
  View.cover_of_tiledL (kernelRun0_D c i arg3 harg3 arg4 harg4 arg5 harg5 arg6 harg6 arg7 harg7 arg8 harg8 arg9 harg9 arg10 harg10 hc1 hc3 x0 x1 x2 x3 xs0 xs1 xs2 xt0 hc2).2.2.1 S1024x1.size (by sl_kernel_rfl) y

/-- The stores into scratch buffer 2 cover it (each is a store of the whole buffer). -/
theorem scover0_D_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) (y : S1024x256.Idx) :
    ∃ pc ∈ (kernelRun0_D c i arg3 harg3 arg4 harg4 arg5 harg5 arg6 harg6 arg7 harg7 arg8 harg8 arg9 harg9 arg10 harg10 hc1 hc3 x0 x1 x2 x3 xs0 xs1 xs2 xt0 hc2).2.2.2.1, y ∈ pc.1.set :=
  View.cover_of_tiledL (kernelRun0_D c i arg3 harg3 arg4 harg4 arg5 harg5 arg6 harg6 arg7 harg7 arg8 harg8 arg9 harg9 arg10 harg10 hc1 hc3 x0 x1 x2 x3 xs0 xs1 xs2 xt0 hc2).2.2.2.1 S1024x256.size (by sl_kernel_rfl) y

/-! ## Case E
  The kernel body at the last step of a row's sweep (k = 7) with the tile pair above the diagonal: the scratch buffers are
  only read, and the row's result, the weighted sum times two over the running sum, is stored into the output window whole.
-/

set_option maxHeartbeats 4000000 in
noncomputable def kernelRun0_E (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : ¬cond2 i (wordOf c i xt0)) :
    { L4 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ owns (c : Thread nD τ) arg8 fullShare xs0 ∗ owns (c : Thread nD τ) arg9 fullShare xs1 ∗ owns (c : Thread nD τ) arg10 fullShare xs2
                ∗ tbPt0 c tbM0_0 xt0) -∗ K ⟨⟩))
          ⊢ wp frame (wpE (defs₀ (F := F)) Variants.none c none) E (cc0__attn_kernel i tbM0_0 htbM0_0 arg3 harg3 arg4 harg4 arg5 harg5 arg6 harg6 arg7 harg7 arg8 harg8 arg9 harg9 arg10 harg10) K } := by
  refine ⟨?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, %hf4, H4⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    iexact HT0

/-- The stores into the output window cover it (each is a store of the whole buffer). -/
theorem cover0_E_4 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : ¬cond2 i (wordOf c i xt0)) (y : S1024x256.Idx) :
    ∃ pc ∈ (kernelRun0_E c i arg3 harg3 arg4 harg4 arg5 harg5 arg6 harg6 arg7 harg7 arg8 harg8 arg9 harg9 arg10 harg10 hc1 hc3 x0 x1 x2 x3 xs0 xs1 xs2 xt0 hc2).1, y ∈ pc.1.set :=
  View.cover_of_tiledL (kernelRun0_E c i arg3 harg3 arg4 harg4 arg5 harg5 arg6 harg6 arg7 harg7 arg8 harg8 arg9 harg9 arg10 harg10 hc1 hc3 x0 x1 x2 x3 xs0 xs1 xs2 xt0 hc2).1 S1024x256.size (by sl_kernel_rfl) y

end Cert.KernelIdeal.Hand

end
-- ==== Proof.Outs.lean ====
/-
  What the three scratch buffers and the output window hold after each grid point.

  Point t = 8·s + k is step k of slot s. The scratch buffers carry one row tile's online-softmax state from step to
  step; `outsAt0` records, point by point, what the body leaves in the output window's buffer and in the three scratch
  buffers: at k = 0 they are reset and, the tile pair being on or below the diagonal, advanced once; at later steps
  they are advanced when the pair is on or below the diagonal and kept otherwise; at k = 7 the output window receives
  the row tile's result.
-/
import proofs.«101383_j27444841022105_2_alg».proof.Proof.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The three scratch buffers' contents. -/
abbrev SSt (F : FTy → Type) [FloatOps F] : Type := Vec F S1024x1 .f32 × Vec F S1024x1 .f32 × Vec F S1024x256 .f32

/-- A list of stores read back, through each buffer's own view. -/
def rd0 (L : List (View.Piece (Elt F) S1024x1 .f32)) : Vec F S1024x1 .f32 := VS0_0.read (Elt F) (VS0_0.writes (Elt F) VS0_0.junk L)
def rd1 (L : List (View.Piece (Elt F) S1024x1 .f32)) : Vec F S1024x1 .f32 := VS0_1.read (Elt F) (VS0_1.writes (Elt F) VS0_1.junk L)
def rd2 (L : List (View.Piece (Elt F) S1024x256 .f32)) : Vec F S1024x256 .f32 := VS0_2.read (Elt F) (VS0_2.writes (Elt F) VS0_2.junk L)
def rdO (L : List (View.Piece (Elt F) S1024x256 .f32)) : Vec F S1024x256 .f32 := VO0_4.read (Elt F) (VO0_4.writes (Elt F) VO0_4.junk L)

/-- Scratch contents nothing depends on (before the first reset). -/
def junkS : SSt F := (VS0_0.read (Elt F) VS0_0.junk, VS0_1.read (Elt F) VS0_1.junk, VS0_2.read (Elt F) VS0_2.junk)

/-! ## What one point leaves -/

/-- What the body leaves at point `t` in the output window's buffer and the scratch buffers, given the scratch
    contents `prev` it finds: by the three conditions. (Reset and last step never coincide; the value given for that case is never used.) -/
def stepAt (hO : Ok m) (c : Dev nD) (t : Fin (cfgM m hO).N) (prev : SSt F) : Vec F S1024x256 .f32 × SSt F :=
  if h1 : cond1 (grid0.coords t) then
    if h2 : cond2 (grid0.coords t) (wordOf c (grid0.coords t) (tbl m 0)) then
      if h3 : cond3 (grid0.coords t) then (VO0_4.read (Elt F) VO0_4.junk, prev)
      else ((VO0_4.read (Elt F) VO0_4.junk), (rd0 (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).1, rd1 (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.1, rd2 (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.1))
    else
      if h3 : cond3 (grid0.coords t) then (VO0_4.read (Elt F) VO0_4.junk, prev)
      else ((VO0_4.read (Elt F) VO0_4.junk), (rd0 (kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).1, rd1 (kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.1, rd2 (kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.1))
  else
    if h2 : cond2 (grid0.coords t) (wordOf c (grid0.coords t) (tbl m 0)) then
      if h3 : cond3 (grid0.coords t) then (rdO (kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).1, (rd0 (kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.1, rd1 (kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.2.1, rd2 (kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.2.2.1))
      else ((VO0_4.read (Elt F) VO0_4.junk), (rd0 (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).1, rd1 (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.1, rd2 (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).2.2.1))
    else
      if h3 : cond3 (grid0.coords t) then (rdO (kernelRun0_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2).1, prev)
      else ((VO0_4.read (Elt F) VO0_4.junk), prev)

/-- THE ACCUMULATION: the contents after the body at position `n`, each point from what the point before left. -/
def outsAt0 (hO : Ok m) (c : Dev nD) : (n : ℕ) → n < (cfgM m hO).N → Vec F S1024x256 .f32 × SSt F
  | 0, hn => stepAt m hO c ⟨0, hn⟩ junkS
  | n + 1, hn => stepAt m hO c ⟨n + 1, hn⟩ (outsAt0 hO c n (Nat.lt_of_succ_lt hn)).2

/-- The scratch contents the body finds at point `t`. -/
def prevAt (hO : Ok m) (c : Dev nD) (n : ℕ) (hn : n < (cfgM m hO).N) : SSt F :=
  match n, hn with
  | 0, _ => junkS
  | k + 1, h => (outsAt0 m hO c k (Nat.lt_of_succ_lt h)).2

theorem outsAt0_eq (hO : Ok m) (c : Dev nD) (t : Fin (cfgM m hO).N) :
    outsAt0 m hO c t.val t.isLt = stepAt m hO c t (prevAt m hO c t.val t.isLt) := by
  obtain ⟨n, hn⟩ := t
  cases n with
  | zero => rfl
  | succ n => rfl

theorem prevAt_pos (hO : Ok m) (c : Dev nD) (n : ℕ) (hn : n < (cfgM m hO).N) (hz : n ≠ 0) :
    prevAt m hO c n hn = (outsAt0 m hO c (n - 1) (by omega)).2 := by
  cases n with
  | zero => exact absurd rfl hz
  | succ n => rfl

end Cert.KernelIdeal.Hand

end
-- ==== Proof.Frame.lean ====
/-
  The pallas_call as a whole: the invariant between grid points (the scratch buffers at exactly what the point before
  left), the body's obligation at every point, and the run of @main with the argument arrays unchanged.
-/
import proofs.«101383_j27444841022105_2_alg».proof.Proof.Outs
import proofs.«101383_j27444841022105_2_alg».proof.Proof.Sched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The invariant between points -/

/-- Before the first point the scratch buffers hold anything; afterwards what the point before left. -/
def PhiS (hO : Ok m) (c : Dev nD) : (n : ℕ) → n ≤ (cfgM m hO).N → sProp 𝕄
  | 0, _ => Pipeline.ΦA spec0 c
  | n + 1, hn => iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r))

theorem PhiS_zero (hO : Ok m) (c : Dev nD) (n : ℕ) (h : n ≤ (cfgM m hO).N) (hz : n = 0) : PhiS m hO c n h = Pipeline.ΦA spec0 c := by
  subst hz; rfl

theorem PhiS_succ (hO : Ok m) (c : Dev nD) (n : ℕ) (hn : n < (cfgM m hO).N) :
    PhiS m hO c (n + 1) hn = iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) := rfl

theorem PhiS_pos (hO : Ok m) (c : Dev nD) (n : ℕ) (h : n ≤ (cfgM m hO).N) (hz : n ≠ 0) :
    PhiS m hO c n h = iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) := by
  cases n with
  | zero => exact absurd rfl hz
  | succ n => rfl

/-! ## The pipeline's proof data -/

/-- The arrays as the pallas_call finds them; after the body each input's buffer at its block, the output's at
    `outsAt0`; the invariant `PhiS` together with the table's half. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := iprop(PhiS m hO c t.val (Nat.le_of_lt_succ t.isLt) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = iprop(PhiS m hO c t.val (Nat.le_of_lt t.isLt) ∗ Pipeline.ΦT pre0 (tbl m) c) := by
  dsimp only [dats]; simp only [Fin.coe_castSucc]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 8000000 in
/-- The body at any point: the inputs' buffers hold their blocks; the three conditions select the case; the invariant
    hands the body the scratch buffers at what the point before left (at anything before a reset) and takes them back
    at this point's contents. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = iprop(PhiS m hO c (t.val + 1) t.isLt ∗ Pipeline.ΦT pre0 (tbl m) c) from rfl, PhiS_succ, PhiS_castSucc m hO c t, PhiT0_eq]
  by_cases h1 : cond1 (grid0.coords t)
  · by_cases h2 : cond2 (grid0.coords t) (wordOf c (grid0.coords t) (tbl m 0))
    · by_cases h3 : cond3 (grid0.coords t)
      · exact absurd h3 (fun h => no13 _ h1 h)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [Dat.leavesExact_idle (dats m hO 0 c) 4 t (idleAt0_4 m hO t h3) (noFlush0_4 m hO t h3)]
        rw [outsAt0_eq]; unfold stepAt; rw [dif_pos h1, dif_pos h2, dif_neg h3]; (try dsimp only)
        by_cases hz : t.val = 0
        · rw [PhiS_zero m hO c _ _ hz, PhiA0_eq]
          iintro ⟨⟨⟨⟨⟨%ds0, HS0⟩, ⟨%ds1, HS1⟩, ⟨%ds2, HS2⟩⟩, Hg⟩, HT0⟩, Ho, ⟨%d0, H0⟩, ⟨%d1, H1⟩, ⟨%d2, H2⟩, ⟨%d3, H3⟩, ⟨%d4, H4⟩⟩
          iapply ((kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HS2]; · iexists _; iexact HS2
          isplitl [HT0]; · iexact HT0
          iintro ⟨H0, H1, H2, H3, H4, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns rd0; iexists _; isplitr
                  swap; · iexact HS0
                  ipureintro; exact View.read_writes_of_cover _ _ _ _ _ (scover0_A_0 c _ _ _ _ _ _ _ _ _ _ _ _ _ _ _ _ _ _ _ _ _ _ _ _ _)
                isplitl [HS1]
                · unfold owns rd1; iexists _; isplitr
                  swap; · iexact HS1
                  ipureintro; exact View.read_writes_of_cover _ _ _ _ _ (scover0_A_1 c _ _ _ _ _ _ _ _ _ _ _ _ _ _ _ _ _ _ _ _ _ _ _ _ _)
                unfold owns rd2; iexists _; isplitr
                swap; · iexact HS2
                ipureintro; exact View.read_writes_of_cover _ _ _ _ _ (scover0_A_2 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          iexists _; iexact H4
        · rw [PhiS_pos m hO c _ _ hz]
          iintro ⟨⟨⟨⟨HS0, HS1, HS2⟩, Hg⟩, HT0⟩, Ho, ⟨%d0, H0⟩, ⟨%d1, H1⟩, ⟨%d2, H2⟩, ⟨%d3, H3⟩, ⟨%d4, H4⟩⟩
          iapply ((kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HS2]; · iexists _; iexact HS2
          isplitl [HT0]; · iexact HT0
          iintro ⟨H0, H1, H2, H3, H4, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns rd0; iexists _; isplitr
                  swap; · iexact HS0
                  ipureintro; exact View.read_writes_of_cover _ _ _ _ _ (scover0_A_0 c _ _ _ _ _ _ _ _ _ _ _ _ _ _ _ _ _ _ _ _ _ _ _ _ _)
                isplitl [HS1]
                · unfold owns rd1; iexists _; isplitr
                  swap; · iexact HS1
                  ipureintro; exact View.read_writes_of_cover _ _ _ _ _ (scover0_A_1 c _ _ _ _ _ _ _ _ _ _ _ _ _ _ _ _ _ _ _ _ _ _ _ _ _)
                unfold owns rd2; iexists _; isplitr
                swap; · iexact HS2
                ipureintro; exact View.read_writes_of_cover _ _ _ _ _ (scover0_A_2 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          iexists _; iexact H4
    · by_cases h3 : cond3 (grid0.coords t)
      · exact absurd h3 (fun h => no13 _ h1 h)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [Dat.leavesExact_idle (dats m hO 0 c) 4 t (idleAt0_4 m hO t h3) (noFlush0_4 m hO t h3)]
        rw [outsAt0_eq]; unfold stepAt; rw [dif_pos h1, dif_neg h2, dif_neg h3]; (try dsimp only)
        by_cases hz : t.val = 0
        · rw [PhiS_zero m hO c _ _ hz, PhiA0_eq]
          iintro ⟨⟨⟨⟨⟨%ds0, HS0⟩, ⟨%ds1, HS1⟩, ⟨%ds2, HS2⟩⟩, Hg⟩, HT0⟩, Ho, ⟨%d0, H0⟩, ⟨%d1, H1⟩, ⟨%d2, H2⟩, ⟨%d3, H3⟩, ⟨%d4, H4⟩⟩
          iapply ((kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HS2]; · iexists _; iexact HS2
          isplitl [HT0]; · iexact HT0
          iintro ⟨H0, H1, H2, H3, H4, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns rd0; iexists _; isplitr
                  swap; · iexact HS0
                  ipureintro; exact View.read_writes_of_cover _ _ _ _ _ (scover0_Ap_0 c _ _ _ _ _ _ _ _ _ _ _ _ _ _ _ _ _ _ _ _ _ _ _ _ _)
                isplitl [HS1]
                · unfold owns rd1; iexists _; isplitr
                  swap; · iexact HS1
                  ipureintro; exact View.read_writes_of_cover _ _ _ _ _ (scover0_Ap_1 c _ _ _ _ _ _ _ _ _ _ _ _ _ _ _ _ _ _ _ _ _ _ _ _ _)
                unfold owns rd2; iexists _; isplitr
                swap; · iexact HS2
                ipureintro; exact View.read_writes_of_cover _ _ _ _ _ (scover0_Ap_2 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          iexists _; iexact H4
        · rw [PhiS_pos m hO c _ _ hz]
          iintro ⟨⟨⟨⟨HS0, HS1, HS2⟩, Hg⟩, HT0⟩, Ho, ⟨%d0, H0⟩, ⟨%d1, H1⟩, ⟨%d2, H2⟩, ⟨%d3, H3⟩, ⟨%d4, H4⟩⟩
          iapply ((kernelRun0_Ap c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HS2]; · iexists _; iexact HS2
          isplitl [HT0]; · iexact HT0
          iintro ⟨H0, H1, H2, H3, H4, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns rd0; iexists _; isplitr
                  swap; · iexact HS0
                  ipureintro; exact View.read_writes_of_cover _ _ _ _ _ (scover0_Ap_0 c _ _ _ _ _ _ _ _ _ _ _ _ _ _ _ _ _ _ _ _ _ _ _ _ _)
                isplitl [HS1]
                · unfold owns rd1; iexists _; isplitr
                  swap; · iexact HS1
                  ipureintro; exact View.read_writes_of_cover _ _ _ _ _ (scover0_Ap_1 c _ _ _ _ _ _ _ _ _ _ _ _ _ _ _ _ _ _ _ _ _ _ _ _ _)
                unfold owns rd2; iexists _; isplitr
                swap; · iexact HS2
                ipureintro; exact View.read_writes_of_cover _ _ _ _ _ (scover0_Ap_2 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          iexists _; iexact H4
  · by_cases h2 : cond2 (grid0.coords t) (wordOf c (grid0.coords t) (tbl m 0))
    · by_cases h3 : cond3 (grid0.coords t)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [show (dats m hO 0 c).leavesExact 4 t = owns (c : Thread nD τ) (ms0_4 m hO t) fullShare ((dats m hO 0 c).after 4 t) from by
          unfold Dat.leavesExact; rw [liveAt0_4 m hO t h3]; rfl, after0_4]
        rw [outsAt0_eq]; unfold stepAt; rw [dif_neg h1, dif_pos h2, dif_pos h3]; (try dsimp only)
        have hz : t.val ≠ 0 := nz_of_not1 t h1
        rw [prevAt_pos m hO c _ _ hz]
        rw [PhiS_pos m hO c _ _ hz]
        iintro ⟨⟨⟨⟨HS0, HS1, HS2⟩, Hg⟩, HT0⟩, Ho, ⟨%d0, H0⟩, ⟨%d1, H1⟩, ⟨%d2, H2⟩, ⟨%d3, H3⟩, ⟨%d4, H4⟩⟩
        iapply ((kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) _ _ _ (tbl m 0) h2).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HT0]; · iexact HT0
        iintro ⟨H0, H1, H2, H3, ⟨%e4, H4⟩, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns rd0; iexists _; isplitr
                swap; · iexact HS0
                ipureintro; exact View.read_writes_of_cover _ _ _ _ _ (scover0_D_0 c _ _ _ _ _ _ _ _ _ _ _ _ _ _ _ _ _ _ _ _ _ _ _ _ _ _ _ _)
              isplitl [HS1]
              · unfold owns rd1; iexists _; isplitr
                swap; · iexact HS1
                ipureintro; exact View.read_writes_of_cover _ _ _ _ _ (scover0_D_1 c _ _ _ _ _ _ _ _ _ _ _ _ _ _ _ _ _ _ _ _ _ _ _ _ _ _ _ _)
              unfold owns rd2; iexists _; isplitr
              swap; · iexact HS2
              ipureintro; exact View.read_writes_of_cover _ _ _ _ _ (scover0_D_2 c _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        unfold owns rdO; iexists _; isplitr
        swap; · iexact H4
        ipureintro; exact View.read_writes_of_cover _ _ _ _ _ (cover0_D_4 c _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [Dat.leavesExact_idle (dats m hO 0 c) 4 t (idleAt0_4 m hO t h3) (noFlush0_4 m hO t h3)]
        rw [outsAt0_eq]; unfold stepAt; rw [dif_neg h1, dif_pos h2, dif_neg h3]; (try dsimp only)
        have hz : t.val ≠ 0 := nz_of_not1 t h1
        rw [prevAt_pos m hO c _ _ hz]
        rw [PhiS_pos m hO c _ _ hz]
        iintro ⟨⟨⟨⟨HS0, HS1, HS2⟩, Hg⟩, HT0⟩, Ho, ⟨%d0, H0⟩, ⟨%d1, H1⟩, ⟨%d2, H2⟩, ⟨%d3, H3⟩, ⟨%d4, H4⟩⟩
        iapply ((kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) _ _ _ (tbl m 0) h2).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HT0]; · iexact HT0
        iintro ⟨H0, H1, H2, H3, H4, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns rd0; iexists _; isplitr
                swap; · iexact HS0
                ipureintro; exact View.read_writes_of_cover _ _ _ _ _ (scover0_B_0 c _ _ _ _ _ _ _ _ _ _ _ _ _ _ _ _ _ _ _ _ _ _ _ _ _ _ _ _)
              isplitl [HS1]
              · unfold owns rd1; iexists _; isplitr
                swap; · iexact HS1
                ipureintro; exact View.read_writes_of_cover _ _ _ _ _ (scover0_B_1 c _ _ _ _ _ _ _ _ _ _ _ _ _ _ _ _ _ _ _ _ _ _ _ _ _ _ _ _)
              unfold owns rd2; iexists _; isplitr
              swap; · iexact HS2
              ipureintro; exact View.read_writes_of_cover _ _ _ _ _ (scover0_B_2 c _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        iexists _; iexact H4
    · by_cases h3 : cond3 (grid0.coords t)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [show (dats m hO 0 c).leavesExact 4 t = owns (c : Thread nD τ) (ms0_4 m hO t) fullShare ((dats m hO 0 c).after 4 t) from by
          unfold Dat.leavesExact; rw [liveAt0_4 m hO t h3]; rfl, after0_4]
        rw [outsAt0_eq]; unfold stepAt; rw [dif_neg h1, dif_neg h2, dif_pos h3]; (try dsimp only)
        have hz : t.val ≠ 0 := nz_of_not1 t h1
        rw [prevAt_pos m hO c _ _ hz]
        rw [PhiS_pos m hO c _ _ hz]
        iintro ⟨⟨⟨⟨HS0, HS1, HS2⟩, Hg⟩, HT0⟩, Ho, ⟨%d0, H0⟩, ⟨%d1, H1⟩, ⟨%d2, H2⟩, ⟨%d3, H3⟩, ⟨%d4, H4⟩⟩
        iapply ((kernelRun0_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) _ _ _ (tbl m 0) h2).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HT0]; · iexact HT0
        iintro ⟨H0, H1, H2, H3, ⟨%e4, H4⟩, HS0, HS1, HS2, HT0⟩
        isplitl [HS0 HS1 HS2 Hg HT0]
        · isplitl [HS0 HS1 HS2 Hg]
          · isplitl [HS0 HS1 HS2]
            · isplitl [HS0]
              · iexact HS0
              isplitl [HS1]
              · iexact HS1
              iexact HS2
            iexact Hg
          iexact HT0
        isplitl [Ho]; · iexact Ho
        isplitl [H0]; · iexact H0
        isplitl [H1]; · iexact H1
        isplitl [H2]; · iexact H2
        isplitl [H3]; · iexact H3
        unfold owns rdO; iexists _; isplitr
        swap; · iexact H4
        ipureintro; exact View.read_writes_of_cover _ _ _ _ _ (cover0_E_4 c _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
          unfold Dat.leavesExact; rw [liveAt0_0 m hO t]; rfl, after0_0]
        rw [show (dats m hO 0 c).leavesExact 1 t = owns (c : Thread nD τ) (ms0_1 m hO t) fullShare ((dats m hO 0 c).after 1 t) from by
          unfold Dat.leavesExact; rw [liveAt0_1 m hO t]; rfl, after0_1]
        rw [show (dats m hO 0 c).leavesExact 2 t = owns (c : Thread nD τ) (ms0_2 m hO t) fullShare ((dats m hO 0 c).after 2 t) from by
          unfold Dat.leavesExact; rw [liveAt0_2 m hO t]; rfl, after0_2]
        rw [show (dats m hO 0 c).leavesExact 3 t = owns (c : Thread nD τ) (ms0_3 m hO t) fullShare ((dats m hO 0 c).after 3 t) from by
          unfold Dat.leavesExact; rw [liveAt0_3 m hO t]; rfl, after0_3]
        rw [Dat.leavesExact_idle (dats m hO 0 c) 4 t (idleAt0_4 m hO t h3) (noFlush0_4 m hO t h3)]
        rw [outsAt0_eq]; unfold stepAt; rw [dif_neg h1, dif_neg h2, dif_neg h3]; (try dsimp only)
        have hz : t.val ≠ 0 := nz_of_not1 t h1
        rw [prevAt_pos m hO c _ _ hz]
        rw [PhiS_pos m hO c _ _ hz]
        iintro ⟨⟨⟨⟨HS0, HS1, HS2⟩, Hg⟩, HT0⟩, Ho, ⟨%d0, H0⟩, ⟨%d1, H1⟩, ⟨%d2, H2⟩, ⟨%d3, H3⟩, ⟨%d4, H4⟩⟩
        iapply ((kernelRun0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) _ _ _ (tbl m 0) h2) _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HT0]; · iexact HT0
        iintro ⟨H0, H1, H2, H3, H4, HS0, HS1, HS2, HT0⟩
        isplitl [HS0 HS1 HS2 Hg HT0]
        · isplitl [HS0 HS1 HS2 Hg]
          · isplitl [HS0 HS1 HS2]
            · isplitl [HS0]
              · iexact HS0
              isplitl [HS1]
              · iexact HS1
              iexact HS2
            iexact Hg
          iexact HT0
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

/-- What the launch hands the pallas_call is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = iprop(PhiS m hO c 0 (Nat.zero_le _) ∗ Pipeline.ΦT pre0 (tbl m) c) from rfl, PhiS_zero m hO c 0 _ rfl]
  try exact Idealize.SL.BI.Entails.refl _

/-- After the last point the scratch contents are forgotten and the table's half let go. -/
theorem hout (hO : Ok m) (c : Dev nD) : (dats m hO 0 c).Φ (Fin.last (cfgM m hO).N) ⊢ Pipeline.ΦA spec0 c := by
  have hN : (cfgM m hO).N = 64 := N_0
  rw [show (dats m hO 0 c).Φ (Fin.last (cfgM m hO).N) = iprop(PhiS m hO c (Fin.last (cfgM m hO).N).val (Nat.le_of_lt_succ (Fin.last (cfgM m hO).N).isLt) ∗ Pipeline.ΦT pre0 (tbl m) c) from rfl,
    PhiS_pos m hO c _ _ (by rw [Fin.val_last]; omega), PhiA0_eq]
  iintro ⟨⟨⟨HS0, HS1, HS2⟩, Hg⟩, -⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- Every weakly fair execution of @main terminates, every array of the pallas_call at what the proof data compute and
    every other unscoped buffer as the pallas_call found it. -/
theorem run_main (hO : Ok m) : θ_run defs (onTc (τ := τ) (main (F := F))) (s₀ m ρ) (Pipeline.FramePost (Pipeline.pin pcfgs fun _ => adm m hO) (dats m hO) 0 (V m)) :=
  Pipeline.θ_run_frameP_track pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame: the argument arrays end unchanged. -/
theorem frame_of (hO : Ok m) (h : θ_run defs (onTc (τ := τ) (main (F := F))) (s₀ m ρ) (Pipeline.FramePost (Pipeline.pin pcfgs fun _ => adm m hO) (dats m hO) 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (run_main m ρ hO)

end Cert.KernelIdeal.Hand

end
-- ==== Proof.Pieces.lean ====
/-
  What the kernel body's stores are, as the payload terms of the blocks it was handed.

  The body was run once per control case (first step with or without a tile on or below the diagonal, a middle step,
  the last step with or without one). Each run found, per buffer, the list of whole-buffer stores the body makes. Read
  back, the last store into a buffer is what the buffer holds: the step's new running maximum, running sum and running
  weighted sum as functions of the q, k, v and mask blocks and the carried values; at a row's first step the carried
  values are the reset ones (-∞, 0, 0), because the step's loads come after the reset's stores; at a row's last step the
  result is the NEW weighted sum times two over the NEW running sum, because the result's loads come after the step's
  stores. All generic in the float instance.
-/
import proofs.«101383_j27444841022105_2_alg».proof.Proof.Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The zero offsets of a whole-buffer access, however they are spelt. -/
theorem hz2 : (![0, 0] : Fin 2 → Nat) = fun _ => 0 := funext fun a => by fin_cases a <;> rfl

/-! ## A middle step (the tile pair on or below the diagonal, 0 < k < 7) -/

/-- One step: the running maximum the body leaves is the step's maximum of the carried one and the tile's. -/
theorem piece_B_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    VS0_0.read (Elt F) (VS0_0.writes (Elt F) VS0_0.junk (kernelRun0_B c i arg3 harg3 arg4 harg4 arg5 harg5 arg6 harg6 arg7 harg7 arg8 harg8 arg9 harg9 arg10 harg10 hc1 hc3 x0 x1 x2 x3 xs0 xs1 xs2 xt0 hc2).1)
      = k0_pay5 (k0_pay8 (BitVec.ofNat 32 (i 1).val) (wordOf c i xt0) x0 x1 xs0) := by
  rw [View.read_writes_eq_canon _ _ _ (scover0_B_0 c i arg3 harg3 arg4 harg4 arg5 harg5 arg6 harg6 arg7 harg7 arg8 harg8 arg9 harg9 arg10 harg10 hc1 hc3 x0 x1 x2 x3 xs0 xs1 xs2 xt0 hc2)]
  unfold kernelRun0_B
  dsimp only
  sl_unfold_words
  rw [View.canon_cons_unit_zero (S := S1024x1) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-- One step: the running sum the body leaves. -/
theorem piece_B_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    VS0_1.read (Elt F) (VS0_1.writes (Elt F) VS0_1.junk (kernelRun0_B c i arg3 harg3 arg4 harg4 arg5 harg5 arg6 harg6 arg7 harg7 arg8 harg8 arg9 harg9 arg10 harg10 hc1 hc3 x0 x1 x2 x3 xs0 xs1 xs2 xt0 hc2).2.1)
      = k0_pay11 (BitVec.ofNat 32 (i 1).val) (wordOf c i xt0) x0 x1 xs0 xs1 := by
  rw [View.read_writes_eq_canon _ _ _ (scover0_B_1 c i arg3 harg3 arg4 harg4 arg5 harg5 arg6 harg6 arg7 harg7 arg8 harg8 arg9 harg9 arg10 harg10 hc1 hc3 x0 x1 x2 x3 xs0 xs1 xs2 xt0 hc2)]
  unfold kernelRun0_B
  dsimp only
  sl_unfold_words
  rw [View.canon_cons_unit_zero (S := S1024x1) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-- One step: the running weighted sum the body leaves. -/
theorem piece_B_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : ¬cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    VS0_2.read (Elt F) (VS0_2.writes (Elt F) VS0_2.junk (kernelRun0_B c i arg3 harg3 arg4 harg4 arg5 harg5 arg6 harg6 arg7 harg7 arg8 harg8 arg9 harg9 arg10 harg10 hc1 hc3 x0 x1 x2 x3 xs0 xs1 xs2 xt0 hc2).2.2.1)
      = k0_pay4 (k0_pay9 (BitVec.ofNat 32 (i 1).val) (wordOf c i xt0) x0 x1 xs0) (k0_pay10 (BitVec.ofNat 32 (i 1).val) (wordOf c i xt0) x0 x1 xs0)
          (k0_pay12 (F := F) x3) (k0_pay13 (F := F)) xs2 x2 := by
  rw [View.read_writes_eq_canon _ _ _ (scover0_B_2 c i arg3 harg3 arg4 harg4 arg5 harg5 arg6 harg6 arg7 harg7 arg8 harg8 arg9 harg9 arg10 harg10 hc1 hc3 x0 x1 x2 x3 xs0 xs1 xs2 xt0 hc2)]
  unfold kernelRun0_B
  dsimp only
  sl_unfold_words
  rw [View.canon_cons_unit_zero (S := S1024x256) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-! ## The last step with a tile (k = 7): one step, then the row's result -/

/-- Last step: the running maximum the body leaves. -/
theorem piece_D_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    VS0_0.read (Elt F) (VS0_0.writes (Elt F) VS0_0.junk (kernelRun0_D c i arg3 harg3 arg4 harg4 arg5 harg5 arg6 harg6 arg7 harg7 arg8 harg8 arg9 harg9 arg10 harg10 hc1 hc3 x0 x1 x2 x3 xs0 xs1 xs2 xt0 hc2).2.1)
      = k0_pay5 (k0_pay8 (BitVec.ofNat 32 (i 1).val) (wordOf c i xt0) x0 x1 xs0) := by
  rw [View.read_writes_eq_canon _ _ _ (scover0_D_0 c i arg3 harg3 arg4 harg4 arg5 harg5 arg6 harg6 arg7 harg7 arg8 harg8 arg9 harg9 arg10 harg10 hc1 hc3 x0 x1 x2 x3 xs0 xs1 xs2 xt0 hc2)]
  unfold kernelRun0_D
  dsimp only
  sl_unfold_words
  rw [View.canon_cons_unit_zero (S := S1024x1) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-- Last step: the running sum the body leaves. -/
theorem piece_D_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    VS0_1.read (Elt F) (VS0_1.writes (Elt F) VS0_1.junk (kernelRun0_D c i arg3 harg3 arg4 harg4 arg5 harg5 arg6 harg6 arg7 harg7 arg8 harg8 arg9 harg9 arg10 harg10 hc1 hc3 x0 x1 x2 x3 xs0 xs1 xs2 xt0 hc2).2.2.1)
      = k0_pay11 (BitVec.ofNat 32 (i 1).val) (wordOf c i xt0) x0 x1 xs0 xs1 := by
  rw [View.read_writes_eq_canon _ _ _ (scover0_D_1 c i arg3 harg3 arg4 harg4 arg5 harg5 arg6 harg6 arg7 harg7 arg8 harg8 arg9 harg9 arg10 harg10 hc1 hc3 x0 x1 x2 x3 xs0 xs1 xs2 xt0 hc2)]
  unfold kernelRun0_D
  dsimp only
  sl_unfold_words
  rw [View.canon_cons_unit_zero (S := S1024x1) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-- Last step: the running weighted sum the body leaves. -/
theorem piece_D_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    VS0_2.read (Elt F) (VS0_2.writes (Elt F) VS0_2.junk (kernelRun0_D c i arg3 harg3 arg4 harg4 arg5 harg5 arg6 harg6 arg7 harg7 arg8 harg8 arg9 harg9 arg10 harg10 hc1 hc3 x0 x1 x2 x3 xs0 xs1 xs2 xt0 hc2).2.2.2.1)
      = k0_pay4 (k0_pay9 (BitVec.ofNat 32 (i 1).val) (wordOf c i xt0) x0 x1 xs0) (k0_pay10 (BitVec.ofNat 32 (i 1).val) (wordOf c i xt0) x0 x1 xs0)
          (k0_pay12 (F := F) x3) (k0_pay13 (F := F)) xs2 x2 := by
  rw [View.read_writes_eq_canon _ _ _ (scover0_D_2 c i arg3 harg3 arg4 harg4 arg5 harg5 arg6 harg6 arg7 harg7 arg8 harg8 arg9 harg9 arg10 harg10 hc1 hc3 x0 x1 x2 x3 xs0 xs1 xs2 xt0 hc2)]
  unfold kernelRun0_D
  dsimp only
  sl_unfold_words
  rw [View.canon_cons_unit_zero (S := S1024x256) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-- Last step: the row's result is the NEW weighted sum times two over the NEW running sum. -/
theorem piece_D_4 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : cond2 i (wordOf c i xt0)) :
    VO0_4.read (Elt F) (VO0_4.writes (Elt F) VO0_4.junk (kernelRun0_D c i arg3 harg3 arg4 harg4 arg5 harg5 arg6 harg6 arg7 harg7 arg8 harg8 arg9 harg9 arg10 harg10 hc1 hc3 x0 x1 x2 x3 xs0 xs1 xs2 xt0 hc2).1)
      = k0_pay6 (k0_pay4 (k0_pay9 (BitVec.ofNat 32 (i 1).val) (wordOf c i xt0) x0 x1 xs0) (k0_pay10 (BitVec.ofNat 32 (i 1).val) (wordOf c i xt0) x0 x1 xs0)
          (k0_pay12 (F := F) x3) (k0_pay13 (F := F)) xs2 x2)
          (k0_pay11 (BitVec.ofNat 32 (i 1).val) (wordOf c i xt0) x0 x1 xs0 xs1) := by
  rw [View.read_writes_eq_canon _ _ _ (cover0_D_4 c i arg3 harg3 arg4 harg4 arg5 harg5 arg6 harg6 arg7 harg7 arg8 harg8 arg9 harg9 arg10 harg10 hc1 hc3 x0 x1 x2 x3 xs0 xs1 xs2 xt0 hc2)]
  unfold kernelRun0_D
  dsimp only
  sl_unfold_words
  rw [View.canon_cons_unit_zero (S := S1024x256) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-! ## The first step with a tile (k = 0): the reset, then one step from the reset values -/

/-- First step: the reset maximum, then one step from it; the later store is what stays. -/
theorem piece_A_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) :
    VS0_0.read (Elt F) (VS0_0.writes (Elt F) VS0_0.junk (kernelRun0_A c i arg3 harg3 arg4 harg4 arg5 harg5 arg6 harg6 arg7 harg7 arg8 harg8 arg9 harg9 arg10 harg10 hc1 hc3 x0 x1 x2 x3 xt0 hc2).1)
      = k0_pay5 (k0_pay8 (BitVec.ofNat 32 (i 1).val) (wordOf c i xt0) x0 x1 (k0_pay1 (F := F))) := by
  rw [View.read_writes_eq_canon _ _ _ (scover0_A_0 c i arg3 harg3 arg4 harg4 arg5 harg5 arg6 harg6 arg7 harg7 arg8 harg8 arg9 harg9 arg10 harg10 hc1 hc3 x0 x1 x2 x3 xt0 hc2)]
  unfold kernelRun0_A
  dsimp only
  sl_unfold_words
  rw [View.canon_cons_unit_zero (S := S1024x1) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-- First step: the reset sum, then one step from the reset values. -/
theorem piece_A_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) :
    VS0_1.read (Elt F) (VS0_1.writes (Elt F) VS0_1.junk (kernelRun0_A c i arg3 harg3 arg4 harg4 arg5 harg5 arg6 harg6 arg7 harg7 arg8 harg8 arg9 harg9 arg10 harg10 hc1 hc3 x0 x1 x2 x3 xt0 hc2).2.1)
      = k0_pay11 (BitVec.ofNat 32 (i 1).val) (wordOf c i xt0) x0 x1 (k0_pay1 (F := F)) (k0_pay2 (F := F)) := by
  rw [View.read_writes_eq_canon _ _ _ (scover0_A_1 c i arg3 harg3 arg4 harg4 arg5 harg5 arg6 harg6 arg7 harg7 arg8 harg8 arg9 harg9 arg10 harg10 hc1 hc3 x0 x1 x2 x3 xt0 hc2)]
  unfold kernelRun0_A
  dsimp only
  sl_unfold_words
  rw [View.canon_cons_unit_zero (S := S1024x1) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-- First step: the reset weighted sum, then one step from the reset values. -/
theorem piece_A_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : cond2 i (wordOf c i xt0)) :
    VS0_2.read (Elt F) (VS0_2.writes (Elt F) VS0_2.junk (kernelRun0_A c i arg3 harg3 arg4 harg4 arg5 harg5 arg6 harg6 arg7 harg7 arg8 harg8 arg9 harg9 arg10 harg10 hc1 hc3 x0 x1 x2 x3 xt0 hc2).2.2.1)
      = k0_pay4 (k0_pay9 (BitVec.ofNat 32 (i 1).val) (wordOf c i xt0) x0 x1 (k0_pay1 (F := F))) (k0_pay10 (BitVec.ofNat 32 (i 1).val) (wordOf c i xt0) x0 x1 (k0_pay1 (F := F)))
          (k0_pay12 (F := F) x3) (k0_pay13 (F := F)) (k0_pay3 (F := F)) x2 := by
  rw [View.read_writes_eq_canon _ _ _ (scover0_A_2 c i arg3 harg3 arg4 harg4 arg5 harg5 arg6 harg6 arg7 harg7 arg8 harg8 arg9 harg9 arg10 harg10 hc1 hc3 x0 x1 x2 x3 xt0 hc2)]
  unfold kernelRun0_A
  dsimp only
  sl_unfold_words
  rw [View.canon_cons_unit_zero (S := S1024x256) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-! ## The last step above the diagonal: the row's result from the carried values -/

/-- Last step above the diagonal: the row's result is the carried weighted sum times two over the carried running sum. -/
theorem piece_E_4 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : ¬cond1 i) (hc3 : cond3 i)
    (x0 x1 x2 : Vec F S1024x256 .bf16) (x3 : Vec F S1024x1024 .i32) (xs0 xs1 : Vec F S1024x1 .f32) (xs2 : Vec F S1024x256 .f32) (xt0 : TbBuf0 (F := F) c tbM0_0)
    (hc2 : ¬cond2 i (wordOf c i xt0)) :
    VO0_4.read (Elt F) (VO0_4.writes (Elt F) VO0_4.junk (kernelRun0_E c i arg3 harg3 arg4 harg4 arg5 harg5 arg6 harg6 arg7 harg7 arg8 harg8 arg9 harg9 arg10 harg10 hc1 hc3 x0 x1 x2 x3 xs0 xs1 xs2 xt0 hc2).1)
      = k0_pay6 xs2 xs1 := by
  rw [View.read_writes_eq_canon _ _ _ (cover0_E_4 c i arg3 harg3 arg4 harg4 arg5 harg5 arg6 harg6 arg7 harg7 arg8 harg8 arg9 harg9 arg10 harg10 hc1 hc3 x0 x1 x2 x3 xs0 xs1 xs2 xt0 hc2)]
  unfold kernelRun0_E
  dsimp only
  sl_unfold_words
  rw [View.canon_cons_unit_zero (S := S1024x256) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-! ## The first step above the diagonal: the reset only -/

/-- Reset only: the running maximum is the reset value. -/
theorem piece_Ap_0 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) :
    VS0_0.read (Elt F) (VS0_0.writes (Elt F) VS0_0.junk (kernelRun0_Ap c i arg3 harg3 arg4 harg4 arg5 harg5 arg6 harg6 arg7 harg7 arg8 harg8 arg9 harg9 arg10 harg10 hc1 hc3 x0 x1 x2 x3 xt0 hc2).1)
      = k0_pay1 (F := F) := by
  rw [View.read_writes_eq_canon _ _ _ (scover0_Ap_0 c i arg3 harg3 arg4 harg4 arg5 harg5 arg6 harg6 arg7 harg7 arg8 harg8 arg9 harg9 arg10 harg10 hc1 hc3 x0 x1 x2 x3 xt0 hc2)]
  unfold kernelRun0_Ap
  dsimp only
  sl_unfold_words
  rw [View.canon_cons_unit_zero (S := S1024x1) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-- Reset only: the running sum is the reset value. -/
theorem piece_Ap_1 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) :
    VS0_1.read (Elt F) (VS0_1.writes (Elt F) VS0_1.junk (kernelRun0_Ap c i arg3 harg3 arg4 harg4 arg5 harg5 arg6 harg6 arg7 harg7 arg8 harg8 arg9 harg9 arg10 harg10 hc1 hc3 x0 x1 x2 x3 xt0 hc2).2.1)
      = k0_pay2 (F := F) := by
  rw [View.read_writes_eq_canon _ _ _ (scover0_Ap_1 c i arg3 harg3 arg4 harg4 arg5 harg5 arg6 harg6 arg7 harg7 arg8 harg8 arg9 harg9 arg10 harg10 hc1 hc3 x0 x1 x2 x3 xt0 hc2)]
  unfold kernelRun0_Ap
  dsimp only
  sl_unfold_words
  rw [View.canon_cons_unit_zero (S := S1024x1) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

/-- Reset only: the running weighted sum is the reset value. -/
theorem piece_Ap_2 (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1024 .i32) (harg6 : arg6.IsWhole)
    (arg7 : Memref sig .tc .vmem S1024x256 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x256 .f32) (harg10 : arg10.IsWhole)
    (hc1 : cond1 i) (hc3 : ¬cond3 i)
    (x0 x1 x2 : Vec F S1024x256 .bf16) (x3 : Vec F S1024x1024 .i32) (xt0 : TbBuf0 (F := F) c tbM0_0)
    (hc2 : ¬cond2 i (wordOf c i xt0)) :
    VS0_2.read (Elt F) (VS0_2.writes (Elt F) VS0_2.junk (kernelRun0_Ap c i arg3 harg3 arg4 harg4 arg5 harg5 arg6 harg6 arg7 harg7 arg8 harg8 arg9 harg9 arg10 harg10 hc1 hc3 x0 x1 x2 x3 xt0 hc2).2.2.1)
      = k0_pay3 (F := F) := by
  rw [View.read_writes_eq_canon _ _ _ (scover0_Ap_2 c i arg3 harg3 arg4 harg4 arg5 harg5 arg6 harg6 arg7 harg7 arg8 harg8 arg9 harg9 arg10 harg10 hc1 hc3 x0 x1 x2 x3 xt0 hc2)]
  unfold kernelRun0_Ap
  dsimp only
  sl_unfold_words
  rw [View.canon_cons_unit_zero (S := S1024x256) hz2]
  try simp only [View.readCov_unit_zero (S := S1024x1) _ hz2, View.readCov_unit_zero (S := S1024x256) _ hz2,
    View.readAt_eq_ld, harg3.read_unread, harg4.read_unread, harg5.read_unread, harg6.read_unread, harg8.read_unread,
    harg9.read_unread, harg10.read_unread, View.ld_unit_zero (S := S1024x256) hz2, View.ld_unit_zero (S := S1024x1) hz2,
    View.ld_unit_zero (S := S1024x1024) hz2]
  try rfl

end Cert.KernelIdeal.Hand

end
-- ==== Proof.StepCases.lean ====
/-
  What the body leaves at a grid point, case by case, in the payload terms of the point's blocks.

  At a point where the body passes over a tile (the tile pair on or below the diagonal) the three scratch buffers end
  holding the new running maximum, running sum and running weighted sum computed from the point's q, k, v and mask
  blocks and from the carried values — the reset values at a slot's first step, the previous point's at later steps;
  at a point above the diagonal they are unchanged. At a slot's last step the output window's buffer ends holding
  the weighted sum times 2 over the running sum, of the values the scratch buffers hold after the point.
-/
import proofs.«101383_j27444841022105_2_alg».proof.Proof.Outs
import proofs.«101383_j27444841022105_2_alg».proof.Proof.Pieces

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

/-- The reset values of the three scratch buffers. -/
def resetS : SSt Ideal := (k0_pay1 (F := Ideal), k0_pay2 (F := Ideal), k0_pay3 (F := Ideal))

/-- One pass of the body over the blocks of point t, from carried values p: the new running maximum, running sum
    and running weighted sum. -/
def pointAdv (hO : Ok m) (c : Dev nD) (t : Fin (cfgM m hO).N) (p : SSt Ideal) : SSt Ideal :=
  (k0_pay5 (k0_pay8 (BitVec.ofNat 32 ((grid0.coords t) 1).val) (wordOf c (grid0.coords t) (tbl m 0)) (iblk m hO c 0 t) (iblk m hO c 1 t) p.1),
   k0_pay11 (BitVec.ofNat 32 ((grid0.coords t) 1).val) (wordOf c (grid0.coords t) (tbl m 0)) (iblk m hO c 0 t) (iblk m hO c 1 t) p.1 p.2.1,
   k0_pay4 (k0_pay9 (BitVec.ofNat 32 ((grid0.coords t) 1).val) (wordOf c (grid0.coords t) (tbl m 0)) (iblk m hO c 0 t) (iblk m hO c 1 t) p.1)
     (k0_pay10 (BitVec.ofNat 32 ((grid0.coords t) 1).val) (wordOf c (grid0.coords t) (tbl m 0)) (iblk m hO c 0 t) (iblk m hO c 1 t) p.1)
     (k0_pay12 (F := Ideal) (iblk m hO c 3 t)) (k0_pay13 (F := Ideal)) p.2.2 (iblk m hO c 2 t))

section Cases
variable (hO : Ok m) (c : Dev nD) (t : Fin (cfgM m hO).N) (prev : SSt Ideal)

/-! ### Buffer by buffer -/

set_option maxHeartbeats 4000000 in
theorem stepAt_A_0 (h1 : cond1 (grid0.coords t)) (h2 : cond2 (grid0.coords t) (wordOf c (grid0.coords t) (tbl m 0))) (h3 : ¬cond3 (grid0.coords t)) :
    (stepAt m hO c t prev).2.1 = (pointAdv m hO c t resetS).1 := by
  unfold stepAt
  rw [dif_pos h1, dif_pos h2, dif_neg h3]
  exact piece_A_0 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2

set_option maxHeartbeats 4000000 in
theorem stepAt_A_1 (h1 : cond1 (grid0.coords t)) (h2 : cond2 (grid0.coords t) (wordOf c (grid0.coords t) (tbl m 0))) (h3 : ¬cond3 (grid0.coords t)) :
    (stepAt m hO c t prev).2.2.1 = (pointAdv m hO c t resetS).2.1 := by
  unfold stepAt
  rw [dif_pos h1, dif_pos h2, dif_neg h3]
  exact piece_A_1 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2

set_option maxHeartbeats 4000000 in
theorem stepAt_A_2 (h1 : cond1 (grid0.coords t)) (h2 : cond2 (grid0.coords t) (wordOf c (grid0.coords t) (tbl m 0))) (h3 : ¬cond3 (grid0.coords t)) :
    (stepAt m hO c t prev).2.2.2 = (pointAdv m hO c t resetS).2.2 := by
  unfold stepAt
  rw [dif_pos h1, dif_pos h2, dif_neg h3]
  exact piece_A_2 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) (tbl m 0) h2

set_option maxHeartbeats 4000000 in
theorem stepAt_B_0 (h1 : ¬cond1 (grid0.coords t)) (h2 : cond2 (grid0.coords t) (wordOf c (grid0.coords t) (tbl m 0))) (h3 : ¬cond3 (grid0.coords t)) :
    (stepAt m hO c t prev).2.1 = (pointAdv m hO c t prev).1 := by
  unfold stepAt
  rw [dif_neg h1, dif_pos h2, dif_neg h3]
  exact piece_B_0 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2

set_option maxHeartbeats 4000000 in
theorem stepAt_B_1 (h1 : ¬cond1 (grid0.coords t)) (h2 : cond2 (grid0.coords t) (wordOf c (grid0.coords t) (tbl m 0))) (h3 : ¬cond3 (grid0.coords t)) :
    (stepAt m hO c t prev).2.2.1 = (pointAdv m hO c t prev).2.1 := by
  unfold stepAt
  rw [dif_neg h1, dif_pos h2, dif_neg h3]
  exact piece_B_1 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2

set_option maxHeartbeats 4000000 in
theorem stepAt_B_2 (h1 : ¬cond1 (grid0.coords t)) (h2 : cond2 (grid0.coords t) (wordOf c (grid0.coords t) (tbl m 0))) (h3 : ¬cond3 (grid0.coords t)) :
    (stepAt m hO c t prev).2.2.2 = (pointAdv m hO c t prev).2.2 := by
  unfold stepAt
  rw [dif_neg h1, dif_pos h2, dif_neg h3]
  exact piece_B_2 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2

set_option maxHeartbeats 4000000 in
theorem stepAt_D_0 (h1 : ¬cond1 (grid0.coords t)) (h2 : cond2 (grid0.coords t) (wordOf c (grid0.coords t) (tbl m 0))) (h3 : cond3 (grid0.coords t)) :
    (stepAt m hO c t prev).2.1 = (pointAdv m hO c t prev).1 := by
  unfold stepAt
  rw [dif_neg h1, dif_pos h2, dif_pos h3]
  exact piece_D_0 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2

set_option maxHeartbeats 4000000 in
theorem stepAt_D_1 (h1 : ¬cond1 (grid0.coords t)) (h2 : cond2 (grid0.coords t) (wordOf c (grid0.coords t) (tbl m 0))) (h3 : cond3 (grid0.coords t)) :
    (stepAt m hO c t prev).2.2.1 = (pointAdv m hO c t prev).2.1 := by
  unfold stepAt
  rw [dif_neg h1, dif_pos h2, dif_pos h3]
  exact piece_D_1 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2

set_option maxHeartbeats 4000000 in
theorem stepAt_D_2 (h1 : ¬cond1 (grid0.coords t)) (h2 : cond2 (grid0.coords t) (wordOf c (grid0.coords t) (tbl m 0))) (h3 : cond3 (grid0.coords t)) :
    (stepAt m hO c t prev).2.2.2 = (pointAdv m hO c t prev).2.2 := by
  unfold stepAt
  rw [dif_neg h1, dif_pos h2, dif_pos h3]
  exact piece_D_2 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2

set_option maxHeartbeats 4000000 in
theorem stepAt_D_4 (h1 : ¬cond1 (grid0.coords t)) (h2 : cond2 (grid0.coords t) (wordOf c (grid0.coords t) (tbl m 0))) (h3 : cond3 (grid0.coords t)) :
    (stepAt m hO c t prev).1 = k0_pay6 (F := Ideal) (pointAdv m hO c t prev).2.2 (pointAdv m hO c t prev).2.1 := by
  unfold stepAt
  rw [dif_neg h1, dif_pos h2, dif_pos h3]
  exact piece_D_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2

set_option maxHeartbeats 4000000 in
theorem stepAt_E_4 (h1 : ¬cond1 (grid0.coords t)) (h2 : ¬cond2 (grid0.coords t) (wordOf c (grid0.coords t) (tbl m 0))) (h3 : cond3 (grid0.coords t)) :
    (stepAt m hO c t prev).1 = k0_pay6 (F := Ideal) prev.2.2 prev.2.1 := by
  unfold stepAt
  rw [dif_neg h1, dif_neg h2, dif_pos h3]
  exact piece_E_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) h1 h3 (iblk m hO c 0 t) (iblk m hO c 1 t) (iblk m hO c 2 t) (iblk m hO c 3 t) prev.1 prev.2.1 prev.2.2 (tbl m 0) h2

/-! ### Point by point -/

/-- First step of a slot, tile on or below the diagonal: reset, then one pass. -/
theorem stepAt_A (h1 : cond1 (grid0.coords t)) (h2 : cond2 (grid0.coords t) (wordOf c (grid0.coords t) (tbl m 0))) (h3 : ¬cond3 (grid0.coords t)) : (stepAt m hO c t prev).2 = pointAdv m hO c t resetS :=
  Prod.ext (stepAt_A_0 m hO c t prev h1 h2 h3) (Prod.ext (stepAt_A_1 m hO c t prev h1 h2 h3) (stepAt_A_2 m hO c t prev h1 h2 h3))

/-- A middle step on or below the diagonal: one pass from the carried values. -/
theorem stepAt_B (h1 : ¬cond1 (grid0.coords t)) (h2 : cond2 (grid0.coords t) (wordOf c (grid0.coords t) (tbl m 0))) (h3 : ¬cond3 (grid0.coords t)) : (stepAt m hO c t prev).2 = pointAdv m hO c t prev :=
  Prod.ext (stepAt_B_0 m hO c t prev h1 h2 h3) (Prod.ext (stepAt_B_1 m hO c t prev h1 h2 h3) (stepAt_B_2 m hO c t prev h1 h2 h3))

/-- The last step on or below the diagonal: one pass, and the result from the new sums. -/
theorem stepAt_D (h1 : ¬cond1 (grid0.coords t)) (h2 : cond2 (grid0.coords t) (wordOf c (grid0.coords t) (tbl m 0))) (h3 : cond3 (grid0.coords t)) :
    (stepAt m hO c t prev).2 = pointAdv m hO c t prev
      ∧ (stepAt m hO c t prev).1 = k0_pay6 (F := Ideal) (pointAdv m hO c t prev).2.2 (pointAdv m hO c t prev).2.1 :=
  ⟨Prod.ext (stepAt_D_0 m hO c t prev h1 h2 h3) (Prod.ext (stepAt_D_1 m hO c t prev h1 h2 h3) (stepAt_D_2 m hO c t prev h1 h2 h3)),
    stepAt_D_4 m hO c t prev h1 h2 h3⟩

/-- A middle step above the diagonal: nothing changes. -/
theorem stepAt_C (h1 : ¬cond1 (grid0.coords t)) (h2 : ¬cond2 (grid0.coords t) (wordOf c (grid0.coords t) (tbl m 0))) (h3 : ¬cond3 (grid0.coords t)) : (stepAt m hO c t prev).2 = prev := by
  unfold stepAt
  rw [dif_neg h1, dif_neg h2, dif_neg h3]

/-- The scratch buffers at the last step above the diagonal: unchanged. -/
theorem stepAt_E_keep (h1 : ¬cond1 (grid0.coords t)) (h2 : ¬cond2 (grid0.coords t) (wordOf c (grid0.coords t) (tbl m 0))) (h3 : cond3 (grid0.coords t)) : (stepAt m hO c t prev).2 = prev := by
  unfold stepAt
  rw [dif_neg h1, dif_neg h2, dif_pos h3]

/-- The last step above the diagonal: the result from the carried sums, which stay. -/
theorem stepAt_E (h1 : ¬cond1 (grid0.coords t)) (h2 : ¬cond2 (grid0.coords t) (wordOf c (grid0.coords t) (tbl m 0))) (h3 : cond3 (grid0.coords t)) :
    (stepAt m hO c t prev).2 = prev ∧ (stepAt m hO c t prev).1 = k0_pay6 (F := Ideal) prev.2.2 prev.2.1 :=
  ⟨stepAt_E_keep m hO c t prev h1 h2 h3, stepAt_E_4 m hO c t prev h1 h2 h3⟩

end Cases

end Cert.KernelIdeal.Hand

end
-- ==== Proof.Spec.lean ====
/-
  The specification both programs are measured against, over plain finite index types.

  For query row i and key column j (both below 8192) and feature d (below 256):
    score i j  = ∑ d, Q i d * K j d
    logit i j  = score i j * (1/16) when j ≤ i, and -∞ above the diagonal (the causal mask)
    rowMax i   = the maximum over j of logit i j
    ex i j     = exp (logit i j - rowMax i)
    rowSum i   = ∑ j, ex i j
    out i d    = ∑ j, (if keep i j then ex i j / rowSum i * 2 else 0) * V j d
  — a row softmax of the masked, scaled scores, post-softmax dropout by the keep mask with rescale 2, then
  the product with V.

  The blockwise (online) evaluation of the same row: the 8192 columns are visited in tiles of 1024, a
  running maximum m, a running sum l and a running weighted sum acc are carried from tile to tile
  (`step`), and the row's result is acc * 2 / l at the end (`finish`). `tiles` folds `step` over the
  first n tiles of a row.
-/
import Idealize.ShloMosaic.PureOps.Ideal

noncomputable section

namespace Cert.Attn

open Idealize.ShloMosaic

abbrev Mat (n k : Nat) := Fin n → Fin k → EReal

/-- The global index of position `r` of tile `b` (tiles of 1024, eight of them). -/
def gidx (b : Fin 8) (r : Fin 1024) : Fin 8192 := ⟨b.val * 1024 + r.val, by omega⟩

def score (Q K : Mat 8192 256) (i j : Fin 8192) : EReal := ∑ d : Fin 256, Q i d * K j d

def logit (Q K : Mat 8192 256) (i j : Fin 8192) : EReal :=
  if j.val ≤ i.val then score Q K i j * ((1 / 16 : ℝ) : EReal) else ⊥

def rowMax (Q K : Mat 8192 256) (i : Fin 8192) : EReal :=
  (Finset.univ : Finset (Fin 8192)).fold max ⊥ (logit Q K i)

def ex (Q K : Mat 8192 256) (i j : Fin 8192) : EReal := Ideal.exp (logit Q K i j - rowMax Q K i)

def rowSum (Q K : Mat 8192 256) (i : Fin 8192) : EReal := ∑ j : Fin 8192, ex Q K i j

/-- The reference's value at row `i`, feature `d`. -/
def out (Q K V : Mat 8192 256) (keep : Fin 8192 → Fin 8192 → Bool) (i : Fin 8192) (d : Fin 256) : EReal :=
  ∑ j : Fin 8192, (if keep i j then Ideal.div (ex Q K i j) (rowSum Q K i) * ((2 : ℝ) : EReal) else 0) * V j d

/-- What one row carries from tile to tile: the running maximum, the running sum of exponentials and the
    running weighted sum of V's rows. -/
structure St where
  m : EReal
  l : EReal
  acc : Fin 256 → EReal

/-- Before the first tile: maximum -∞, sums zero. -/
def init : St := ⟨⊥, 0, fun _ => 0⟩

/-- One tile of 1024 columns: logits `x`, keep bits `kp`, V's rows `v`. -/
def step (s : St) (x : Fin 1024 → EReal) (kp : Fin 1024 → Bool) (v : Fin 1024 → Fin 256 → EReal) : St :=
  let m' : EReal := max s.m ((Finset.univ : Finset (Fin 1024)).fold max ⊥ x)
  ⟨m',
   Ideal.exp (s.m - m') * s.l + ∑ c : Fin 1024, Ideal.exp (x c - m'),
   fun d => Ideal.exp (s.m - m') * s.acc d
     + ∑ c : Fin 1024, (if kp c then Ideal.exp (x c - m') else 0) * v c d⟩

/-- The state of row `i = gidx qb r` after its first `n` tiles. -/
def tiles (Q K V : Mat 8192 256) (keep : Fin 8192 → Fin 8192 → Bool) (qb : Fin 8) (r : Fin 1024) : (n : Nat) → n ≤ 8 → St
  | 0, _ => init
  | n + 1, h => step (tiles Q K V keep qb r n (Nat.le_of_succ_le h))
      (fun c => logit Q K (gidx qb r) (gidx ⟨n, h⟩ c))
      (fun c => keep (gidx qb r) (gidx ⟨n, h⟩ c))
      (fun c => V (gidx ⟨n, h⟩ c))

/-- The row's result from the carried state. -/
def finish (s : St) (d : Fin 256) : EReal := Ideal.div (s.acc d * ((2 : ℝ) : EReal)) s.l

/-- Every entry a real number. -/
def Finite {n k : Nat} (A : Mat n k) : Prop := ∀ i d, ∃ x : ℝ, A i d = (x : EReal)

end Cert.Attn

end
-- ==== Proof.SpecArr.lean ====
/-
  The specification at the level of the argument arrays: the three projections q = x·Wqᵀ, k = x·Wkᵀ, v = x·Wvᵀ
  (each entry a sum over the 256 input features), the keep mask read as booleans, and the result array
  `result x wq wk wv msk` whose entry at (i, d) is `Attn.out` of the projections at row i, feature d.
-/
import proofs.«101383_j27444841022105_2_alg».proof.Proof.Spec
import Idealize.ShloMosaic.Lib.ValueIdx

noncomputable section

namespace Cert.Attn

open Idealize.ShloMosaic Idealize.ShloMosaic.ValueIdx

abbrev SX : Shape := ⟨2, ![8192, 256]⟩
abbrev SW : Shape := ⟨2, ![256, 256]⟩
abbrev SM : Shape := ⟨2, ![8192, 8192]⟩

/-- x·Wᵀ: entry (i, d) is the sum over input features k of x[i, k] · W[d, k]. -/
def proj (x : SX.Idx → EReal) (w : SW.Idx → EReal) : Mat 8192 256 :=
  fun i d => ∑ k : Fin 256, x (ix2 i k) * w (ix2 d k)

/-- The keep mask as booleans. -/
def keepOf (msk : SM.Idx → BitVec 1) : Fin 8192 → Fin 8192 → Bool := fun i j => msk (ix2 i j) == 1#1

/-- The result array both programs end with. -/
def result (x : SX.Idx → EReal) (wq wk wv : SW.Idx → EReal) (msk : SM.Idx → BitVec 1) : SX.Idx → EReal :=
  fun j => out (proj x wq) (proj x wk) (proj x wv) (keepOf msk) (j 0) (j 1)

/-- A projection of arrays of real numbers is an array of real numbers. -/
theorem proj_finite (x : SX.Idx → EReal) (w : SW.Idx → EReal)
    (hx : ∀ i, ∃ r : ℝ, x i = (r : EReal)) (hw : ∀ i, ∃ r : ℝ, w i = (r : EReal)) : Finite (proj x w) := by
  intro i d
  choose xr hxr using hx
  choose wr hwr using hw
  refine ⟨∑ k : Fin 256, xr (ix2 i k) * wr (ix2 d k), ?_⟩
  unfold proj
  simp only [hxr, hwr, ← EReal.coe_mul]
  induction (Finset.univ : Finset (Fin 256)) using Finset.induction_on with
  | empty => simp
  | insert a s ha ih => rw [Finset.sum_insert ha, Finset.sum_insert ha, ih, EReal.coe_add]

end Cert.Attn

end
-- ==== Proof.HostPre.lean ====
/-
  The host operations before the kernel call, as pure functions of the argument arrays, at the ideal instance.

  The three weight matrices are stacked along the rows into one 768 × 256 array, transposed, and multiplied by x:
  entry (i, n) of the product is the sum over the 256 input features t of x[i, t] * W[n, t], where row 256·p + d of the
  stack W is row d of the p-th matrix. The three column bands of the product, of 256 columns each, narrowed to the
  kernel's input format (the identity on extended reals), are therefore the three projections x·Wqᵀ, x·Wkᵀ, x·Wvᵀ of the
  specification. The keep mask widened from one bit to 32 is nonzero exactly where the bit is 1.
-/
import proofs.«101383_j27444841022105_2_alg».proof.Proof.Gen.KernelIdeal
import proofs.«101383_j27444841022105_2_alg».proof.Proof.SpecArr
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Idealize.ShloMosaic.ValueIdx Cert.KernelIdeal Cert.KernelIdeal.Gen

/-! ## The product x · Wᵀ at an index -/

abbrev D0 := dot_S8192x256_S256x768_S8192x768_1_0_0_1_n_n

theorem d0_lhs0 (i : S8192x768.Idx) (q : D0.contr.Idx) : (D0.lhsIdx i q 0).val = (i 0).val := by
  unfold DotDims.lhsIdx
  rw [dif_neg (show ¬(0 : Fin S8192x256.rank) ∈ D0.lhsBatch by decide), dif_pos (show (0 : Fin S8192x256.rank) ∈ D0.lhsNonContracting by decide)]
  rfl
theorem d0_lhs1 (i : S8192x768.Idx) (q : D0.contr.Idx) : (D0.lhsIdx i q 1).val = (q ⟨0, by decide⟩).val :=
  D0.lhsIdx_val_of_single rfl i q
theorem d0_rhs0 (i : S8192x768.Idx) (q : D0.contr.Idx) : (D0.rhsIdx i q 0).val = (q ⟨0, by decide⟩).val :=
  D0.rhsIdx_val_of_single rfl i q
theorem d0_rhs1 (i : S8192x768.Idx) (q : D0.contr.Idx) : (D0.rhsIdx i q 1).val = (i 1).val := by
  unfold DotDims.rhsIdx
  rw [dif_neg (show ¬(1 : Fin S256x768.rank) ∈ D0.rhsBatch by decide), dif_pos (show (1 : Fin S256x768.rank) ∈ D0.rhsNonContracting by decide)]
  rfl

/-- The host's product of an 8192 × 256 array and a 256 × 768 array at `(i, n)`: the sum over the 256 shared features. -/
theorem dot0_apply (x : FVec Ideal S8192x256 .f32) (y : FVec Ideal S256x768 .f32) (i : Fin 8192) (n : Fin 768) :
    Host.dotGeneral (F := Ideal) D0 none x y (ix2 i n) = ∑ t : Fin 256, x (ix2 i t) * y (ix2 t n) := by
  simp only [Host.dotGeneral]
  rw [Ideal.dotGeneral_apply, ← Equiv.sum_comp (contrEquiv1 D0 256 rfl rfl).symm]
  refine Finset.sum_congr rfl fun t _ => ?_
  have hk := contrEquiv1_symm_val D0 256 rfl rfl t
  have el : D0.lhsIdx (ix2 i n) ((contrEquiv1 D0 256 rfl rfl).symm t) = ix2 i t := funext fun a => Fin.ext (by
    match a with
    | ⟨0, _⟩ => exact d0_lhs0 _ _
    | ⟨1, _⟩ => exact (d0_lhs1 _ _).trans hk)
  have er : D0.rhsIdx (ix2 i n) ((contrEquiv1 D0 256 rfl rfl).symm t) = ix2 t n := funext fun a => Fin.ext (by
    match a with
    | ⟨0, _⟩ => exact (d0_rhs0 _ _).trans hk
    | ⟨1, _⟩ => exact d0_rhs1 _ _)
  rw [el, er]

/-! ## The stacked weights -/

/-- The three weight matrices stacked along the rows. -/
def wcat (wq wk wv : FVec Ideal S256x256 .f32) : FVec Ideal S768x256 .f32 :=
  concatenate S768x256 0 [⟨S256x256, wq⟩, ⟨S256x256, wk⟩, ⟨S256x256, wv⟩]
    concatenates_S256x256_S256x256_S256x256_S768x256_d0

/-- x times the transposed stack: the array the three projections are cut from. -/
def xw (x : FVec Ideal S8192x256 .f32) (wq wk wv : FVec Ideal S256x256 .f32) : FVec Ideal S8192x768 .f32 :=
  Host.dotGeneral (F := Ideal) D0 none x
    (transpose S256x768 [1, 0] (wcat wq wk wv) transposes_S768x256_S256x768_1_0)

/-- Rows 0 to 255 of the stack are the first matrix. -/
theorem wcat_q (wq wk wv : FVec Ideal S256x256 .f32) (d t : Fin 256) (n : Fin 768) (h : n.val = d.val) :
    wcat wq wk wv (ix2 n t) = wq (ix2 d t) := by
  unfold wcat
  refine concatenate_apply_piece (0 : Fin S768x256.rank) _ _ (ix2 n t) 0 (by show (0 : ℕ) < 3; omega) S256x256 wq rfl rfl 0 rfl (ix2 d t) ?_ ?_
  · intro b hb
    match b, hb with
    | ⟨0, _⟩, hb => exact absurd (Fin.ext rfl) hb
    | ⟨1, _⟩, _ => rfl
  · show 0 + d.val = n.val
    omega

/-- Rows 256 to 511 of the stack are the second matrix. -/
theorem wcat_k (wq wk wv : FVec Ideal S256x256 .f32) (d t : Fin 256) (n : Fin 768) (h : n.val = 256 + d.val) :
    wcat wq wk wv (ix2 n t) = wk (ix2 d t) := by
  unfold wcat
  refine concatenate_apply_piece (0 : Fin S768x256.rank) _ _ (ix2 n t) 1 (by show (1 : ℕ) < 3; omega) S256x256 wk rfl rfl 256 rfl (ix2 d t) ?_ ?_
  · intro b hb
    match b, hb with
    | ⟨0, _⟩, hb => exact absurd (Fin.ext rfl) hb
    | ⟨1, _⟩, _ => rfl
  · show 256 + d.val = n.val
    omega

/-- Rows 512 to 767 of the stack are the third matrix. -/
theorem wcat_v (wq wk wv : FVec Ideal S256x256 .f32) (d t : Fin 256) (n : Fin 768) (h : n.val = 512 + d.val) :
    wcat wq wk wv (ix2 n t) = wv (ix2 d t) := by
  unfold wcat
  refine concatenate_apply_piece (0 : Fin S768x256.rank) _ _ (ix2 n t) 2 (by show (2 : ℕ) < 3; omega) S256x256 wv rfl rfl 512 rfl (ix2 d t) ?_ ?_
  · intro b hb
    match b, hb with
    | ⟨0, _⟩, hb => exact absurd (Fin.ext rfl) hb
    | ⟨1, _⟩, _ => rfl
  · show 512 + d.val = n.val
    omega

/-- The product at `(i, n)`: the sum over the input features of x[i, t] times row n of the stack at t. -/
theorem xw_apply (x : FVec Ideal S8192x256 .f32) (wq wk wv : FVec Ideal S256x256 .f32) (i : Fin 8192) (n : Fin 768) :
    xw x wq wk wv (ix2 i n) = ∑ t : Fin 256, x (ix2 i t) * wcat wq wk wv (ix2 n t) := by
  unfold xw
  rw [dot0_apply]
  exact Finset.sum_congr rfl fun t _ => by rw [transpose_ix2_apply]

/-! ## The three projections -/

/-- Columns 0 to 255 of the product, narrowed, are x·Wqᵀ. -/
theorem q_host (x : FVec Ideal S8192x256 .f32) (wq wk wv : FVec Ideal S256x256 .f32) (i : Fin 8192) (d : Fin 256) :
    truncf .bf16 (extractStridedSlice S8192x256 ![0, 0] (xw x wq wk wv) slices_S8192x768_S8192x256_0_0) bitsLt_bf16_f32 (ix2 i d)
      = Cert.Attn.proj x wq i d := by
  rw [truncf_apply, slice2_axis1_eq, xw_apply]
  unfold Cert.Attn.proj
  exact Finset.sum_congr rfl fun t _ => by rw [wcat_q wq wk wv d t _ (Nat.zero_add _)]

/-- Columns 256 to 511 of the product, narrowed, are x·Wkᵀ. -/
theorem k_host (x : FVec Ideal S8192x256 .f32) (wq wk wv : FVec Ideal S256x256 .f32) (i : Fin 8192) (d : Fin 256) :
    truncf .bf16 (extractStridedSlice S8192x256 ![0, 256] (xw x wq wk wv) slices_S8192x768_S8192x256_0_256) bitsLt_bf16_f32 (ix2 i d)
      = Cert.Attn.proj x wk i d := by
  rw [truncf_apply, slice2_axis1_eq, xw_apply]
  unfold Cert.Attn.proj
  exact Finset.sum_congr rfl fun t _ => by rw [wcat_k wq wk wv d t _ rfl]

/-- Columns 512 to 767 of the product, narrowed, are x·Wvᵀ. -/
theorem v_host (x : FVec Ideal S8192x256 .f32) (wq wk wv : FVec Ideal S256x256 .f32) (i : Fin 8192) (d : Fin 256) :
    truncf .bf16 (extractStridedSlice S8192x256 ![0, 512] (xw x wq wk wv) slices_S8192x768_S8192x256_0_512) bitsLt_bf16_f32 (ix2 i d)
      = Cert.Attn.proj x wv i d := by
  rw [truncf_apply, slice2_axis1_eq, xw_apply]
  unfold Cert.Attn.proj
  exact Finset.sum_congr rfl fun t _ => by rw [wcat_v wq wk wv d t _ rfl]

/-! ## The keep mask widened to 32 bits -/

/-- One bit widened to 32 is nonzero exactly when the bit is 1. -/
theorem setWidth_ne_zero (b : BitVec 1) : b.setWidth 32 ≠ 0#32 ↔ b = 1#1 := by
  rcases BitVec.eq_zero_or_eq_one b with h | h
  · subst h; decide
  · subst h; decide

/-- The widened mask at `(i, j)` is nonzero exactly where the keep bit is 1. -/
theorem mask_host (msk1 : IVec S8192x8192 1) (h : 1 < 32) (i j : Fin 8192) :
    (extui 32 msk1 h) (ix2 i j) ≠ 0#32 ↔ msk1 (ix2 i j) = 1#1 := by
  rw [extui_apply]
  exact setWidth_ne_zero _

end Cert.KernelIdeal.PayIdeal

end
-- ==== Proof.EntryVals.lean ====
/-
  The arrays the kernel call's input windows stage, as functions of the argument arrays.

  When the kernel call is entered, the three projection arrays hold, at (i, d), the sums over the 256 input features t
  of x[i, t] * Wq[d, t], x[i, t] * Wk[d, t] and x[i, t] * Wv[d, t] — the specification's projections of the argument
  arrays —, and the 32-bit mask array is nonzero at (i, j) exactly where the argument's keep bit is 1: each is the launch
  memory's argument arrays put through the host operations that precede the call.
-/
import proofs.«101383_j27444841022105_2_alg».proof.Proof.FrameDefs
import proofs.«101383_j27444841022105_2_alg».proof.Proof.HostPre

set_option maxRecDepth 16384

noncomputable section

namespace Cert.KernelIdeal.Hand

open Cert.KernelIdeal Cert.KernelIdeal.Gen Cert.KernelIdeal.PayIdeal
open Idealize.ShloMosaic Idealize.ShloMosaic.TcCoe Idealize.ShloMosaic.ValueIdx
open Idealize.SL.Sem

variable (m : (ℓ : Loc nD τ sig) → Buf (Elt Ideal) ℓ)

/-- The argument arrays of core `c` in the launch memory: x, the three weight matrices and the keep mask. -/
abbrev argX (c : Dev nD) : FVec Ideal S8192x256 .f32 := m ((c : Thread nD τ).loc main_arg0)
abbrev argWq (c : Dev nD) : FVec Ideal S256x256 .f32 := m ((c : Thread nD τ).loc main_arg1)
abbrev argWk (c : Dev nD) : FVec Ideal S256x256 .f32 := m ((c : Thread nD τ).loc main_arg2)
abbrev argWv (c : Dev nD) : FVec Ideal S256x256 .f32 := m ((c : Thread nD τ).loc main_arg3)
abbrev argM (c : Dev nD) : IVec S8192x8192 1 := m ((c : Thread nD τ).loc main_arg4)

/-- The first projection array at the call: the first column band of x times the transposed stack, narrowed. -/
theorem V6_eq (c : Dev nD) : (V m c main_v6 : S8192x256.Idx → EReal)
    = truncf .bf16 (extractStridedSlice S8192x256 ![0, 0] (xw (argX m c) (argWq m c) (argWk m c) (argWv m c))
        slices_S8192x768_S8192x256_0_0) bitsLt_bf16_f32 := by
  dsimp only [V, hostOps0]; after_results; rfl

/-- The second projection array at the call: the second column band. -/
theorem V7_eq (c : Dev nD) : (V m c main_v7 : S8192x256.Idx → EReal)
    = truncf .bf16 (extractStridedSlice S8192x256 ![0, 256] (xw (argX m c) (argWq m c) (argWk m c) (argWv m c))
        slices_S8192x768_S8192x256_0_256) bitsLt_bf16_f32 := by
  dsimp only [V, hostOps0]; after_results; rfl

/-- The third projection array at the call: the third column band. -/
theorem V8_eq (c : Dev nD) : (V m c main_v8 : S8192x256.Idx → EReal)
    = truncf .bf16 (extractStridedSlice S8192x256 ![0, 512] (xw (argX m c) (argWq m c) (argWk m c) (argWv m c))
        slices_S8192x768_S8192x256_0_512) bitsLt_bf16_f32 := by
  dsimp only [V, hostOps0]; after_results; rfl

/-- The mask array at the call: the keep mask widened to 32 bits. -/
theorem V9_eq (c : Dev nD) : (V m c main_v9 : S8192x8192.Idx → BitVec 32) = extui 32 (argM m c) natLt_1_32 := by
  dsimp only [V, hostOps0]; after_results

/-- The query projection the kernel call is entered with. -/
theorem entry_q (c : Dev nD) (i : Fin 8192) (d : Fin 256) :
    (V m c main_v6 : S8192x256.Idx → EReal) (ix2 i d) = Cert.Attn.proj (argX m c) (argWq m c) i d :=
  (congrFun (V6_eq m c) (ix2 i d)).trans (q_host _ _ _ _ i d)

/-- The key projection the kernel call is entered with. -/
theorem entry_k (c : Dev nD) (i : Fin 8192) (d : Fin 256) :
    (V m c main_v7 : S8192x256.Idx → EReal) (ix2 i d) = Cert.Attn.proj (argX m c) (argWk m c) i d :=
  (congrFun (V7_eq m c) (ix2 i d)).trans (k_host _ _ _ _ i d)

/-- The value projection the kernel call is entered with. -/
theorem entry_v (c : Dev nD) (i : Fin 8192) (d : Fin 256) :
    (V m c main_v8 : S8192x256.Idx → EReal) (ix2 i d) = Cert.Attn.proj (argX m c) (argWv m c) i d :=
  (congrFun (V8_eq m c) (ix2 i d)).trans (v_host _ _ _ _ i d)

/-- The mask words the kernel call is entered with are nonzero exactly where the keep bit is 1. -/
theorem entry_mask (c : Dev nD) (i j : Fin 8192) :
    (V m c main_v9 : S8192x8192.Idx → BitVec 32) (ix2 i j) ≠ 0#32 ↔ argM m c (ix2 i j) = 1#1 := by
  have e := congrFun (V9_eq m c) (ix2 i j)
  rw [e]
  exact mask_host _ _ i j

end Cert.KernelIdeal.Hand

end
-- ==== Proof.Blocks.lean ====
/-
  The blocks the kernel body is handed at a grid point, as entries of the specification's arrays.

  An element (r, d) of a window's block at point t sits in the window's array at (block index × block size + r, …).
  At point t of slot s and step k the query block is tile perm s of the query projection, the key and value blocks are
  tile min k (perm s) of the key and value projections, and the mask block is the tile pair (perm s, min k (perm s))
  of the mask words, which are nonzero exactly where the keep bit is 1.
-/
import proofs.«101383_j27444841022105_2_alg».proof.Proof.Sched
import proofs.«101383_j27444841022105_2_alg».proof.Proof.EntryVals

set_option maxRecDepth 16384

noncomputable section

namespace Cert.KernelIdeal.Hand

open Cert.KernelIdeal Cert.KernelIdeal.Gen Cert.KernelIdeal.PayIdeal
open Idealize.ShloMosaic Idealize.ShloMosaic.TcCoe Idealize.ShloMosaic.ValueIdx
open Idealize.SL.Sem
open Cert.Attn (gidx)

/-! ## A block's element in its array, at any admissible table -/

section Generic
variable {F : FTy → Type} [FloatOps F] [Named F]

theorem blk_read_a0 (a : (pcfg0 (F := F)).Adm) (X : S8192x256.Idx → Elt F .bf16) (t : Fin (cfg0 a).N)
    (r : Fin 1024) (d : Fin 256) (i0 : Fin 8192)
    (h0 : ((cfg0 a).win 0).index t (0 : Fin 2) * 1024 + r.val = i0.val) (h1 : ((cfg0 a).win 0).index t (1 : Fin 2) = 0) :
    (((cfg0 a).win 0).blk t).view.read (Elt F) X (ix2 r d) = X (ix2 i0 d) := by
  show X ((((cfg0 a).win 0).blk t).view.emb (ix2 r d)) = _
  refine congrArg X (funext fun ax => Fin.ext ?_)
  match ax with
  | ⟨0, _⟩ => show ((cfg0 a).win 0).index t (0 : Fin 2) * 1024 + 1 * r.val = i0.val; omega
  | ⟨1, _⟩ => show ((cfg0 a).win 0).index t (1 : Fin 2) * 256 + 1 * d.val = d.val; rw [h1]; omega

theorem blk_read_a1 (a : (pcfg0 (F := F)).Adm) (X : S8192x256.Idx → Elt F .bf16) (t : Fin (cfg0 a).N)
    (r : Fin 1024) (d : Fin 256) (i0 : Fin 8192)
    (h0 : ((cfg0 a).win 1).index t (0 : Fin 2) * 1024 + r.val = i0.val) (h1 : ((cfg0 a).win 1).index t (1 : Fin 2) = 0) :
    (((cfg0 a).win 1).blk t).view.read (Elt F) X (ix2 r d) = X (ix2 i0 d) := by
  show X ((((cfg0 a).win 1).blk t).view.emb (ix2 r d)) = _
  refine congrArg X (funext fun ax => Fin.ext ?_)
  match ax with
  | ⟨0, _⟩ => show ((cfg0 a).win 1).index t (0 : Fin 2) * 1024 + 1 * r.val = i0.val; omega
  | ⟨1, _⟩ => show ((cfg0 a).win 1).index t (1 : Fin 2) * 256 + 1 * d.val = d.val; rw [h1]; omega

theorem blk_read_a2 (a : (pcfg0 (F := F)).Adm) (X : S8192x256.Idx → Elt F .bf16) (t : Fin (cfg0 a).N)
    (r : Fin 1024) (d : Fin 256) (i0 : Fin 8192)
    (h0 : ((cfg0 a).win 2).index t (0 : Fin 2) * 1024 + r.val = i0.val) (h1 : ((cfg0 a).win 2).index t (1 : Fin 2) = 0) :
    (((cfg0 a).win 2).blk t).view.read (Elt F) X (ix2 r d) = X (ix2 i0 d) := by
  show X ((((cfg0 a).win 2).blk t).view.emb (ix2 r d)) = _
  refine congrArg X (funext fun ax => Fin.ext ?_)
  match ax with
  | ⟨0, _⟩ => show ((cfg0 a).win 2).index t (0 : Fin 2) * 1024 + 1 * r.val = i0.val; omega
  | ⟨1, _⟩ => show ((cfg0 a).win 2).index t (1 : Fin 2) * 256 + 1 * d.val = d.val; rw [h1]; omega

theorem blk_read_a3 (a : (pcfg0 (F := F)).Adm) (X : S8192x8192.Idx → Elt F .i32) (t : Fin (cfg0 a).N)
    (r cc : Fin 1024) (i0 j0 : Fin 8192)
    (h0 : ((cfg0 a).win 3).index t (0 : Fin 2) * 1024 + r.val = i0.val) (h1 : ((cfg0 a).win 3).index t (1 : Fin 2) * 1024 + cc.val = j0.val) :
    (((cfg0 a).win 3).blk t).view.read (Elt F) X (ix2 r cc) = X (ix2 i0 j0) := by
  show X ((((cfg0 a).win 3).blk t).view.emb (ix2 r cc)) = _
  refine congrArg X (funext fun ax => Fin.ext ?_)
  match ax with
  | ⟨0, _⟩ => show ((cfg0 a).win 3).index t (0 : Fin 2) * 1024 + 1 * r.val = i0.val; omega
  | ⟨1, _⟩ => show ((cfg0 a).win 3).index t (1 : Fin 2) * 1024 + 1 * cc.val = j0.val; omega

end Generic

/-! ## The four blocks at a point, at the extended reals -/

variable (m : (ℓ : Loc nD τ sig) → Buf (Elt Ideal) ℓ)

/-- The query block at a point of a slot holding tile qb: rows of the query projection. -/
theorem q_blk (hO : Ok m) (c : Dev nD) (t : Fin (cfgM m hO).N) (qb : Fin 8) (hqb : perm ((grid0.coords t) 0) = qb.val)
    (r : Fin 1024) (d : Fin 256) :
    (iblk m hO c 0 t : Vec Ideal S1024x256 .bf16) (ix2 r d) = Cert.Attn.proj (argX m c) (argWq m c) (gidx qb r) d := by
  have e0 : ((cfgM m hO).win 0).index t (0 : Fin 2) = perm ((grid0.coords t) 0) := congrFun (index0 m hO t) (0 : Fin 2)
  have e1 : ((cfgM m hO).win 0).index t (1 : Fin 2) = 0 := congrFun (index0 m hO t) (1 : Fin 2)
  refine (blk_read_a0 (adm m hO) (V m c main_v6) t r d (gidx qb r) (by rw [e0, hqb]; rfl) e1).trans ?_
  exact entry_q m c (gidx qb r) d

/-- The key block at a point whose key/value tile is kb: rows of the key projection. -/
theorem k_blk (hO : Ok m) (c : Dev nD) (t : Fin (cfgM m hO).N) (kb : Fin 8)
    (hkb : min ((grid0.coords t) 1).val (perm ((grid0.coords t) 0)) = kb.val) (cc : Fin 1024) (d : Fin 256) :
    (iblk m hO c 1 t : Vec Ideal S1024x256 .bf16) (ix2 cc d) = Cert.Attn.proj (argX m c) (argWk m c) (gidx kb cc) d := by
  have e0 : ((cfgM m hO).win 1).index t (0 : Fin 2) = min ((grid0.coords t) 1).val (perm ((grid0.coords t) 0)) := congrFun (index1 m hO t) (0 : Fin 2)
  have e1 : ((cfgM m hO).win 1).index t (1 : Fin 2) = 0 := congrFun (index1 m hO t) (1 : Fin 2)
  refine (blk_read_a1 (adm m hO) (V m c main_v7) t cc d (gidx kb cc) (by rw [e0, hkb]; rfl) e1).trans ?_
  exact entry_k m c (gidx kb cc) d

/-- The value block at that point: rows of the value projection. -/
theorem v_blk (hO : Ok m) (c : Dev nD) (t : Fin (cfgM m hO).N) (kb : Fin 8)
    (hkb : min ((grid0.coords t) 1).val (perm ((grid0.coords t) 0)) = kb.val) (cc : Fin 1024) (d : Fin 256) :
    (iblk m hO c 2 t : Vec Ideal S1024x256 .bf16) (ix2 cc d) = Cert.Attn.proj (argX m c) (argWv m c) (gidx kb cc) d := by
  have e0 : ((cfgM m hO).win 2).index t (0 : Fin 2) = min ((grid0.coords t) 1).val (perm ((grid0.coords t) 0)) := congrFun (index2 m hO t) (0 : Fin 2)
  have e1 : ((cfgM m hO).win 2).index t (1 : Fin 2) = 0 := congrFun (index2 m hO t) (1 : Fin 2)
  refine (blk_read_a2 (adm m hO) (V m c main_v8) t cc d (gidx kb cc) (by rw [e0, hkb]; rfl) e1).trans ?_
  exact entry_v m c (gidx kb cc) d

/-- The mask block at that point: its words are nonzero exactly where the keep mask keeps. -/
theorem mask_blk (hO : Ok m) (c : Dev nD) (t : Fin (cfgM m hO).N) (qb kb : Fin 8)
    (hqb : perm ((grid0.coords t) 0) = qb.val)
    (hkb : min ((grid0.coords t) 1).val (perm ((grid0.coords t) 0)) = kb.val) (r cc : Fin 1024) :
    (iblk m hO c 3 t : Vec Ideal S1024x1024 .i32) (ix2 r cc) ≠ 0#32
      ↔ Cert.Attn.keepOf (argM m c) (gidx qb r) (gidx kb cc) = true := by
  have e0 : ((cfgM m hO).win 3).index t (0 : Fin 2) = perm ((grid0.coords t) 0) := congrFun (index3 m hO t) (0 : Fin 2)
  have e1 : ((cfgM m hO).win 3).index t (1 : Fin 2) = min ((grid0.coords t) 1).val (perm ((grid0.coords t) 0)) := congrFun (index3 m hO t) (1 : Fin 2)
  have e := blk_read_a3 (adm m hO) (V m c main_v9) t r cc (gidx qb r) (gidx kb cc) (by rw [e0, hqb]; rfl) (by rw [e1, hkb]; rfl)
  have e' : (iblk m hO c 3 t : Vec Ideal S1024x1024 .i32) (ix2 r cc) = (V m c main_v9 : S8192x8192.Idx → BitVec 32) (ix2 (gidx qb r) (gidx kb cc)) := e
  rw [e']
  refine (entry_mask m c (gidx qb r) (gidx kb cc)).trans ?_
  unfold Cert.Attn.keepOf
  exact beq_iff_eq.symm

end Cert.KernelIdeal.Hand

end
-- ==== Proof.PayIdeal.lean ====
/-
  The kernel's arithmetic read at an index, at the ideal instance.

  Each value the kernel's body stores is one pure term of the values it loaded. Here every such term is read at
  a row `r`, a column `c` of the tile and a feature `d`, over the extended reals:
    the initial values are -∞, 0, 0;
    the masked, scaled scores of a tile: the sum over the 256 features of q[r, d] * k[c, d], times 1/16, where the
      column's global index is at most the row's, and -∞ elsewhere;
    the new running maximum: the old one against the maximum of the tile's row;
    the rescaling factor exp (old maximum - new maximum) and the exponentials exp (score - new maximum);
    the new running sum: factor * old sum + the sum of the exponentials over the tile's 1024 columns;
    the new weighted sum: factor * old + the sum over the columns of the kept exponentials times v[c, d];
    the final value: the weighted sum times 2 over the running sum.
  The last lemma restates the three carried values at a row as one `Cert.Attn.step` of the specification.
-/
import proofs.«101383_j27444841022105_2_alg».proof.Proof.Gen.KernelIdeal.Skeleton
import proofs.«101383_j27444841022105_2_alg».proof.Proof.SpecArr
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Idealize.ShloMosaic.ValueIdx Cert.KernelIdeal Cert.KernelIdeal.Gen

/-! ## Words: tile offsets and the causal comparison on 32-bit integers -/

/-- A tile number below 8 times 1024 does not wrap. -/
theorem muli_1024 (k : Fin 8) : Scalar.muli (BitVec.ofNat 32 k.val) 1024#32 = BitVec.ofNat 32 (k.val * 1024) := by
  revert k; decide

/-- Adding two words of naturals is the word of the sum. -/
theorem addi_ofNat (a b : Nat) : IntOp.addi (BitVec.ofNat 32 a) (BitVec.ofNat 32 b) = BitVec.ofNat 32 (a + b) := by
  unfold IntOp.addi
  exact (BitVec.ofNat_add a b).symm

/-- Below 2^31 a word read as a signed integer is the natural it was made from. -/
theorem toInt_ofNat_small (a : Nat) (ha : a < 2 ^ 31) : (BitVec.ofNat 32 a).toInt = (a : Int) := by
  have ea : (BitVec.ofNat 32 a).toNat = a := by
    rw [BitVec.toNat_ofNat]; exact Nat.mod_eq_of_lt (by omega)
  rw [BitVec.toInt_eq_toNat_cond, ea]
  split <;> omega

/-- Below 2^31 the signed comparison `≥` of two words is the order of the naturals. -/
theorem sge_ofNat (a b : Nat) (ha : a < 2 ^ 31) (hb : b < 2 ^ 31) :
    IntOp.cmpi .sge (BitVec.ofNat 32 a) (BitVec.ofNat 32 b) = 1#1 ↔ b ≤ a := by
  unfold IntOp.cmpi
  show BitVec.ofBool ((BitVec.ofNat 32 b).sle (BitVec.ofNat 32 a)) = 1#1 ↔ b ≤ a
  rw [BitVec.sle_eq_decide, toInt_ofNat_small a ha, toInt_ofNat_small b hb]
  by_cases h : b ≤ a
  · have h' : ((b : Int) ≤ (a : Int)) := by omega
    simp [h, h']
  · have h' : ¬ ((b : Int) ≤ (a : Int)) := by omega
    simp [h, h']

/-- A select on that comparison is the `if` on the order. -/
theorem select_sge (a b : Nat) (ha : a < 2 ^ 31) (hb : b < 2 ^ 31) {α : Type} (x y : α) :
    Scalar.select (IntOp.cmpi .sge (BitVec.ofNat 32 a) (BitVec.ofNat 32 b)) x y = if b ≤ a then x else y := by
  unfold Scalar.select
  by_cases h : b ≤ a
  · rw [if_pos h]; exact if_pos ((sge_ofNat a b ha hb).mpr h)
  · rw [if_neg h]; exact if_neg (fun h1 => h ((sge_ofNat a b ha hb).mp h1))

/-- A word compares unequal to zero exactly when it is not zero. -/
theorem cmpi_ne_zero (x : BitVec 32) : IntOp.cmpi .ne x 0#32 = 1#1 ↔ x ≠ 0#32 := by
  unfold IntOp.cmpi
  show BitVec.ofBool (x != 0#32) = 1#1 ↔ x ≠ 0#32
  by_cases h : x = 0#32
  · subst h; simp
  · have hb : (x != 0#32) = true := by simpa [bne_iff_ne] using h
    rw [hb]; simp [h]

/-! ## The float literals -/

theorem two_eq : Ideal.ofBits .f32 0x40000000#32 = ((2 : ℝ) : EReal) := by
  simp [Ideal.ofBits, Ideal.ieee, -EReal.coe_mul]
  norm_num

theorem sixteenth_eq : Ideal.ofBits .f32 0x3D800000#32 = ((1 / 16 : ℝ) : EReal) := by
  simp [Ideal.ofBits, Ideal.ieee, -EReal.coe_mul]
  norm_num

theorem neg_inf_eq : Ideal.ofBits .f32 0xFF800000#32 = (⊥ : EReal) := by
  simp [Ideal.ofBits, Ideal.ieee]

/-! ## Two layout forms read at an index: a column's unit axis added, and a column broadcast along rows -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products' operand indices -/

abbrev D1 := dot_S1024x256_S1024x256_S1024x1024_1_1_0_0_n_n
abbrev D2 := dot_S1024x1024_S1024x256_S1024x256_1_0_0_1_n_n

theorem d1_lhs0 (i : S1024x1024.Idx) (q : D1.contr.Idx) : (D1.lhsIdx i q 0).val = (i 0).val := by
  unfold DotDims.lhsIdx
  rw [dif_neg (show ¬(0 : Fin S1024x256.rank) ∈ D1.lhsBatch by decide), dif_pos (show (0 : Fin S1024x256.rank) ∈ D1.lhsNonContracting by decide)]
  rfl
theorem d1_lhs1 (i : S1024x1024.Idx) (q : D1.contr.Idx) : (D1.lhsIdx i q 1).val = (q ⟨0, by decide⟩).val :=
  D1.lhsIdx_val_of_single rfl i q
theorem d1_rhs0 (i : S1024x1024.Idx) (q : D1.contr.Idx) : (D1.rhsIdx i q 0).val = (i 1).val := by
  unfold DotDims.rhsIdx
  rw [dif_neg (show ¬(0 : Fin S1024x256.rank) ∈ D1.rhsBatch by decide), dif_pos (show (0 : Fin S1024x256.rank) ∈ D1.rhsNonContracting by decide)]
  rfl
theorem d1_rhs1 (i : S1024x1024.Idx) (q : D1.contr.Idx) : (D1.rhsIdx i q 1).val = (q ⟨0, by decide⟩).val :=
  D1.rhsIdx_val_of_single rfl i q

theorem d2_lhs0 (i : S1024x256.Idx) (q : D2.contr.Idx) : (D2.lhsIdx i q 0).val = (i 0).val := by
  unfold DotDims.lhsIdx
  rw [dif_neg (show ¬(0 : Fin S1024x1024.rank) ∈ D2.lhsBatch by decide), dif_pos (show (0 : Fin S1024x1024.rank) ∈ D2.lhsNonContracting by decide)]
  rfl
theorem d2_lhs1 (i : S1024x256.Idx) (q : D2.contr.Idx) : (D2.lhsIdx i q 1).val = (q ⟨0, by decide⟩).val :=
  D2.lhsIdx_val_of_single rfl i q
theorem d2_rhs0 (i : S1024x256.Idx) (q : D2.contr.Idx) : (D2.rhsIdx i q 0).val = (q ⟨0, by decide⟩).val :=
  D2.rhsIdx_val_of_single rfl i q
theorem d2_rhs1 (i : S1024x256.Idx) (q : D2.contr.Idx) : (D2.rhsIdx i q 1).val = (i 1).val := by
  unfold DotDims.rhsIdx
  rw [dif_neg (show ¬(1 : Fin S1024x256.rank) ∈ D2.rhsBatch by decide), dif_pos (show (1 : Fin S1024x256.rank) ∈ D2.rhsNonContracting by decide)]
  rfl

/-- The first product into the zero accumulator, at `(r, c)`: the sum over the 256 features of `q[r, d] * k[c, d]`. -/
theorem qk_apply (q k : FVec Ideal S1024x256 .bf16) (r c : Fin 1024) :
    matmul D1 none q k (constant (F := Ideal) S1024x1024 .f32 0x00000000#32) (ix2 r c)
      = ∑ d : Fin 256, q (ix2 r d) * k (ix2 c d) := by
  simp only [matmul]
  rw [Ideal.matmul_constant_zero_apply, ← Equiv.sum_comp (contrEquiv1 D1 256 rfl rfl).symm]
  refine Finset.sum_congr rfl fun d _ => ?_
  have hk := contrEquiv1_symm_val D1 256 rfl rfl d
  have el : D1.lhsIdx (ix2 r c) ((contrEquiv1 D1 256 rfl rfl).symm d) = ix2 r d := funext fun a => Fin.ext (by
    match a with
    | ⟨0, _⟩ => exact d1_lhs0 _ _
    | ⟨1, _⟩ => exact (d1_lhs1 _ _).trans hk)
  have er : D1.rhsIdx (ix2 r c) ((contrEquiv1 D1 256 rfl rfl).symm d) = ix2 c d := funext fun a => Fin.ext (by
    match a with
    | ⟨0, _⟩ => exact d1_rhs0 _ _
    | ⟨1, _⟩ => exact (d1_rhs1 _ _).trans hk)
  rw [el, er]

/-- The second product into the zero accumulator, at `(r, d)`: the sum over the 1024 columns of `p[r, c] * v[c, d]`. -/
theorem pv_apply (p : FVec Ideal S1024x1024 .bf16) (v : FVec Ideal S1024x256 .bf16) (r : Fin 1024) (d : Fin 256) :
    matmul D2 none p v (constant (F := Ideal) S1024x256 .f32 0x00000000#32) (ix2 r d)
      = ∑ c : Fin 1024, p (ix2 r c) * v (ix2 c d) := by
  simp only [matmul]
  rw [Ideal.matmul_constant_zero_apply, ← Equiv.sum_comp (contrEquiv1 D2 1024 rfl rfl).symm]
  refine Finset.sum_congr rfl fun c _ => ?_
  have hk := contrEquiv1_symm_val D2 1024 rfl rfl c
  have el : D2.lhsIdx (ix2 r d) ((contrEquiv1 D2 1024 rfl rfl).symm c) = ix2 r c := funext fun a => Fin.ext (by
    match a with
    | ⟨0, _⟩ => exact d2_lhs0 _ _
    | ⟨1, _⟩ => exact (d2_lhs1 _ _).trans hk)
  have er : D2.rhsIdx (ix2 r d) ((contrEquiv1 D2 1024 rfl rfl).symm c) = ix2 c d := funext fun a => Fin.ext (by
    match a with
    | ⟨0, _⟩ => exact (d2_rhs0 _ _).trans hk
    | ⟨1, _⟩ => exact d2_rhs1 _ _)
  rw [el, er]

/-- The source index over row `r` with column `c` inserted is `(r, c)`. -/
theorem lift_row (r c : Fin 1024) : reduces_S1024x1024_S1024.lift (ix1 r) c = ix2 r c :=
  funext fun a => Fin.ext (by
    match a with
    | ⟨0, _⟩ => rfl
    | ⟨1, _⟩ => rfl)

/-! ## The payloads at an index -/

/-- The initial running maximum is -∞. -/
theorem pay1_apply (r : Fin 1024) : k0_pay1 (F := Ideal) (ix2 r (0 : Fin 1)) = (⊥ : EReal) := by
  unfold k0_pay1
  rw [shapeCast_self]
  rfl

/-- The initial running sum is 0. -/
theorem pay2_apply (r : Fin 1024) : k0_pay2 (F := Ideal) (ix2 r (0 : Fin 1)) = (0 : EReal) := by
  unfold k0_pay2
  rw [shapeCast_self]
  exact Ideal.ofBits_zero_f32

/-- The initial weighted sum is 0. -/
theorem pay3_apply (r : Fin 1024) (d : Fin 256) : k0_pay3 (F := Ideal) (ix2 r d) = (0 : EReal) := by
  unfold k0_pay3
  rw [shapeCast_self]
  exact Ideal.ofBits_zero_f32

/-- The value selected where a keep bit is off is 0. -/
theorem pay13_apply (r c : Fin 1024) : k0_pay13 (F := Ideal) (ix2 r c) = (0 : EReal) := by
  unfold k0_pay13
  exact Ideal.ofBits_zero_f32

/-- A cast to the same shape changes nothing. -/
theorem pay5_eq (x : FVec Ideal S1024x1 .f32) : k0_pay5 (F := Ideal) x = x := by
  unfold k0_pay5
  exact shapeCast_self _ _

/-- The keep bit at `(r, c)` is on exactly when the mask word there is not zero. -/
theorem pay12_apply (msk : IVec S1024x1024 32) (r c : Fin 1024) :
    k0_pay12 (F := Ideal) msk (ix2 r c) = 1#1 ↔ msk (ix2 r c) ≠ 0#32 := by
  unfold k0_pay12
  exact cmpi_ne_zero _

/-- The final value: the weighted sum times 2 over the running sum. -/
theorem pay6_apply (acc : FVec Ideal S1024x256 .f32) (l : FVec Ideal S1024x1 .f32) (r : Fin 1024) (d : Fin 256) :
    k0_pay6 (F := Ideal) acc l (ix2 r d) = Ideal.div (acc (ix2 r d) * ((2 : ℝ) : EReal)) (l (ix2 r (0 : Fin 1))) := by
  unfold k0_pay6
  rw [divf_apply, mulf_apply, broadcast_apply, broadcastTo_a1_ab_apply]
  show Ideal.div (acc (ix2 r d) * Ideal.ofBits .f32 0x40000000#32) _ = _
  rw [two_eq]

/-- The masked, scaled scores of the tile with key tile `kb` and query tile `qb`, at row `r` and column `c`. -/
theorem pay7_ofNat (kb qb : Fin 8) (q k : FVec Ideal S1024x256 .bf16) (r c : Fin 1024) :
    k0_pay7 (F := Ideal) (BitVec.ofNat 32 kb.val) (BitVec.ofNat 32 qb.val) q k (ix2 r c)
      = if kb.val * 1024 + c.val ≤ qb.val * 1024 + r.val
          then (∑ d : Fin 256, q (ix2 r d) * k (ix2 c d)) * ((1 / 16 : ℝ) : EReal) else ⊥ := by
  have h0 : k0_pay7 (F := Ideal) (BitVec.ofNat 32 kb.val) (BitVec.ofNat 32 qb.val) q k (ix2 r c)
      = Scalar.select
          (IntOp.cmpi .sge
            (IntOp.addi (Scalar.muli (BitVec.ofNat 32 qb.val) 1024#32) (iota .tc S1024x1024 32 [0] iota_S1024x1024_d0_w32 (ix2 r c)))
            (IntOp.addi (Scalar.muli (BitVec.ofNat 32 kb.val) 1024#32) (iota .tc S1024x1024 32 [1] iota_S1024x1024_d1_w32 (ix2 r c))))
          (matmul D1 none (shapeCast S1024x256 q shapeCasts_S1024x256_S1024x256) (shapeCast S1024x256 k shapeCasts_S1024x256_S1024x256)
              (constant (F := Ideal) S1024x1024 .f32 0x00000000#32) (ix2 r c) * Ideal.ofBits .f32 0x3D800000#32)
          (⊥ : EReal) := rfl
  rw [h0, iota_single_apply, iota_single_apply, muli_1024, muli_1024, addi_ofNat, addi_ofNat, shapeCast_self, shapeCast_self,
    qk_apply, sixteenth_eq]
  exact select_sge _ _
    (by have := qb.isLt; have := r.isLt; show qb.val * 1024 + r.val < 2 ^ 31; omega)
    (by have := kb.isLt; have := c.isLt; show kb.val * 1024 + c.val < 2 ^ 31; omega) _ _

/-- The same over words known to be tile numbers. -/
theorem pay7_apply (arg1 v1 : BitVec 32) (kb qb : Fin 8) (harg : arg1 = BitVec.ofNat 32 kb.val) (hv : v1 = BitVec.ofNat 32 qb.val)
    (q k : FVec Ideal S1024x256 .bf16) (r c : Fin 1024) :
    k0_pay7 (F := Ideal) arg1 v1 q k (ix2 r c)
      = if kb.val * 1024 + c.val ≤ qb.val * 1024 + r.val
          then (∑ d : Fin 256, q (ix2 r d) * k (ix2 c d)) * ((1 / 16 : ℝ) : EReal) else ⊥ := by
  subst harg hv
  exact pay7_ofNat kb qb q k r c

/-- The new weighted sum at `(r, d)`: the factor times the old one plus the kept weights times V's rows. -/
theorem pay4_apply (a : FVec Ideal S1024x1 .f32) (p : FVec Ideal S1024x1024 .f32) (kp : IVec S1024x1024 1)
    (z : FVec Ideal S1024x1024 .f32) (accprev : FVec Ideal S1024x256 .f32) (v : FVec Ideal S1024x256 .bf16)
    (r : Fin 1024) (d : Fin 256) :
    k0_pay4 (F := Ideal) a p kp z accprev v (ix2 r d)
      = a (ix2 r (0 : Fin 1)) * accprev (ix2 r d)
        + ∑ c : Fin 1024, (if kp (ix2 r c) = 1#1 then p (ix2 r c) else z (ix2 r c)) * v (ix2 c d) := by
  unfold k0_pay4
  rw [shapeCast_self, addf_apply, mulf_apply, broadcastTo_a1_ab_apply, shapeCast_self]
  refine congrArg (a (ix2 r (0 : Fin 1)) * accprev (ix2 r d) + ·) ?_
  refine (pv_apply _ _ r d).trans ?_
  exact Finset.sum_congr rfl fun c _ => rfl

section Tile
variable (arg1 v1 : BitVec 32) (q k : FVec Ideal S1024x256 .bf16) (mprev lprev : FVec Ideal S1024x1 .f32)

/-- The new running maximum at row `r`: the old one against the maximum of the tile's row of scores. -/
theorem pay8_apply (r : Fin 1024) :
    k0_pay8 (F := Ideal) arg1 v1 q k mprev (ix2 r (0 : Fin 1))
      = max (mprev (ix2 r (0 : Fin 1))) ((Finset.univ : Finset (Fin 1024)).fold max (⊥ : EReal)
          fun c => k0_pay7 (F := Ideal) arg1 v1 q k (ix2 r c)) := by
  unfold k0_pay8
  rw [maximumf_apply]
  refine congrArg (max (mprev (ix2 r (0 : Fin 1)))) ?_
  refine (shapeCast_a_a1_apply _ _ r 0).trans ?_
  refine (Ideal.multiReduction_maximumf_single _ _ _ _ _ (ix1 r)).trans ?_
  show (Finset.univ : Finset (Fin 1024)).fold max (Ideal.ofBits .f32 0xFF800000#32)
      (fun c : Fin 1024 => k0_pay7 (F := Ideal) arg1 v1 q k (reduces_S1024x1024_S1024.lift (ix1 r) c)) = _
  rw [neg_inf_eq]
  simp only [lift_row]

/-- The rescaling factor at row `r`. -/
theorem pay9_apply (r : Fin 1024) :
    k0_pay9 (F := Ideal) arg1 v1 q k mprev (ix2 r (0 : Fin 1))
      = Ideal.exp (mprev (ix2 r (0 : Fin 1)) - k0_pay8 (F := Ideal) arg1 v1 q k mprev (ix2 r (0 : Fin 1))) := by
  unfold k0_pay9
  rfl

/-- The exponentials at `(r, c)`. -/
theorem pay10_apply (r c : Fin 1024) :
    k0_pay10 (F := Ideal) arg1 v1 q k mprev (ix2 r c)
      = Ideal.exp (k0_pay7 (F := Ideal) arg1 v1 q k (ix2 r c) - k0_pay8 (F := Ideal) arg1 v1 q k mprev (ix2 r (0 : Fin 1))) := by
  unfold k0_pay10
  show Ideal.exp (k0_pay7 (F := Ideal) arg1 v1 q k (ix2 r c)
    - broadcastTo S1024x1024 (k0_pay8 (F := Ideal) arg1 v1 q k mprev) broadcasts_S1024x1_S1024x1024 (ix2 r c)) = _
  rw [broadcastTo_a1_ab_apply]

/-- The new running sum at row `r`. -/
theorem pay11_apply (r : Fin 1024) :
    k0_pay11 (F := Ideal) arg1 v1 q k mprev lprev (ix2 r (0 : Fin 1))
      = k0_pay9 (F := Ideal) arg1 v1 q k mprev (ix2 r (0 : Fin 1)) * lprev (ix2 r (0 : Fin 1))
        + ∑ c : Fin 1024, k0_pay10 (F := Ideal) arg1 v1 q k mprev (ix2 r c) := by
  unfold k0_pay11
  rw [shapeCast_self, addf_apply, mulf_apply]
  refine congrArg (k0_pay9 (F := Ideal) arg1 v1 q k mprev (ix2 r (0 : Fin 1)) * lprev (ix2 r (0 : Fin 1)) + ·) ?_
  refine (shapeCast_a_a1_apply _ _ r 0).trans ?_
  refine (Ideal.multiReduction_add_single _ _ _ _ _ (ix1 r)).trans ?_
  show ∑ c : Fin 1024, k0_pay10 (F := Ideal) arg1 v1 q k mprev (reduces_S1024x1024_S1024.lift (ix1 r) c) = _
  simp only [lift_row]

end Tile

/-- A choice on the keep bit is the choice on "the mask word is not zero". -/
theorem ite_pay12 (msk : IVec S1024x1024 32) (r c : Fin 1024) {α : Type} (A B : α) :
    (if k0_pay12 (F := Ideal) msk (ix2 r c) = 1#1 then A else B)
      = (if decide (msk (ix2 r c) ≠ 0#32) = true then A else B) := by
  by_cases h : msk (ix2 r c) = 0#32
  · have h1 : ¬ k0_pay12 (F := Ideal) msk (ix2 r c) = 1#1 := fun h2 => (pay12_apply msk r c).mp h2 h
    rw [if_neg h1, if_neg (by simp [h])]
  · have h1 := (pay12_apply msk r c).mpr h
    rw [if_pos h1, if_pos (by simp [h])]

/-! ## One tile at a row is one step of the specification -/

/-- With the carried values of row `r` equal to a state `s`, the three values the body stores for the row are the
    state after one `step` over the tile's scores, keep bits and V rows. -/
theorem step_row (arg1 v1 : BitVec 32) (q k v : FVec Ideal S1024x256 .bf16) (mprev lprev : FVec Ideal S1024x1 .f32)
    (accprev : FVec Ideal S1024x256 .f32) (msk : IVec S1024x1024 32) (r : Fin 1024) (s : Cert.Attn.St)
    (hm : mprev (ix2 r (0 : Fin 1)) = s.m) (hl : lprev (ix2 r (0 : Fin 1)) = s.l)
    (hacc : ∀ d : Fin 256, accprev (ix2 r d) = s.acc d) :
    k0_pay5 (F := Ideal) (k0_pay8 (F := Ideal) arg1 v1 q k mprev) (ix2 r (0 : Fin 1))
        = (Cert.Attn.step s (fun c => k0_pay7 (F := Ideal) arg1 v1 q k (ix2 r c))
            (fun c => decide (msk (ix2 r c) ≠ 0#32)) (fun c d => v (ix2 c d))).m
    ∧ k0_pay11 (F := Ideal) arg1 v1 q k mprev lprev (ix2 r (0 : Fin 1))
        = (Cert.Attn.step s (fun c => k0_pay7 (F := Ideal) arg1 v1 q k (ix2 r c))
            (fun c => decide (msk (ix2 r c) ≠ 0#32)) (fun c d => v (ix2 c d))).l
    ∧ ∀ d : Fin 256,
        k0_pay4 (F := Ideal) (k0_pay9 (F := Ideal) arg1 v1 q k mprev) (k0_pay10 (F := Ideal) arg1 v1 q k mprev)
            (k0_pay12 (F := Ideal) msk) (k0_pay13 (F := Ideal)) accprev v (ix2 r d)
          = (Cert.Attn.step s (fun c => k0_pay7 (F := Ideal) arg1 v1 q k (ix2 r c))
              (fun c => decide (msk (ix2 r c) ≠ 0#32)) (fun c d => v (ix2 c d))).acc d := by
  have h8 : k0_pay8 (F := Ideal) arg1 v1 q k mprev (ix2 r (0 : Fin 1))
      = max s.m ((Finset.univ : Finset (Fin 1024)).fold max (⊥ : EReal)
          fun c => k0_pay7 (F := Ideal) arg1 v1 q k (ix2 r c)) := by
    rw [pay8_apply, hm]
  refine ⟨?_, ?_, ?_⟩
  · rw [pay5_eq, h8]
    rfl
  · rw [pay11_apply, pay9_apply, hm, hl]
    simp only [pay10_apply, h8]
    rfl
  · intro d
    rw [pay4_apply, pay9_apply, hm, hacc d]
    simp only [pay10_apply, pay13_apply, ite_pay12, h8]
    rfl

end Cert.KernelIdeal.PayIdeal

end
-- ==== Proof.FlashMath.lean ====
/-
  The blockwise (online) softmax equals the plain row softmax.

  For a fixed row i every logit is a real number or -∞, never +∞. Write w x = exp x for the weight of a
  logit x (so w (-∞) = 0). For a real number M, exp (x - M) = w x / exp M. Hence a state whose running
  maximum is the real number M, whose running sum is l and whose running weighted sum is acc carries
  the unnormalised sums l · exp M = ∑ w (logit) and acc · exp M = ∑ keep · w (logit) · V over the
  columns visited so far, whatever the real number M is; one tile step preserves this, because the
  factor exp (m - m') moves the old sums from the old maximum to the new one. The tiles after the
  diagonal tile hold only -∞ and contribute nothing. The reference's row sums are the same
  unnormalised sums divided by exp (rowMax), and the quotient acc · 2 / l does not depend on the
  normalisation.
-/
import proofs.«101383_j27444841022105_2_alg».proof.Proof.Spec

noncomputable section

namespace Cert.Attn

open Idealize.ShloMosaic

/-! ### Weights -/

/-- The weight of a logit: its exponential as a real number (0 at -∞). -/
def wt (x : EReal) : ℝ := (Ideal.exp x).toReal

theorem wt_bot : wt ⊥ = 0 := by
  simp [wt]

theorem wt_coe (a : ℝ) : wt (a : EReal) = Real.exp a := by
  simp [wt]

theorem wt_nonneg (x : EReal) : 0 ≤ wt x := by
  induction x using EReal.rec with
  | bot => simp [wt]
  | coe a => rw [wt_coe]; exact (Real.exp_pos a).le
  | top => simp [wt]

/-- Subtracting a real maximum divides the weight by its exponential. -/
theorem exp_sub_coe (x : EReal) (hx : x ≠ ⊤) (M : ℝ) :
    Ideal.exp (x - (M : EReal)) = ((wt x / Real.exp M : ℝ) : EReal) := by
  induction x using EReal.rec with
  | bot => rw [EReal.bot_sub, Ideal.exp_bot, wt_bot, zero_div, EReal.coe_zero]
  | coe a => rw [← EReal.coe_sub, Ideal.exp_coe, wt_coe, Real.exp_sub]
  | top => exact absurd rfl hx

/-- A finite sum of real numbers, read in the extended reals. -/
theorem coe_sum {ι : Type*} (s : Finset ι) (f : ι → ℝ) :
    ∑ c ∈ s, ((f c : ℝ) : EReal) = ((∑ c ∈ s, f c : ℝ) : EReal) := by
  classical
  induction s using Finset.induction_on with
  | empty => simp
  | insert a s ha ih => rw [Finset.sum_insert ha, Finset.sum_insert ha, ih, EReal.coe_add]

/-- The maximum of finitely many values below +∞, one of them above -∞, is a real number; so is its
    maximum with a further value below +∞. -/
theorem max_fold_real {n : Nat} (m : EReal) (hm : m ≠ ⊤) (x : Fin n → EReal) (hx : ∀ c, x c ≠ ⊤)
    (c0 : Fin n) (h0 : x c0 ≠ ⊥) :
    ∃ M : ℝ, max m ((Finset.univ : Finset (Fin n)).fold max ⊥ x) = (M : EReal) := by
  have hlt : max m ((Finset.univ : Finset (Fin n)).fold max ⊥ x) < ⊤ := by
    rw [max_lt_iff, Finset.fold_max_lt]
    exact ⟨lt_top_iff_ne_top.mpr hm, bot_lt_top, fun c _ => lt_top_iff_ne_top.mpr (hx c)⟩
  have hgt : ⊥ < max m ((Finset.univ : Finset (Fin n)).fold max ⊥ x) := by
    rw [lt_max_iff, Finset.lt_fold_max]
    exact Or.inr (Or.inr ⟨c0, Finset.mem_univ _, bot_lt_iff_ne_bot.mpr (h0)⟩)
  exact ⟨_, (EReal.coe_toReal hlt.ne hgt.ne').symm⟩

theorem fold_real {n : Nat} (x : Fin n → EReal) (hx : ∀ c, x c ≠ ⊤) (c0 : Fin n) (h0 : x c0 ≠ ⊥) :
    ∃ M : ℝ, (Finset.univ : Finset (Fin n)).fold max ⊥ x = (M : EReal) := by
  obtain ⟨M, hM⟩ := max_fold_real ⊥ bot_ne_top x hx c0 h0
  exact ⟨M, by rwa [max_eq_right bot_le] at hM⟩

/-! ### One tile step -/

/-- What a state carries: its maximum is below +∞, its sums are real numbers, and multiplied by the
    weight of the maximum they are the unnormalised sums W and A. -/
structure Inv (s : St) (W : ℝ) (A : Fin 256 → ℝ) : Prop where
  m_ne_top : s.m ≠ ⊤
  l : ∃ l : ℝ, s.l = (l : EReal) ∧ l * wt s.m = W
  acc : ∀ d, ∃ a : ℝ, s.acc d = (a : EReal) ∧ a * wt s.m = A d

theorem init_inv : Inv init 0 (fun _ => 0) where
  m_ne_top := bot_ne_top
  l := ⟨0, rfl, by simp⟩
  acc := fun _ => ⟨0, rfl, by simp⟩

theorem step_m (s : St) (x : Fin 1024 → EReal) (kp : Fin 1024 → Bool) (v : Fin 1024 → Fin 256 → EReal) :
    (step s x kp v).m = max s.m ((Finset.univ : Finset (Fin 1024)).fold max ⊥ x) := rfl

theorem step_l (s : St) (x : Fin 1024 → EReal) (kp : Fin 1024 → Bool) (v : Fin 1024 → Fin 256 → EReal) :
    (step s x kp v).l = Ideal.exp (s.m - (step s x kp v).m) * s.l
      + ∑ c : Fin 1024, Ideal.exp (x c - (step s x kp v).m) := rfl

theorem step_acc (s : St) (x : Fin 1024 → EReal) (kp : Fin 1024 → Bool) (v : Fin 1024 → Fin 256 → EReal)
    (d : Fin 256) :
    (step s x kp v).acc d = Ideal.exp (s.m - (step s x kp v).m) * s.acc d
      + ∑ c : Fin 1024, (if kp c then Ideal.exp (x c - (step s x kp v).m) else 0) * v c d := rfl

/-- A tile of logits below +∞, one of them real, and real rows of V: the step's maximum is a real
    number and the unnormalised sums grow by the tile's weights. -/
theorem step_inv (s : St) (W : ℝ) (A : Fin 256 → ℝ) (hs : Inv s W A)
    (x : Fin 1024 → EReal) (kp : Fin 1024 → Bool) (v : Fin 1024 → Fin 256 → EReal)
    (vr : Fin 1024 → Fin 256 → ℝ) (hv : ∀ c d, v c d = (vr c d : EReal))
    (hx : ∀ c, x c ≠ ⊤) (c0 : Fin 1024) (h0 : x c0 ≠ ⊥) :
    Inv (step s x kp v) (W + ∑ c : Fin 1024, wt (x c))
        (fun d => A d + ∑ c : Fin 1024, (if kp c then wt (x c) else 0) * vr c d)
      ∧ (step s x kp v).m ≠ ⊥ := by
  obtain ⟨M, hM⟩ := max_fold_real s.m hs.m_ne_top x hx c0 h0
  rw [← step_m s x kp v] at hM
  have hE : Real.exp M ≠ 0 := (Real.exp_pos M).ne'
  refine ⟨⟨?_, ?_, ?_⟩, ?_⟩
  · rw [hM]; exact EReal.coe_ne_top M
  · obtain ⟨l, hl, hlW⟩ := hs.l
    refine ⟨wt s.m / Real.exp M * l + ∑ c : Fin 1024, wt (x c) / Real.exp M, ?_, ?_⟩
    · rw [step_l, hM, exp_sub_coe s.m hs.m_ne_top M, hl, EReal.coe_add, EReal.coe_mul, ← coe_sum]
      congr 1
      exact Finset.sum_congr rfl (fun c _ => exp_sub_coe (x c) (hx c) M)
    · rw [hM, wt_coe, add_mul, Finset.sum_mul, ← hlW]
      congr 1
      · field_simp
      · exact Finset.sum_congr rfl (fun c _ => div_mul_cancel₀ _ hE)
  · intro d
    obtain ⟨a, ha, haA⟩ := hs.acc d
    refine ⟨wt s.m / Real.exp M * a
        + ∑ c : Fin 1024, (if kp c then wt (x c) / Real.exp M else 0) * vr c d, ?_, ?_⟩
    · rw [step_acc, hM, exp_sub_coe s.m hs.m_ne_top M, ha, EReal.coe_add, EReal.coe_mul, ← coe_sum]
      congr 1
      refine Finset.sum_congr rfl (fun c _ => ?_)
      rw [hv c d, exp_sub_coe (x c) (hx c) M, EReal.coe_mul]
      cases kp c <;> simp
    · show _ * wt (step s x kp v).m = _
      rw [hM, wt_coe, add_mul, Finset.sum_mul, ← haA]
      congr 1
      · field_simp
      · refine Finset.sum_congr rfl (fun c _ => ?_)
        cases kp c
        · simp
        · simp only [if_true]; field_simp
  · rw [hM]; exact EReal.coe_ne_bot M

/-! ### The logits of a row -/

theorem score_real (Q K : Mat 8192 256) (hQ : Finite Q) (hK : Finite K) (i j : Fin 8192) :
    ∃ s : ℝ, score Q K i j = (s : EReal) := by
  choose q hq using hQ
  choose k hk using hK
  refine ⟨∑ d : Fin 256, q i d * k j d, ?_⟩
  unfold score
  rw [← coe_sum]
  exact Finset.sum_congr rfl (fun d _ => by rw [hq, hk, EReal.coe_mul])

/-- On and below the diagonal a logit is a real number. -/
theorem logit_le (Q K : Mat 8192 256) (hQ : Finite Q) (hK : Finite K) (i j : Fin 8192)
    (h : j.val ≤ i.val) : ∃ a : ℝ, logit Q K i j = (a : EReal) := by
  obtain ⟨s, hs⟩ := score_real Q K hQ hK i j
  exact ⟨s * (1 / 16), by rw [logit, if_pos h, hs, EReal.coe_mul]⟩

/-- Above the diagonal a logit is -∞. -/
theorem logit_gt (Q K : Mat 8192 256) (i j : Fin 8192) (h : i.val < j.val) : logit Q K i j = ⊥ := by
  rw [logit, if_neg (by omega)]

theorem logit_ne_top (Q K : Mat 8192 256) (hQ : Finite Q) (hK : Finite K) (i j : Fin 8192) :
    logit Q K i j ≠ ⊤ := by
  by_cases h : j.val ≤ i.val
  · obtain ⟨a, ha⟩ := logit_le Q K hQ hK i j h
    rw [ha]; exact EReal.coe_ne_top a
  · rw [logit_gt Q K i j (by omega)]; exact bot_ne_top

theorem logit_ne_bot (Q K : Mat 8192 256) (hQ : Finite Q) (hK : Finite K) (i j : Fin 8192)
    (h : j.val ≤ i.val) : logit Q K i j ≠ ⊥ := by
  obtain ⟨a, ha⟩ := logit_le Q K hQ hK i j h
  rw [ha]; exact EReal.coe_ne_bot a

/-! ### Sums over the columns of the first n tiles -/

theorem gidx_val (b : Fin 8) (c : Fin 1024) : (gidx b c).val = b.val * 1024 + c.val := rfl

theorem gidx_mk_val (n : Nat) (h : n < 8) (c : Fin 1024) :
    (gidx ⟨n, h⟩ c).val = n * 1024 + c.val := rfl

/-- The columns below (n+1)·1024 are the columns below n·1024 together with tile n. -/
theorem sum_lt_succ (f : Fin 8192 → ℝ) (n : Nat) (h : n < 8) :
    ∑ j ∈ (Finset.univ : Finset (Fin 8192)).filter (fun j => j.val < (n + 1) * 1024), f j
      = ∑ j ∈ (Finset.univ : Finset (Fin 8192)).filter (fun j => j.val < n * 1024), f j
        + ∑ c : Fin 1024, f (gidx ⟨n, h⟩ c) := by
  have hinj : ∀ c₁ ∈ (Finset.univ : Finset (Fin 1024)), ∀ c₂ ∈ (Finset.univ : Finset (Fin 1024)),
      gidx ⟨n, h⟩ c₁ = gidx ⟨n, h⟩ c₂ → c₁ = c₂ := by
    intro c₁ _ c₂ _ hc
    have h1 := congrArg Fin.val hc
    rw [gidx_mk_val, gidx_mk_val] at h1
    exact Fin.ext (by omega)
  rw [← Finset.sum_image hinj, ← Finset.sum_union]
  · refine Finset.sum_congr ?_ (fun _ _ => rfl)
    ext j
    simp only [Finset.mem_filter, Finset.mem_univ, true_and, Finset.mem_union, Finset.mem_image]
    constructor
    · intro hj
      by_cases hlt : j.val < n * 1024
      · exact Or.inl hlt
      · refine Or.inr ⟨⟨j.val - n * 1024, by omega⟩, ?_⟩
        apply Fin.ext
        rw [gidx_mk_val]
        show n * 1024 + (j.val - n * 1024) = j.val
        omega
    · rintro (hlt | ⟨c, hc⟩)
      · omega
      · have h1 := congrArg Fin.val hc
        rw [gidx_mk_val] at h1
        have h2 := c.isLt
        omega
  · rw [Finset.disjoint_left]
    intro j hj hj'
    simp only [Finset.mem_filter, Finset.mem_univ, true_and] at hj
    simp only [Finset.mem_image, Finset.mem_univ, true_and] at hj'
    obtain ⟨c, hc⟩ := hj'
    have h1 := congrArg Fin.val hc
    rw [gidx_mk_val] at h1
    omega

/-- The unnormalised sum of the weights over the first n tiles of row i. -/
def Wn (Q K : Mat 8192 256) (i : Fin 8192) (n : Nat) : ℝ :=
  ∑ j ∈ (Finset.univ : Finset (Fin 8192)).filter (fun j => j.val < n * 1024), wt (logit Q K i j)

/-- The unnormalised weighted sum of V's rows over the first n tiles of row i. -/
def An (Q K : Mat 8192 256) (keep : Fin 8192 → Fin 8192 → Bool) (vr : Fin 8192 → Fin 256 → ℝ)
    (i : Fin 8192) (n : Nat) (d : Fin 256) : ℝ :=
  ∑ j ∈ (Finset.univ : Finset (Fin 8192)).filter (fun j => j.val < n * 1024),
    (if keep i j then wt (logit Q K i j) else 0) * vr j d

theorem tiles_succ (Q K V : Mat 8192 256) (keep : Fin 8192 → Fin 8192 → Bool) (qb : Fin 8)
    (r : Fin 1024) (n : Nat) (h : n + 1 ≤ 8) :
    tiles Q K V keep qb r (n + 1) h = step (tiles Q K V keep qb r n (Nat.le_of_succ_le h))
      (fun c => logit Q K (gidx qb r) (gidx ⟨n, h⟩ c))
      (fun c => keep (gidx qb r) (gidx ⟨n, h⟩ c))
      (fun c => V (gidx ⟨n, h⟩ c)) := rfl

/-- After n ≤ qb+1 tiles the state carries the unnormalised sums over those tiles, and from the first
    tile on its maximum is a real number (column 0 of every such tile is on or below the diagonal). -/
theorem tiles_inv (Q K V : Mat 8192 256) (keep : Fin 8192 → Fin 8192 → Bool)
    (hQ : Finite Q) (hK : Finite K) (vr : Fin 8192 → Fin 256 → ℝ)
    (hV : ∀ j d, V j d = (vr j d : EReal)) (qb : Fin 8) (r : Fin 1024) :
    ∀ (n : Nat) (h : n ≤ 8), n ≤ qb.val + 1 →
      Inv (tiles Q K V keep qb r n h) (Wn Q K (gidx qb r) n) (An Q K keep vr (gidx qb r) n)
        ∧ (0 < n → (tiles Q K V keep qb r n h).m ≠ ⊥) := by
  intro n
  induction n with
  | zero =>
    intro h _
    refine ⟨?_, fun h0 => absurd h0 (lt_irrefl 0)⟩
    have hW : Wn Q K (gidx qb r) 0 = 0 := by simp [Wn]
    have hA : An Q K keep vr (gidx qb r) 0 = fun _ => 0 := by funext d; simp [An]
    rw [hW, hA]
    exact init_inv
  | succ n ih =>
    intro h hn
    obtain ⟨hI, _⟩ := ih (Nat.le_of_succ_le h) (by omega)
    have hstep := step_inv _ _ _ hI
      (fun c => logit Q K (gidx qb r) (gidx ⟨n, h⟩ c))
      (fun c => keep (gidx qb r) (gidx ⟨n, h⟩ c))
      (fun c => V (gidx ⟨n, h⟩ c))
      (fun c => vr (gidx ⟨n, h⟩ c))
      (fun c d => hV _ d)
      (fun c => logit_ne_top Q K hQ hK _ _)
      ⟨0, by norm_num⟩
      (logit_ne_bot Q K hQ hK _ _ (by rw [gidx_mk_val, gidx_val]; show n * 1024 + 0 ≤ _; omega))
    have hW : Wn Q K (gidx qb r) (n + 1) = Wn Q K (gidx qb r) n
        + ∑ c : Fin 1024, wt (logit Q K (gidx qb r) (gidx ⟨n, h⟩ c)) :=
      sum_lt_succ (fun j => wt (logit Q K (gidx qb r) j)) n h
    have hA : An Q K keep vr (gidx qb r) (n + 1) = fun d => An Q K keep vr (gidx qb r) n d
        + ∑ c : Fin 1024, (if keep (gidx qb r) (gidx ⟨n, h⟩ c)
            then wt (logit Q K (gidx qb r) (gidx ⟨n, h⟩ c)) else 0) * vr (gidx ⟨n, h⟩ c) d := by
      funext d
      exact sum_lt_succ (fun j => (if keep (gidx qb r) j then wt (logit Q K (gidx qb r) j) else 0)
        * vr j d) n h
    rw [hW, hA, tiles_succ]
    exact ⟨hstep.1, fun _ => hstep.2⟩

/-! ### The whole row -/

/-- The tiles after the diagonal tile are wholly above the diagonal: the first qb+1 tiles carry the
    whole row's weight. -/
theorem Wn_full (Q K : Mat 8192 256) (qb : Fin 8) (r : Fin 1024) :
    Wn Q K (gidx qb r) (qb.val + 1) = ∑ j : Fin 8192, wt (logit Q K (gidx qb r) j) := by
  unfold Wn
  apply Finset.sum_subset (Finset.filter_subset _ _)
  intro j _ hj
  simp only [Finset.mem_filter, Finset.mem_univ, true_and, not_lt] at hj
  have h2 := r.isLt
  rw [logit_gt Q K _ j (by rw [gidx_val]; omega), wt_bot]

theorem An_full (Q K : Mat 8192 256) (keep : Fin 8192 → Fin 8192 → Bool)
    (vr : Fin 8192 → Fin 256 → ℝ) (qb : Fin 8) (r : Fin 1024) (d : Fin 256) :
    An Q K keep vr (gidx qb r) (qb.val + 1) d
      = ∑ j : Fin 8192, (if keep (gidx qb r) j then wt (logit Q K (gidx qb r) j) else 0) * vr j d := by
  unfold An
  apply Finset.sum_subset (Finset.filter_subset _ _)
  intro j _ hj
  simp only [Finset.mem_filter, Finset.mem_univ, true_and, not_lt] at hj
  have h2 := r.isLt
  rw [logit_gt Q K _ j (by rw [gidx_val]; omega), wt_bot, ite_self, zero_mul]

/-- The row's total weight is positive: column 0 is never masked. -/
theorem W_pos (Q K : Mat 8192 256) (hQ : Finite Q) (hK : Finite K) (i : Fin 8192) :
    0 < ∑ j : Fin 8192, wt (logit Q K i j) := by
  refine Finset.sum_pos' (fun j _ => wt_nonneg _) ⟨⟨0, by norm_num⟩, Finset.mem_univ _, ?_⟩
  obtain ⟨a, ha⟩ := logit_le Q K hQ hK i ⟨0, by norm_num⟩ (Nat.zero_le _)
  rw [ha, wt_coe]
  exact Real.exp_pos a

/-- The blockwise result from the unnormalised sums: the normalisation cancels in acc · 2 / l. -/
theorem finish_real (s : St) (W : ℝ) (A : Fin 256 → ℝ) (hs : Inv s W A) (hm : s.m ≠ ⊥) (hW : 0 < W)
    (d : Fin 256) : finish s d = ((A d * 2 / W : ℝ) : EReal) := by
  obtain ⟨M, hM⟩ : ∃ M : ℝ, s.m = (M : EReal) := ⟨_, (EReal.coe_toReal hs.m_ne_top hm).symm⟩
  obtain ⟨l, hl, hlW⟩ := hs.l
  obtain ⟨a, ha, haA⟩ := hs.acc d
  rw [hM, wt_coe] at hlW haA
  have hE0 : Real.exp M ≠ 0 := (Real.exp_pos M).ne'
  have hl0 : l ≠ 0 := by
    rintro rfl
    rw [zero_mul] at hlW
    exact hW.ne hlW
  rw [finish, ha, hl, ← EReal.coe_mul, Ideal.div_coe hl0, ← EReal.coe_mul]
  congr 1
  rw [← haA, ← hlW]
  field_simp

/-- The reference's result from the unnormalised sums: the row maximum is a real number R, every
    exponential is weight / exp R, the row sum is (total weight) / exp R, and exp R cancels. -/
theorem out_real (Q K V : Mat 8192 256) (keep : Fin 8192 → Fin 8192 → Bool)
    (hQ : Finite Q) (hK : Finite K) (vr : Fin 8192 → Fin 256 → ℝ)
    (hV : ∀ j d, V j d = (vr j d : EReal)) (i : Fin 8192) (d : Fin 256) :
    out Q K V keep i d
      = (((∑ j : Fin 8192, (if keep i j then wt (logit Q K i j) else 0) * vr j d) * 2
          / (∑ j : Fin 8192, wt (logit Q K i j)) : ℝ) : EReal) := by
  obtain ⟨R, hR⟩ : ∃ R : ℝ, rowMax Q K i = (R : EReal) :=
    fold_real (logit Q K i) (logit_ne_top Q K hQ hK i) ⟨0, by norm_num⟩
      (logit_ne_bot Q K hQ hK i _ (Nat.zero_le _))
  have hWpos := W_pos Q K hQ hK i
  have hW0 : (∑ j : Fin 8192, wt (logit Q K i j)) ≠ 0 := hWpos.ne'
  have hE0 : Real.exp R ≠ 0 := (Real.exp_pos R).ne'
  have hS : (∑ j : Fin 8192, wt (logit Q K i j)) / Real.exp R ≠ 0 := div_ne_zero hW0 hE0
  have hex : ∀ j, ex Q K i j = ((wt (logit Q K i j) / Real.exp R : ℝ) : EReal) := fun j => by
    rw [ex, hR, exp_sub_coe _ (logit_ne_top Q K hQ hK i j) R]
  have hsum : rowSum Q K i = (((∑ j : Fin 8192, wt (logit Q K i j)) / Real.exp R : ℝ) : EReal) := by
    rw [rowSum, Finset.sum_div, ← coe_sum]
    exact Finset.sum_congr rfl (fun j _ => hex j)
  have hterm : ∀ j, (if keep i j then Ideal.div (ex Q K i j) (rowSum Q K i) * ((2 : ℝ) : EReal) else 0)
        * V j d
      = (((if keep i j then wt (logit Q K i j) / Real.exp R
            * (1 / ((∑ j : Fin 8192, wt (logit Q K i j)) / Real.exp R)) * 2 else 0) * vr j d : ℝ) : EReal) := by
    intro j
    rw [hV, hex, hsum, Ideal.div_coe hS]
    cases keep i j
    · simp
    · simp only [if_true, EReal.coe_mul]
  rw [out, Finset.sum_congr rfl (fun j _ => hterm j), coe_sum]
  congr 1
  generalize (∑ j : Fin 8192, wt (logit Q K i j)) = Wt at hW0 ⊢
  rw [Finset.sum_mul, Finset.sum_div]
  refine Finset.sum_congr rfl (fun j _ => ?_)
  cases keep i j
  · simp
  · simp only [if_true]
    field_simp

/-- The blockwise softmax of a row equals the row softmax of the reference. -/
theorem flash_eq (Q K V : Mat 8192 256) (keep : Fin 8192 → Fin 8192 → Bool)
    (hQ : Finite Q) (hK : Finite K) (hV : Finite V)
    (qb : Fin 8) (r : Fin 1024) (d : Fin 256) :
    finish (tiles Q K V keep qb r (qb.val + 1) (by omega)) d
      = out Q K V keep (gidx qb r) d := by
  choose vr hvr using hV
  obtain ⟨hI, hm⟩ := tiles_inv Q K V keep hQ hK vr hvr qb r (qb.val + 1) (by omega) (le_refl _)
  rw [finish_real _ _ _ hI (hm (Nat.succ_pos _)) (by rw [Wn_full]; exact W_pos Q K hQ hK _) d,
    out_real Q K V keep hQ hK vr hvr, Wn_full, An_full]

end Cert.Attn

end
-- ==== Proof.ValueStep.lean ====
/-
  One row of a tile through the kernel's arithmetic is one step of the specification's blockwise softmax.

  The three carried arrays of a query tile qb (running maximum, running sum, running weighted sum) hold, at every
  row r, the specification's state `tiles … qb r n` after the first n key tiles. The reset values are the state
  after no tile; one pass of the body over key tile kb with the state after kb tiles gives the state after kb + 1
  tiles, because the body's masked scaled scores are the logits of row gidx qb r against the columns of tile kb, its
  keep bits the keep mask's and its value rows V's; and the final value, the weighted sum times 2 over the running
  sum after all qb + 1 tiles on or below the diagonal, is the row softmax of the reference.
-/
import proofs.«101383_j27444841022105_2_alg».proof.Proof.PayIdeal
import proofs.«101383_j27444841022105_2_alg».proof.Proof.FlashMath

noncomputable section

namespace Cert.KernelIdeal.Hand

open Idealize.ShloMosaic Idealize.ShloMosaic.ValueIdx Cert.KernelIdeal Cert.KernelIdeal.Gen Cert.KernelIdeal.PayIdeal
open Cert.Attn

variable (Q K Vv : Mat 8192 256) (keep : Fin 8192 → Fin 8192 → Bool)

/-- The three carried arrays hold, at every row, the state after the first n key tiles of query tile qb. -/
def RowInv (qb : Fin 8) (n : Nat) (hn : n ≤ 8) (mm ll : FVec Ideal S1024x1 .f32) (aa : FVec Ideal S1024x256 .f32) : Prop :=
  ∀ r : Fin 1024, mm (ix2 r (0 : Fin 1)) = (tiles Q K Vv keep qb r n hn).m
    ∧ ll (ix2 r (0 : Fin 1)) = (tiles Q K Vv keep qb r n hn).l
    ∧ ∀ d : Fin 256, aa (ix2 r d) = (tiles Q K Vv keep qb r n hn).acc d

/-- The number of tiles is all the invariant reads of its bound. -/
theorem RowInv.cast {qb : Fin 8} {n n' : Nat} {hn : n ≤ 8} (e : n = n') (hn' : n' ≤ 8) {mm ll : FVec Ideal S1024x1 .f32}
    {aa : FVec Ideal S1024x256 .f32} (h : RowInv Q K Vv keep qb n hn mm ll aa) : RowInv Q K Vv keep qb n' hn' mm ll aa := by
  subst e; exact h

/-- The reset values are the state before the first tile. -/
theorem rowInv_reset (qb : Fin 8) :
    RowInv Q K Vv keep qb 0 (Nat.zero_le _) (k0_pay1 (F := Ideal)) (k0_pay2 (F := Ideal)) (k0_pay3 (F := Ideal)) :=
  fun r => ⟨pay1_apply r, pay2_apply r, fun d => pay3_apply r d⟩

theorem step_congr (s : St) {x x' : Fin 1024 → EReal} {kp kp' : Fin 1024 → Bool} {v v' : Fin 1024 → Fin 256 → EReal}
    (hx : x = x') (hk : kp = kp') (hv : v = v') : step s x kp v = step s x' kp' v' := by
  subst hx hk hv; rfl

/-- One pass of the body over key tile kb: from the state after kb tiles to the state after kb + 1. -/
theorem rowInv_step (qb kb : Fin 8) (arg1 v1 : BitVec 32) (harg : arg1 = BitVec.ofNat 32 kb.val)
    (hv1 : v1 = BitVec.ofNat 32 qb.val) (q k v : FVec Ideal S1024x256 .bf16) (msk : IVec S1024x1024 32)
    (hq : ∀ (r : Fin 1024) (d : Fin 256), q (ix2 r d) = Q (gidx qb r) d)
    (hk : ∀ (cc : Fin 1024) (d : Fin 256), k (ix2 cc d) = K (gidx kb cc) d)
    (hv : ∀ (cc : Fin 1024) (d : Fin 256), v (ix2 cc d) = Vv (gidx kb cc) d)
    (hmsk : ∀ r cc : Fin 1024, msk (ix2 r cc) ≠ 0#32 ↔ keep (gidx qb r) (gidx kb cc) = true)
    (mm ll : FVec Ideal S1024x1 .f32) (aa : FVec Ideal S1024x256 .f32)
    (h : RowInv Q K Vv keep qb kb.val (Nat.le_of_lt kb.isLt) mm ll aa) :
    RowInv Q K Vv keep qb (kb.val + 1) kb.isLt
      (k0_pay5 (F := Ideal) (k0_pay8 (F := Ideal) arg1 v1 q k mm))
      (k0_pay11 (F := Ideal) arg1 v1 q k mm ll)
      (k0_pay4 (F := Ideal) (k0_pay9 (F := Ideal) arg1 v1 q k mm) (k0_pay10 (F := Ideal) arg1 v1 q k mm)
        (k0_pay12 (F := Ideal) msk) (k0_pay13 (F := Ideal)) aa v) := by
  intro r
  obtain ⟨hm, hl, hacc⟩ := h r
  have hs := step_row arg1 v1 q k v mm ll aa msk r _ hm hl hacc
  have hx : (fun c => k0_pay7 (F := Ideal) arg1 v1 q k (ix2 r c)) = fun c => logit Q K (gidx qb r) (gidx kb c) := by
    funext cc
    rw [pay7_apply arg1 v1 kb qb harg hv1]
    unfold logit score
    simp only [hq, hk]
    rfl
  have hkp : (fun c => decide (msk (ix2 r c) ≠ 0#32)) = fun c => keep (gidx qb r) (gidx kb c) := by
    funext cc
    have e := hmsk r cc
    cases hb : keep (gidx qb r) (gidx kb cc) with
    | true => exact decide_eq_true (e.mpr hb)
    | false => exact decide_eq_false (fun hne => by rw [hb] at e; exact Bool.false_ne_true (e.mp hne))
  have hvf : (fun c d => v (ix2 c d)) = fun c => Vv (gidx kb c) := by
    funext cc d; exact hv cc d
  have hst := step_congr (tiles Q K Vv keep qb r kb.val (Nat.le_of_lt kb.isLt)) hx hkp hvf
  have ht : tiles Q K Vv keep qb r (kb.val + 1) kb.isLt
      = step (tiles Q K Vv keep qb r kb.val (Nat.le_of_lt kb.isLt)) (fun c => logit Q K (gidx qb r) (gidx kb c))
          (fun c => keep (gidx qb r) (gidx kb c)) (fun c => Vv (gidx kb c)) := rfl
  rw [ht, ← hst]
  exact hs

/-- The final value of a row, from the state after all qb + 1 tiles on or below the diagonal, is the reference's. -/
theorem rowInv_finish (hQ : Finite Q) (hK : Finite K) (hV : Finite Vv) (qb : Fin 8) (mm ll : FVec Ideal S1024x1 .f32)
    (aa : FVec Ideal S1024x256 .f32) (h : RowInv Q K Vv keep qb (qb.val + 1) qb.isLt mm ll aa) (r : Fin 1024) (d : Fin 256) :
    k0_pay6 (F := Ideal) aa ll (ix2 r d) = out Q K Vv keep (gidx qb r) d := by
  obtain ⟨_, hl, hacc⟩ := h r
  rw [pay6_apply, hl, hacc d]
  exact flash_eq Q K Vv keep hQ hK hV qb r d

end Cert.KernelIdeal.Hand

end
-- ==== Proof.ValueInd.lean ====
/-
  The kernel's result, tile by tile: after the last step of slot s the output window's buffer holds the reference's
  rows of query tile perm s.

  By induction over the steps k = 0 … 7 of a slot s, with qb = perm s: after point 8·s + k the three scratch buffers
  hold, at every row r, the specification's blockwise state after the first min k qb + 1 key tiles of row
  gidx qb r. At k = 0 the body resets the buffers and passes over key tile 0; at a later step k ≤ qb it passes over
  key tile k from the state the step before left; at a step k > qb it leaves the buffers as they are. At k = 7 the
  state is the one after all qb + 1 tiles on or below the diagonal, the stored result is the weighted sum times 2
  over the running sum, and that is the row softmax of the reference.
-/
import proofs.«101383_j27444841022105_2_alg».proof.Proof.StepCases
import proofs.«101383_j27444841022105_2_alg».proof.Proof.Blocks
import proofs.«101383_j27444841022105_2_alg».proof.Proof.ValueStep

set_option maxRecDepth 16384

noncomputable section

namespace Cert.KernelIdeal.Hand

open Cert.KernelIdeal Cert.KernelIdeal.Gen Cert.KernelIdeal.PayIdeal
open Idealize.ShloMosaic Idealize.ShloMosaic.TcCoe Idealize.ShloMosaic.ValueIdx
open Idealize.SL.Sem
open Cert.Attn (gidx)

variable (m : (ℓ : Loc nD τ sig) → Buf (Elt Ideal) ℓ)

/-! ## The schedule at a point of slot s, step k -/

theorem perm_lt : ∀ s : Fin 8, perm s < 8 := by decide

theorem slot_of (t : Fin grid0.N) (s : Fin 8) (k : Nat) (hk : k < 8) (ht : t.val = 8 * s.val + k) :
    (grid0.coords t) 0 = s := by
  have h : t.val / 8 < 8 := by have := s.isLt; omega
  rw [slot_eq t h]
  exact Fin.ext (by show t.val / 8 = s.val; omega)

theorem step_of (t : Fin grid0.N) (s : Fin 8) (k : Nat) (hk : k < 8) (ht : t.val = 8 * s.val + k) :
    ((grid0.coords t) 1).val = k := by
  rw [coords1]; omega

theorem c2_iff (c : Dev nD) (t : Fin grid0.N) :
    cond2 (grid0.coords t) (wordOf c (grid0.coords t) (tbl m 0)) ↔ t.val % 8 ≤ perm ((grid0.coords t) 0) := by
  rw [word_tbl m c (grid0.coords t)]
  exact cond2_iff t

/-- At point 8·s + k of a slot holding tile qb: the body resets iff k = 0, passes over a tile iff k ≤ qb, stores the
    result iff k = 7; the slot's tile is qb and the step is k. -/
theorem conds_at (c : Dev nD) (t : Fin grid0.N) (s qb : Fin 8) (hqb : perm s = qb.val) (k : Nat) (hk : k < 8)
    (ht : t.val = 8 * s.val + k) :
    (cond1 (grid0.coords t) ↔ k = 0)
      ∧ (cond2 (grid0.coords t) (wordOf c (grid0.coords t) (tbl m 0)) ↔ k ≤ qb.val)
      ∧ (cond3 (grid0.coords t) ↔ k = 7)
      ∧ perm ((grid0.coords t) 0) = qb.val ∧ ((grid0.coords t) 1).val = k := by
  have hs0 := slot_of t s k hk ht
  have hp : perm ((grid0.coords t) 0) = qb.val := by rw [hs0]; exact hqb
  have hmod : t.val % 8 = k := by omega
  refine ⟨?_, ?_, ?_, hp, step_of t s k hk ht⟩
  · rw [cond1_iff t, hmod]
  · rw [c2_iff m c t, hmod, hp]
  · rw [cond3_iff t, hmod]

/-! ## One pass keeps the invariant -/

/-- The specification's arrays of core c: the three projections of x and the keep mask. -/
abbrev Qm (c : Dev nD) : Cert.Attn.Mat 8192 256 := Cert.Attn.proj (argX m c) (argWq m c)
abbrev Km (c : Dev nD) : Cert.Attn.Mat 8192 256 := Cert.Attn.proj (argX m c) (argWk m c)
abbrev Vm (c : Dev nD) : Cert.Attn.Mat 8192 256 := Cert.Attn.proj (argX m c) (argWv m c)
abbrev keepm (c : Dev nD) : Fin 8192 → Fin 8192 → Bool := Cert.Attn.keepOf (argM m c)

/-- The scratch contents p hold the state after n key tiles of query tile qb. -/
abbrev SInv (c : Dev nD) (qb : Fin 8) (n : Nat) (hn : n ≤ 8) (p : SSt Ideal) : Prop :=
  RowInv (Qm m c) (Km m c) (Vm m c) (keepm m c) qb n hn p.1 p.2.1 p.2.2

theorem SInv.cast {c : Dev nD} {qb : Fin 8} {n n' : Nat} {hn : n ≤ 8} {p : SSt Ideal} (h : SInv m c qb n hn p) (e : n = n')
    (hn' : n' ≤ 8) : SInv m c qb n' hn' p := by
  subst e; exact h

/-- At a point of a slot holding tile qb, at step kb ≤ qb, one pass takes the state after kb tiles to the state
    after kb + 1. -/
theorem pointAdv_inv (hO : Ok m) (c : Dev nD) (t : Fin (cfgM m hO).N) (qb kb : Fin 8)
    (hqb : perm ((grid0.coords t) 0) = qb.val) (hstep : ((grid0.coords t) 1).val = kb.val) (hle : kb.val ≤ qb.val)
    (p : SSt Ideal) (h : SInv m c qb kb.val (Nat.le_of_lt kb.isLt) p) :
    SInv m c qb (kb.val + 1) kb.isLt (pointAdv m hO c t p) := by
  have hkb : min ((grid0.coords t) 1).val (perm ((grid0.coords t) 0)) = kb.val := by
    rw [hstep, hqb]; exact Nat.min_eq_left hle
  exact rowInv_step (Qm m c) (Km m c) (Vm m c) (keepm m c) qb kb
    (BitVec.ofNat 32 ((grid0.coords t) 1).val) (wordOf c (grid0.coords t) (tbl m 0))
    (congrArg (BitVec.ofNat 32) hstep) ((word_tbl m c (grid0.coords t)).trans (congrArg (BitVec.ofNat 32) hqb))
    (iblk m hO c 0 t) (iblk m hO c 1 t) (iblk m hO c 2 t) (iblk m hO c 3 t)
    (fun r d => q_blk m hO c t qb hqb r d) (fun cc d => k_blk m hO c t kb hkb cc d)
    (fun cc d => v_blk m hO c t kb hkb cc d) (fun r cc => mask_blk m hO c t qb kb hqb hkb r cc)
    p.1 p.2.1 p.2.2 h

/-! ## The induction over the steps of a slot -/

/-- After point 8·s + k the scratch buffers hold the state after min k qb + 1 key tiles, qb = perm s. -/
theorem scratch_inv (hO : Ok m) (c : Dev nD) (s qb : Fin 8) (hqb : perm s = qb.val) :
    ∀ (k : Nat) (hk : k < 8) (n : Nat) (hn : n < (cfgM m hO).N), n = 8 * s.val + k →
      SInv m c qb (min k qb.val + 1) (by have := Nat.min_le_left k qb.val; omega) (outsAt0 m hO c n hn).2 := by
  intro k
  induction k with
  | zero =>
    intro hk n hn hnk
    obtain ⟨c1, c2, c3, hp, hst⟩ := conds_at m c ⟨n, hn⟩ s qb hqb 0 hk hnk
    have h1 : cond1 (grid0.coords (⟨n, hn⟩ : Fin (cfgM m hO).N)) := c1.mpr rfl
    have h2 : cond2 (grid0.coords (⟨n, hn⟩ : Fin (cfgM m hO).N)) (wordOf c (grid0.coords (⟨n, hn⟩ : Fin (cfgM m hO).N)) (tbl m 0)) :=
      c2.mpr (Nat.zero_le _)
    have h3 : ¬cond3 (grid0.coords (⟨n, hn⟩ : Fin (cfgM m hO).N)) := fun h => by have := c3.mp h; omega
    have e : outsAt0 m hO c n hn = stepAt m hO c ⟨n, hn⟩ (prevAt m hO c n hn) := outsAt0_eq m hO c ⟨n, hn⟩
    rw [e, stepAt_A m hO c ⟨n, hn⟩ (prevAt m hO c n hn) h1 h2 h3]
    have hr : SInv m c qb (0 : Fin 8).val (Nat.le_of_lt (0 : Fin 8).isLt) resetS :=
      rowInv_reset (Qm m c) (Km m c) (Vm m c) (keepm m c) qb
    exact (pointAdv_inv m hO c ⟨n, hn⟩ qb 0 hp hst (Nat.zero_le _) resetS hr).cast m (by
      show 0 + 1 = min 0 qb.val + 1
      omega) _
  | succ k ih =>
    intro hk n hn hnk
    obtain ⟨n0, rfl⟩ : ∃ n0, n = n0 + 1 := ⟨8 * s.val + k, by omega⟩
    have hn0 : n0 < (cfgM m hO).N := Nat.lt_of_succ_lt hn
    have ih' := ih (by omega) n0 hn0 (by omega)
    obtain ⟨c1, c2, c3, hp, hst⟩ := conds_at m c ⟨n0 + 1, hn⟩ s qb hqb (k + 1) hk hnk
    have h1 : ¬cond1 (grid0.coords (⟨n0 + 1, hn⟩ : Fin (cfgM m hO).N)) := fun h => by have := c1.mp h; omega
    have e : outsAt0 m hO c (n0 + 1) hn = stepAt m hO c ⟨n0 + 1, hn⟩ (outsAt0 m hO c n0 hn0).2 := rfl
    rw [e]
    by_cases hle : k + 1 ≤ qb.val
    · have h2 : cond2 (grid0.coords (⟨n0 + 1, hn⟩ : Fin (cfgM m hO).N)) (wordOf c (grid0.coords (⟨n0 + 1, hn⟩ : Fin (cfgM m hO).N)) (tbl m 0)) :=
        c2.mpr hle
      have hadv : (stepAt m hO c ⟨n0 + 1, hn⟩ (outsAt0 m hO c n0 hn0).2).2
          = pointAdv m hO c ⟨n0 + 1, hn⟩ (outsAt0 m hO c n0 hn0).2 := by
        by_cases h3 : cond3 (grid0.coords (⟨n0 + 1, hn⟩ : Fin (cfgM m hO).N))
        · exact (stepAt_D m hO c ⟨n0 + 1, hn⟩ (outsAt0 m hO c n0 hn0).2 h1 h2 h3).1
        · exact stepAt_B m hO c ⟨n0 + 1, hn⟩ (outsAt0 m hO c n0 hn0).2 h1 h2 h3
      rw [hadv]
      have hprev : SInv m c qb (⟨k + 1, hk⟩ : Fin 8).val (Nat.le_of_lt (⟨k + 1, hk⟩ : Fin 8).isLt) (outsAt0 m hO c n0 hn0).2 :=
        ih'.cast m (by show min k qb.val + 1 = k + 1; omega) _
      exact (pointAdv_inv m hO c ⟨n0 + 1, hn⟩ qb ⟨k + 1, hk⟩ hp hst hle (outsAt0 m hO c n0 hn0).2 hprev).cast m (by
        show k + 1 + 1 = min (k + 1) qb.val + 1
        omega) _
    · have h2 : ¬cond2 (grid0.coords (⟨n0 + 1, hn⟩ : Fin (cfgM m hO).N)) (wordOf c (grid0.coords (⟨n0 + 1, hn⟩ : Fin (cfgM m hO).N)) (tbl m 0)) :=
        fun h => hle (c2.mp h)
      have hkeep : (stepAt m hO c ⟨n0 + 1, hn⟩ (outsAt0 m hO c n0 hn0).2).2 = (outsAt0 m hO c n0 hn0).2 := by
        by_cases h3 : cond3 (grid0.coords (⟨n0 + 1, hn⟩ : Fin (cfgM m hO).N))
        · exact (stepAt_E m hO c ⟨n0 + 1, hn⟩ (outsAt0 m hO c n0 hn0).2 h1 h2 h3).1
        · exact stepAt_C m hO c ⟨n0 + 1, hn⟩ (outsAt0 m hO c n0 hn0).2 h1 h2 h3
      rw [hkeep]
      exact ih'.cast m (by
        show min k qb.val + 1 = min (k + 1) qb.val + 1
        omega) _

/-! ## The result -/

/-- After the last step of slot s the output window's buffer holds the reference's rows of query tile perm s. -/
theorem out_tile (hO : Ok m) (c : Dev nD) (hQ : Cert.Attn.Finite (Qm m c)) (hK : Cert.Attn.Finite (Km m c))
    (hV : Cert.Attn.Finite (Vm m c)) (s : Fin 8) (t : Fin (cfgM m hO).N) (ht : t.val = 8 * s.val + 7)
    (r : Fin 1024) (d : Fin 256) :
    (outsAt0 m hO c t.val t.isLt).1 (ix2 r d)
      = Cert.Attn.out (Qm m c) (Km m c) (Vm m c) (keepm m c) (gidx ⟨perm s, perm_lt s⟩ r) d := by
  obtain ⟨n, hn⟩ := t
  have hnk : n = 8 * s.val + 7 := ht
  have hinv := scratch_inv m hO c s ⟨perm s, perm_lt s⟩ rfl 7 (by omega) n hn hnk
  obtain ⟨n0, rfl⟩ : ∃ n0, n = n0 + 1 := ⟨8 * s.val + 6, by omega⟩
  have hn0 : n0 < (cfgM m hO).N := Nat.lt_of_succ_lt hn
  obtain ⟨c1, c2, c3, hp, hst⟩ := conds_at m c ⟨n0 + 1, hn⟩ s ⟨perm s, perm_lt s⟩ rfl 7 (by omega) hnk
  have h1 : ¬cond1 (grid0.coords (⟨n0 + 1, hn⟩ : Fin (cfgM m hO).N)) := fun h => by have := c1.mp h; omega
  have h3 : cond3 (grid0.coords (⟨n0 + 1, hn⟩ : Fin (cfgM m hO).N)) := c3.mpr rfl
  have e : outsAt0 m hO c (n0 + 1) hn = stepAt m hO c ⟨n0 + 1, hn⟩ (outsAt0 m hO c n0 hn0).2 := rfl
  have hout : (outsAt0 m hO c (n0 + 1) hn).1
      = k0_pay6 (F := Ideal) (outsAt0 m hO c (n0 + 1) hn).2.2.2 (outsAt0 m hO c (n0 + 1) hn).2.2.1 := by
    rw [e]
    by_cases h2 : cond2 (grid0.coords (⟨n0 + 1, hn⟩ : Fin (cfgM m hO).N)) (wordOf c (grid0.coords (⟨n0 + 1, hn⟩ : Fin (cfgM m hO).N)) (tbl m 0))
    · obtain ⟨ha, hb⟩ := stepAt_D m hO c ⟨n0 + 1, hn⟩ (outsAt0 m hO c n0 hn0).2 h1 h2 h3
      rw [hb, ha]
    · obtain ⟨ha, hb⟩ := stepAt_E m hO c ⟨n0 + 1, hn⟩ (outsAt0 m hO c n0 hn0).2 h1 h2 h3
      rw [hb, ha]
  show (outsAt0 m hO c (n0 + 1) hn).1 (ix2 r d) = _
  rw [hout]
  have hfin : SInv m c ⟨perm s, perm_lt s⟩ ((⟨perm s, perm_lt s⟩ : Fin 8).val + 1) (⟨perm s, perm_lt s⟩ : Fin 8).isLt (outsAt0 m hO c (n0 + 1) hn).2 :=
    hinv.cast m (by
      show min 7 (perm s) + 1 = perm s + 1
      have := perm_lt s; omega) _
  exact rowInv_finish (Qm m c) (Km m c) (Vm m c) (keepm m c) hQ hK hV ⟨perm s, perm_lt s⟩ _ _ _ hfin r d

end Cert.KernelIdeal.Hand

end
-- ==== Proof.Final.lean ====
/-
  From the output window's blocks to the whole result array.

  The output window is written back exactly at the last step of each slot s, point t = 8·s + 7, and its block there
  is row tile perm s of the result array. The tile lemma says that what the body has left in the window's buffer at
  that point is the specification's value on the rows of tile perm s. The permutation is a bijection of the eight
  tiles, so the eight blocks cover the array, and the array ends holding the specification's result.
-/
import proofs.«101383_j27444841022105_2_alg».proof.Proof.Frame
import proofs.«101383_j27444841022105_2_alg».proof.Proof.EntryVals
import proofs.«101383_j27444841022105_2_alg».proof.Proof.SpecArr
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The permutation is a bijection of the eight tiles -/

theorem perm_lt8 : ∀ s : Fin 8, perm s < 8 := by decide

/-- The inverse permutation. -/
def permInv : Fin 8 → Fin 8 := ![0, 2, 4, 6, 7, 5, 3, 1]

theorem perm_permInv : ∀ q : Fin 8, perm (permInv q) = q.val := by decide

/-! ## The output window's blocks -/

/-- The flushing point of slot s. -/
theorem last_lt (s : Fin 8) : 8 * s.val + 7 < grid0.N := by
  rw [N_0]; have := s.isLt; omega

theorem coords0_last (s : Fin 8) : (grid0.coords ⟨8 * s.val + 7, last_lt s⟩) 0 = s := by
  apply Fin.ext
  rw [coords0]
  show (8 * s.val + 7) / 8 = s.val
  omega

/-- An index of the array is in point t's block iff each coordinate is in the block's range on its axis. -/
theorem mem_blk4 (hO : Ok m) (t : Fin (cfgM m hO).N) (i : S8192x256.Idx) :
    i ∈ (((cfgM m hO).win 4).blk t).view.set ↔ ∀ a : Fin 2,
      ((cfgM m hO).win 4).index t a * S1024x256.size a ≤ (i a).val
        ∧ (i a).val < ((cfgM m hO).win 4).index t a * S1024x256.size a + S1024x256.size a := by
  have h : (((cfgM m hO).win 4).blk t).view.set = (((cfgM m hO).win 4).rect t).set :=
    View.set_slice_whole main_v10 (((cfgM m hO).win 4).rect t)
  rw [h]
  exact Rect.mem_set_unit

/-- Every index of the array is in the block of the flushing point of the slot holding its row tile. -/
theorem cover4 (hO : Ok m) (i : S8192x256.Idx) :
    ∃ t : Fin (cfgM m hO).N, ((cfgM m hO).win 4).flush t = true ∧ i ∈ (((cfgM m hO).win 4).blk t).view.set := by
  have hi0 : (i 0).val < 8192 := idx2_lt0 i
  have hi1 : (i 1).val < 256 := idx2_lt1 i
  let q : Fin 8 := ⟨(i 0).val / 1024, by omega⟩
  let s : Fin 8 := permInv q
  refine ⟨⟨8 * s.val + 7, last_lt s⟩, (flush4_iff m hO _).mpr (by show (8 * s.val + 7) % 8 = 7; omega), ?_⟩
  rw [mem_blk4]
  have e := index4 m hO ⟨8 * s.val + 7, last_lt s⟩
  have hs : perm ((grid0.coords ⟨8 * s.val + 7, last_lt s⟩) 0) = (i 0).val / 1024 := by
    rw [coords0_last s]; exact perm_permInv q
  rw [hs] at e
  intro a
  rw [e]
  match a with
  | ⟨0, _⟩ => show (i 0).val / 1024 * 1024 ≤ (i 0).val ∧ (i 0).val < (i 0).val / 1024 * 1024 + 1024; omega
  | ⟨1, _⟩ => show 0 * 256 ≤ (i 1).val ∧ (i 1).val < 0 * 256 + 256; omega

/-! ## What the flushing points write back -/

/-- Over any admissible table contents: when the output window's block index at point t is (p, 0), the block's
    element (r, d) sits in the array at row p · 1024 + r, column d. -/
theorem emb4 (a : (pcfg0 (F := Ideal)).Adm) (t : Fin (cfg0 a).N) (y : S1024x256.Idx) (p : Nat) (hp : p < 8)
    (hidx : ((cfg0 a).win 4).index t = ![p, 0]) :
    ((((cfg0 a).win 4).blk t).view.emb y : S8192x256.Idx)
      = ix2 (Cert.Attn.gidx ⟨p, hp⟩ ⟨(y 0).val, (y 0).isLt⟩) (⟨(y 1).val, (y 1).isLt⟩ : Fin 256) := by
  funext b
  apply Fin.ext
  match b with
  | ⟨0, _⟩ =>
    show (((cfg0 a).win 4).index t : Fin 2 → Nat) (⟨0, Nat.zero_lt_two⟩ : Fin 2) * 1024 + 1 * (y 0).val = p * 1024 + (y 0).val
    rw [hidx]
    show p * 1024 + 1 * (y 0).val = _
    omega
  | ⟨1, _⟩ =>
    show (((cfg0 a).win 4).index t : Fin 2 → Nat) (⟨1, Nat.one_lt_two⟩ : Fin 2) * 256 + 1 * (y 1).val = (y 1).val
    rw [hidx]
    show 0 * 256 + 1 * (y 1).val = _
    omega

/-- So a buffer holding, at (r, d), the array contents G at (p · 1024 + r, d) is, cut to what the write-back moves,
    the block of G at that point. -/
theorem cut_eq_a (a : (pcfg0 (F := Ideal)).Adm) (t : Fin (cfg0 a).N) (X : S1024x256.Idx → EReal)
    (G : S8192x256.Idx → EReal) (p : Nat) (hp : p < 8) (hidx : ((cfg0 a).win 4).index t = ![p, 0])
    (hX : ∀ (r : Fin 1024) (d : Fin 256), X (ix2 r d) = G (ix2 (Cert.Attn.gidx ⟨p, hp⟩ r) d)) :
    ((cfg0 a).win 4).cut (grid0.coords t) X = (((cfg0 a).win 4).blk t).view.read (Elt Ideal) G := by
  refine funext fun (y : S1024x256.Idx) => ?_
  show X y = G ((((cfg0 a).win 4).blk t).view.emb y)
  rw [emb4 a t y p hp hidx]
  have hy : y = (ix2 (⟨(y 0).val, (y 0).isLt⟩ : Fin 1024) (⟨(y 1).val, (y 1).isLt⟩ : Fin 256) : S1024x256.Idx) := by
    funext b; match b with | ⟨0, _⟩ => rfl | ⟨1, _⟩ => rfl
  conv_lhs => rw [hy]
  exact hX _ _

section Tile

variable (hO : Ok m) (c : Dev nD)

/-- The specification's result array of core c's argument arrays. -/
abbrev resultArr : S8192x256.Idx → EReal :=
  Cert.Attn.result (argX m c) (argWq m c) (argWk m c) (argWv m c) (argM m c)

/- THE TILE LEMMA, taken as a hypothesis here: at the flushing point of slot s the output window's buffer holds
   the specification's value on the rows of tile perm s. -/
variable (htile : ∀ (s : Fin 8) (t : Fin (cfgM m hO).N), t.val = 8 * s.val + 7 → ∀ (r : Fin 1024) (d : Fin 256),
    (outsAt0 m hO c t.val t.isLt).1 (ix2 r d)
      = Cert.Attn.out (Cert.Attn.proj (argX m c) (argWq m c)) (Cert.Attn.proj (argX m c) (argWk m c))
          (Cert.Attn.proj (argX m c) (argWv m c)) (Cert.Attn.keepOf (argM m c))
          (Cert.Attn.gidx ⟨perm s, perm_lt8 s⟩ r) d)
include htile

/-- What the output window's buffer holds at a flushing point is that point's block of the result array. -/
theorem cut_eq (t : Fin (cfgM m hO).N) (hf : ((cfgM m hO).win 4).flush t = true) :
    ((cfgM m hO).win 4).cut (grid0.coords t) (outsAt0 m hO c t.val t.isLt).1
      = (((cfgM m hO).win 4).blk t).view.read (Elt Ideal) (resultArr m c) := by
  have h7 : t.val % 8 = 7 := (flush4_iff m hO t).mp hf
  have ht64 : t.val < 64 := t_lt t
  have hs8 : t.val / 8 < 8 := by omega
  have e := index4 m hO t
  rw [slot_eq t hs8] at e
  exact cut_eq_a (adm m hO) t (outsAt0 m hO c t.val t.isLt).1 (resultArr m c) (perm ⟨t.val / 8, hs8⟩) (perm_lt8 _) e
    (fun r d => htile ⟨t.val / 8, hs8⟩ t (by show t.val = 8 * (t.val / 8) + 7; omega) r d)

end Tile

/-! ## The array after the run -/

section Final

variable (hO : Ok m) (c : Dev nD)

variable (htile : ∀ (s : Fin 8) (t : Fin (cfgM m hO).N), t.val = 8 * s.val + 7 → ∀ (r : Fin 1024) (d : Fin 256),
    (outsAt0 m hO c t.val t.isLt).1 (ix2 r d)
      = Cert.Attn.out (Cert.Attn.proj (argX m c) (argWq m c)) (Cert.Attn.proj (argX m c) (argWk m c))
          (Cert.Attn.proj (argX m c) (argWv m c)) (Cert.Attn.keepOf (argM m c))
          (Cert.Attn.gidx ⟨perm s, perm_lt8 s⟩ r) d)
include htile

/-- WHAT A FLUSHING POINT WRITES BACK is its block of the result array. -/
theorem flushed_eq (t : Fin (cfgM m hO).N) (hf : ((cfgM m hO).win 4).flush t = true) :
    (dats m hO 0 c).flushed 4 t = (((cfgM m hO).win 4).blk t).view.read (Elt Ideal) (resultArr m c) := by
  show ((cfgM m hO).win 4).cut (grid0.coords t) ((dats m hO 0 c).after 4 t) = _
  rw [after0_4]
  exact cut_eq m hO c htile t hf

/-- THE ARRAY after the run is the specification's result: the eight flushed blocks cover it. -/
theorem final : (dats m hO 0 c).arrAt 4 (cfgM m hO).N = resultArr m c :=
  (dats m hO 0 c).arrAt_eq_of_cover 4 (resultArr m c) (fun t hf => flushed_eq m hO c htile t hf) (cover4 m hO)

end Final

/-- The run, read: the output array ends holding the specification's result of the argument arrays, and the five
    argument arrays end as launched. -/
theorem run_value (hO : Ok m)
    (htile : ∀ (c : Dev nD) (s : Fin 8) (t : Fin (cfgM m hO).N), t.val = 8 * s.val + 7 → ∀ (r : Fin 1024) (d : Fin 256),
      (outsAt0 m hO c t.val t.isLt).1 (ix2 r d)
        = Cert.Attn.out (Cert.Attn.proj (argX m c) (argWq m c)) (Cert.Attn.proj (argX m c) (argWk m c))
            (Cert.Attn.proj (argX m c) (argWv m c)) (Cert.Attn.keepOf (argM m c))
            (Cert.Attn.gidx ⟨perm s, perm_lt8 s⟩ r) d) :
    θ_run defs (onTc (τ := τ) (main (F := Ideal))) ⟨m, fun _ => 0, ρ⟩ (fun r => ∀ c : Dev nD,
      r.2.mem ((c.tc : Thread nD τ).loc main_v10)
          = Cert.Attn.result (argX m c) (argWq m c) (argWk m c) (argWv m c) (argM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 4).trans (final m hO c (htile c)),
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).2 main_arg4 (Pipeline.mem_restRefs_of (win := spec0) main_arg4 (by decide) (by decide))).trans (V_main_arg4 m c)⟩)
    (run_main m ρ hO)

end Cert.KernelIdeal.Hand

end
-- ==== Proof.LibERealFinite.lean ====
/-
  Extended reals that are reals.

  Three small facts used when a claim about extended reals holds only for finite inputs: the coercion from the
  reals commutes with finite sums; subtracting a real and adding it back changes no extended real, the two
  infinities included; and an extended real whose absolute value lies strictly below the word of +infinity (the test
  a finiteness precondition applies to every entry) is a real.
-/
import Idealize.ShloMosaic.PureOps.Ideal.Laws

noncomputable section

namespace Idealize.ShloMosaic.ERealFinite

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting a real and adding it back is the identity on every extended real, the infinities included. -/
theorem sub_add_cancel_coe (a : EReal) (c : ℝ) : a - (c : EReal) + (c : EReal) = a := by
  induction a using EReal.rec with
  | bot => simp
  | coe a => rw [← EReal.coe_sub, ← EReal.coe_add]; congr 1; ring
  | top => simp

/-- An extended real whose absolute value compares strictly below the single-precision word of +infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Idealize.ShloMosaic.ERealFinite

end
-- ==== Proof.FinitePre.lean ====
/-
  The precondition decoded: every entry of the four floating-point argument arrays is a real number.

  The precondition evaluates, for each of the four arrays, the conjunction over all entries of |x| < +∞, and
  states that the conjunction of the four results is 1. A conjunction of bits that is 1 has every bit 1, so
  every entry satisfies max x (-x) < +∞ in the extended reals, which excludes both infinities.
-/
import proofs.«101383_j27444841022105_2_alg».proof.Defs
import proofs.«101383_j27444841022105_2_alg».proof.Proof.Gen.Pre_finite_inputs
import proofs.«101383_j27444841022105_2_alg».proof.Proof.LibERealFinite
import Idealize.ShloMosaic.Lib.ReduceAll
import Idealize.ShloMosaic.Lib.ValueIdx

noncomputable section

namespace Cert.KernelIdeal.FinitePre

open Idealize.ShloMosaic Idealize.SL.Sem
open Cert.Pre_finite_inputs (S_ S8192x256 S256x256 S8192x8192)

/-- The rank-0 shape has one index. -/
instance : Subsingleton S_.Idx := ⟨fun a b => funext fun d => d.elim0⟩

/-- One array: if the conjunction over all entries of |x| < +∞ is 1, every entry is a real. -/
theorem all_finite {s : Shape} {axes : List (Fin s.rank)}
    (bc : S_.BroadcastsInDim s (![] : Fin 0 → Fin s.rank)) (red : s.ReducesTo axes S_) (hu : 0 < S_.numel)
    (a : FVec Ideal s .f32)
    (e : Host.reduce IntOp.andi
          (cmpf .olt (Host.absf a) (broadcastInDim s ![] bc (constant (F := Ideal) S_ .f32 0x7F800000#32)))
          (constantI S_ 1 1#1) red hu ValueIdx.ix0 = 1#1) :
    ∀ i, ∃ r : ℝ, a i = (r : EReal) := by
  intro i
  have hi := Host.reduce_andi_all _ _ red hu ValueIdx.ix0 e i
  exact ERealFinite.real_of_abs_lt (a i) hi

/-- The four arrays, from the precondition's function being all ones. -/
theorem finite_of_fn [Cert.Pre_finite_inputs.Facts] (a0 : FVec Ideal S8192x256 .f32) (a1 a2 a3 : FVec Ideal S256x256 .f32)
    (a4 : IVec S8192x8192 1) (h : Cert.Pre_finite_inputs.fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  unfold Cert.Pre_finite_inputs.fn Cert.Pre_finite_inputs.fn_part1 at h0
  simp only [Idealize.ShloMosaic.andi] at h0
  obtain ⟨h012, h3⟩ := IntOp.andi_eq_one.1 h0
  obtain ⟨h01, h2⟩ := IntOp.andi_eq_one.1 h012
  obtain ⟨h0', h1⟩ := IntOp.andi_eq_one.1 h01
  exact ⟨all_finite _ _ _ a0 h0', all_finite _ _ _ a1 h1, all_finite _ _ _ a2 h2, all_finite _ _ _ a3 h3⟩

/-- Under the kernel's precondition every entry of x, Wq, Wk and Wv is a real number, on every device. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  finite_of_fn _ _ _ _ _ (h c)

end Cert.KernelIdeal.FinitePre

end
-- ==== Proof.RefValue.lean ====
/-
  The reference program computes the specification.

  Its result array, read one operation at a time at an index (i, d), is
    ∑ j, (if keep i j then ex i j / rowSum i * 2 else 0) * v j d
  with q = x·Wqᵀ, k = x·Wkᵀ, v = x·Wvᵀ, score i j = ∑ d, q i d * k j d, logit i j = score i j * (1/16) on and
  below the diagonal and -∞ above it, rowMax i the maximum of row i's logits, ex i j = exp (logit i j - rowMax i)
  and rowSum i = ∑ j, ex i j: the function `Cert.Attn.result` of the five argument arrays.

  The steps, in the program's order: the three projections; the scores; the strict upper triangle (a comparison
  of 32-bit words of coordinates below 8192, which compare as the coordinates do) replaced by -∞ and the division
  by √256 = 16, a multiplication by 1/16 that also fixes -∞; the row maximum, a fold of max from -∞ along the
  columns; the exponentials and their row sum from 0; the division, the factor 2 and the keep mask; the product
  with v.
-/
import proofs.«101383_j27444841022105_2_alg».proof.Proof.Gen.ReferenceIdeal.Read
import proofs.«101383_j27444841022105_2_alg».proof.Proof.SpecArr

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo Idealize.SL.Sem Idealize.ShloMosaic.TcCoe
open Cert.Attn

/-- The argument arrays' types: x is 8192×256, each weight 256×256, the keep mask 8192×8192 bits. -/
abbrev AX := (⟨S8192x256, .f32⟩ : BufTy).Contents (Elt Ideal)
abbrev AW := (⟨S256x256, .f32⟩ : BufTy).Contents (Elt Ideal)
abbrev AM := (⟨S8192x8192, .i1⟩ : BufTy).Contents (Elt Ideal)

/-! ## The three projections x·Wᵀ -/

theorem lidx_v1 (i : Fin 8192) (d k : Fin 256) : lidx_main_v1 (ix2 i d) k = ix2 i k :=
  funext fun a => Fin.ext (by match a with | ⟨0, _⟩ => rfl | ⟨1, _⟩ => rfl)
theorem ridx_v1 (i : Fin 8192) (d k : Fin 256) : idx_main_v0 (ridx_main_v1 (ix2 i d) k) = ix2 d k :=
  funext fun a => Fin.ext (by match a with | ⟨0, _⟩ => rfl | ⟨1, _⟩ => rfl)

theorem q_eq (x0 : AX) (x1 : AW) (i : Fin 8192) (d : Fin 256) :
    val_main_v1 (F := Ideal) x0 x1 (ix2 i d) = proj x0 x1 i d := by
  rw [val_main_v1_apply]
  unfold proj
  refine Finset.sum_congr rfl fun k _ => ?_
  rw [val_main_v0_apply, lidx_v1, ridx_v1]

theorem k_eq (x0 : AX) (x2 : AW) (i : Fin 8192) (d : Fin 256) :
    val_main_v3 (F := Ideal) x0 x2 (ix2 i d) = proj x0 x2 i d := by
  rw [val_main_v3_apply]
  unfold proj
  refine Finset.sum_congr rfl fun k _ => ?_
  rw [val_main_v2_apply]
  exact congrArg₂ (· * ·) (congrArg x0 (lidx_v1 i d k)) (congrArg x2 (ridx_v1 i d k))

theorem v_eq (x0 : AX) (x3 : AW) (i : Fin 8192) (d : Fin 256) :
    val_main_v5 (F := Ideal) x0 x3 (ix2 i d) = proj x0 x3 i d := by
  rw [val_main_v5_apply]
  unfold proj
  refine Finset.sum_congr rfl fun k _ => ?_
  rw [val_main_v4_apply]
  exact congrArg₂ (· * ·) (congrArg x0 (lidx_v1 i d k)) (congrArg x3 (ridx_v1 i d k))

/-! ## The scores q·kᵀ -/

theorem lidx_v7 (i j : Fin 8192) (k : Fin 256) : lidx_main_v7 (ix2 i j) k = ix2 i k :=
  funext fun a => Fin.ext (by match a with | ⟨0, _⟩ => rfl | ⟨1, _⟩ => rfl)
theorem ridx_v7 (i j : Fin 8192) (k : Fin 256) : idx_main_v6 (ridx_main_v7 (ix2 i j) k) = ix2 j k :=
  funext fun a => Fin.ext (by match a with | ⟨0, _⟩ => rfl | ⟨1, _⟩ => rfl)

theorem score_eq (x0 : AX) (x1 x2 : AW) (i j : Fin 8192) :
    val_main_v7 (F := Ideal) x0 x1 x2 (ix2 i j) = score (proj x0 x1) (proj x0 x2) i j := by
  rw [val_main_v7_apply]
  unfold score
  refine Finset.sum_congr rfl fun k _ => ?_
  rw [val_main_v6_apply, lidx_v7, ridx_v7, q_eq, k_eq]

/-! ## Literals -/

theorem lit_negInf : (FloatOps.ofBits (F := Ideal) .f32 0xFF800000#32 : EReal) = ⊥ := by
  simp [Ideal.ofBits, Ideal.ieee]
theorem lit_zero : (FloatOps.ofBits (F := Ideal) .f32 0x00000000#32 : EReal) = 0 := by
  simp [Ideal.ofBits, Ideal.ieee]
theorem lit_256 : (FloatOps.ofBits (F := Ideal) .f32 0x43800000#32 : EReal) = ((256 : ℝ) : EReal) := by
  simp [Ideal.ofBits, Ideal.ieee, -EReal.coe_mul]
  first | done | norm_num | (rw [EReal.coe_eq_coe_iff]; norm_num)
theorem lit_two : (FloatOps.ofBits (F := Ideal) .f32 0x40000000#32 : EReal) = ((2 : ℝ) : EReal) := by
  simp [Ideal.ofBits, Ideal.ieee, -EReal.coe_mul]
  first | done | norm_num | (rw [EReal.coe_eq_coe_iff]; norm_num)

/-- √256 = 16. -/
theorem sqrt256 : Ideal.sqrt ((256 : ℝ) : EReal) = ((16 : ℝ) : EReal) := by
  rw [Ideal.sqrt_coe, if_neg (by norm_num)]
  congr 1
  rw [show (256 : ℝ) = 16 * 16 by norm_num, Real.sqrt_mul_self (by norm_num)]

/-! ## The causal mask: 32-bit words of coordinates below 2³¹ compare as the coordinates do -/

theorem sle_ofNat (a b : Nat) (ha : a < 2 ^ 31) (hb : b < 2 ^ 31) :
    (BitVec.ofNat 32 a).sle (BitVec.ofNat 32 b) = decide (a ≤ b) := by
  rw [BitVec.sle_eq_decide, BitVec.toInt_ofNat', BitVec.toInt_ofNat',
    Int.bmod_eq_of_le_mul_two (by omega) (by omega), Int.bmod_eq_of_le_mul_two (by omega) (by omega)]
  simp

theorem cmpi_sge (x y : BitVec 32) : IntOp.cmpi .sge x y = BitVec.ofBool (y.sle x) := rfl

/-- The strict upper triangle: the mask bit at (i, j) is set exactly when j is above i. -/
theorem mask_eq (i j : Fin 8192) :
    (val_main_v9 (F := Ideal) (ix2 i j) : BitVec 1) = if j.val ≤ i.val then 0#1 else 1#1 := by
  rw [val_main_v9_apply, val_main_call0_v4_apply, val_main_call0_v2_apply, val_main_call0_v0_apply,
    val_main_call0_v1_apply, val_main_call0_c_apply, val_main_call0_v3_apply, val_main_call0_v5_apply,
    val_main_call0_c_0_apply, val_main_v8_apply, val_main_c_apply]
  show Scalar.select (IntOp.cmpi .sge (IntOp.addi (BitVec.ofNat 32 i.val) 0#32) (BitVec.ofNat 32 j.val)) (0#1) (1#1) = _
  rw [cmpi_sge, IntOp.addi, BitVec.add_zero,
    sle_ofNat _ _ (by have := j.isLt; omega) (by have := i.isLt; omega)]
  unfold Scalar.select
  by_cases h : j.val ≤ i.val
  · simp [h]
  · simp [h]

theorem masked_eq (x0 : AX) (x1 x2 : AW) (i j : Fin 8192) :
    val_main_v10 (F := Ideal) x0 x1 x2 (ix2 i j)
      = if j.val ≤ i.val then score (proj x0 x1) (proj x0 x2) i j else ⊥ := by
  rw [val_main_v10_apply, mask_eq, val_main_call1_v1_apply, val_main_call1_v0_apply, val_main_cst_apply, lit_negInf,
    score_eq]
  unfold Scalar.select
  by_cases h : j.val ≤ i.val
  · rw [if_pos h, if_pos h, if_neg (by decide)]
  · rw [if_neg h, if_neg h, if_pos (by decide)]

/-- The masked scores divided by √256 are the logits. -/
theorem logit_eq (x0 : AX) (x1 x2 : AW) (i j : Fin 8192) :
    val_main_v13 (F := Ideal) x0 x1 x2 (ix2 i j) = logit (proj x0 x1) (proj x0 x2) i j := by
  rw [val_main_v13_apply, masked_eq, val_main_v12_apply, val_main_v11_apply, val_main_cst_0_apply, lit_256,
    Ideal.hostUnary_sqrt_def, sqrt256, Ideal.hostDivf_def, Ideal.div_coe (y := 16) (by norm_num)]
  unfold logit
  by_cases h : j.val ≤ i.val
  · rw [if_pos h, if_pos h]
  · rw [if_neg h, if_neg h]; exact EReal.bot_mul_coe_of_pos (by norm_num)

/-! ## The row maximum -/

/-- Row i's reduced index with column k put back is (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  first | (fin_cases c <;> rfl) | (match c with | ⟨0, _⟩ => rfl | ⟨1, _⟩ => rfl)

theorem rowMax_eq (x0 : AX) (x1 x2 : AW) (i : Fin 8192) :
    val_main_v16 (F := Ideal) x0 x1 x2 (ix1 i) = rowMax (proj x0 x1) (proj x0 x2) i := by
  have h : S8192x8192.Reduces [1] S8192 := by decide
  rw [val_main_v16_apply, val_main_v15_apply, val_main_cst_2_apply, lit_negInf, Ideal.maximumf_def]
  first | rw [max_bot_left] | rw [max_eq_right bot_le]
  unfold val_main_v14
  rw [Host.reduce_eq_fold_single FloatOps.maximumf _ _ reducesTo_S8192x8192_S8192_d1 h h_S_,
    val_main_cst_1_apply, lit_negInf]
  unfold rowMax
  have hf : (val_main_v13 (F := Ideal) x0 x1 x2 ∘ h.lift (ix1 i)) = logit (proj x0 x1) (proj x0 x2) i :=
    funext fun k => by
      show val_main_v13 (F := Ideal) x0 x1 x2 (h.lift (ix1 i) k) = _
      rw [lift_row h i k]
      exact logit_eq x0 x1 x2 i _
  rw [hf]
  rfl

/-! ## The exponentials and their row sum -/

theorem idx_v18 (i j : Fin 8192) : idx_main_v17 (idx_main_v18 (ix2 i j)) = ix1 i :=
  funext fun a => Fin.ext (by match a with | ⟨0, _⟩ => rfl)

theorem ex_eq (x0 : AX) (x1 x2 : AW) (i j : Fin 8192) :
    val_main_v20 (F := Ideal) x0 x1 x2 (ix2 i j) = ex (proj x0 x1) (proj x0 x2) i j := by
  rw [val_main_v20_apply, val_main_v19_apply, val_main_v18_apply, val_main_v17_apply, idx_v18, rowMax_eq, logit_eq,
    Ideal.hostUnary_exp_def, Ideal.subf_def]
  rfl

theorem idx_v21 (i k : Fin 8192) : idx_main_v21 (ix1 i) k = ix2 i k :=
  funext fun a => Fin.ext (by match a with | ⟨0, _⟩ => rfl | ⟨1, _⟩ => rfl)

theorem rowSum_eq (x0 : AX) (x1 x2 : AW) (i : Fin 8192) :
    val_main_v21 (F := Ideal) x0 x1 x2 (ix1 i) = rowSum (proj x0 x1) (proj x0 x2) i := by
  rw [val_main_v21_apply, val_main_cst_3_apply, lit_zero, zero_add]
  unfold rowSum
  refine Finset.sum_congr rfl fun k _ => ?_
  rw [idx_v21, ex_eq]

/-! ## The weights: normalise, rescale by 2, drop by the keep mask -/

theorem idx_v23 (i j : Fin 8192) : idx_main_v22 (idx_main_v23 (ix2 i j)) = ix1 i :=
  funext fun a => Fin.ext (by match a with | ⟨0, _⟩ => rfl)

theorem weight_eq (x0 : AX) (x1 x2 : AW) (x4 : AM) (i j : Fin 8192) :
    val_main_v27 (F := Ideal) x0 x1 x2 x4 (ix2 i j)
      = if keepOf x4 i j then
          Ideal.div (ex (proj x0 x1) (proj x0 x2) i j) (rowSum (proj x0 x1) (proj x0 x2) i) * ((2 : ℝ) : EReal)
        else 0 := by
  rw [val_main_v27_apply, val_main_v26_apply, val_main_v24_apply, val_main_v23_apply, val_main_v22_apply, idx_v23,
    rowSum_eq, ex_eq, val_main_v25_apply, val_main_cst_4_apply, lit_two, val_main_call2_v1_apply,
    val_main_call2_v0_apply, val_main_cst_5_apply, lit_zero, Ideal.mulf_def, Ideal.hostDivf_def]
  unfold Scalar.select keepOf
  by_cases h : (x4 (ix2 i j) : BitVec 1) = 1
  · rw [if_pos h, if_pos (by simp only [beq_iff_eq]; exact h)]
  · rw [if_neg h, if_neg (by simp only [beq_iff_eq]; exact h)]

/-! ## The product with v -/

theorem lidx_v28 (i : Fin 8192) (d : Fin 256) (k : Fin 8192) : lidx_main_v28 (ix2 i d) k = ix2 i k :=
  funext fun a => Fin.ext (by match a with | ⟨0, _⟩ => rfl | ⟨1, _⟩ => rfl)
theorem ridx_v28 (i : Fin 8192) (d : Fin 256) (k : Fin 8192) : ridx_main_v28 (ix2 i d) k = ix2 k d :=
  funext fun a => Fin.ext (by match a with | ⟨0, _⟩ => rfl | ⟨1, _⟩ => rfl)

theorem out_eq (x0 : AX) (x1 x2 x3 : AW) (x4 : AM) (i : Fin 8192) (d : Fin 256) :
    val_main_v28 (F := Ideal) x0 x1 x2 x3 x4 (ix2 i d)
      = out (proj x0 x1) (proj x0 x2) (proj x0 x3) (keepOf x4) i d := by
  rw [val_main_v28_apply]
  unfold out
  refine Finset.sum_congr rfl fun k _ => ?_
  rw [lidx_v28, ridx_v28, weight_eq, v_eq]

/-- The reference program's result array is the specification's. -/
theorem val_eq (x0 : AX) (x1 x2 x3 : AW) (x4 : AM) :
    (val_main_v28 (F := Ideal) x0 x1 x2 x3 x4 : SX.Idx → EReal) = result x0 x1 x2 x3 x4 := by
  funext j
  obtain ⟨a, b, rfl⟩ : ∃ (a : Fin 8192) (b : Fin 256), j = ix2 a b := ⟨j 0, j 1, eq_ix2 j⟩
  exact out_eq x0 x1 x2 x3 x4 a b

theorem res_eq (m : (ℓ : Loc nD τ sig) → Buf (Elt Ideal) ℓ) (c : Dev nD) :
    Cert.ReferenceIdeal.Value.res_main_v28 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [val_main_v28_eq]
  exact val_eq _ _ _ _ _

end Cert.ReferenceIdeal.RefValue

end
-- ==== Proof.lean ====
/-
  Causal attention with dropout after the softmax, computed tile by tile, equals the same attention computed whole.

  Both programs take x (8192 × 256), three weight matrices Wq, Wk, Wv (256 × 256) and a keep mask (8192 × 8192 bits),
  form the projections q = x·Wqᵀ, k = x·Wkᵀ, v = x·Wvᵀ, and return, at row i and feature d,
      ∑ j, (if keep i j then e i j / (∑ j', e i j') * 2 else 0) * v j d,      e i j = exp (l i j - max over j' of l i j'),
  where the logit l i j is (∑ t, q i t * k j t) * (1/16) for j ≤ i and -∞ above the diagonal.

  The reference computes exactly this, one array operation at a time: the scores, the strict upper triangle replaced
  by -∞, the division by √256, the row maximum, the exponentials, their row sum, the quotient, the factor 2 and the
  mask, and the product with v.

  The kernel never forms a row of 8192 logits. It cuts rows and columns into eight tiles of 1024 and, for each row
  tile, visits the column tiles 0, 1, …, 7 in order, skipping those wholly above the diagonal; the row tiles themselves
  are taken in the order 0, 7, 1, 6, 2, 5, 3, 4, read from a table. Per row it carries a running maximum m, a running
  sum s of exponentials taken against m, and a running weighted sum a of v's rows, starting from -∞, 0, 0. A column
  tile with logits l_c, keep bits and rows v_c replaces them by
      m' = max m (max_c l_c),   s' = exp (m - m') * s + ∑_c exp (l_c - m'),
      a' = exp (m - m') * a + ∑_c (if keep_c then exp (l_c - m') else 0) * v_c,
  and after the last tile the row's result is a * 2 / s.

  The law that joins the two: when the maximum moves from m to m', every exponential taken against m is rescaled by
  exp (m - m'), since exp (l - m) * exp (m - m') = exp (l - m'); so after any number of tiles s and a are the sums over
  the columns seen so far of exp (l_j - m) and of the kept exp (l_j - m) * v_j, with m the maximum so far, and after
  all eight tiles they are the reference's row sum and its unnormalised weighted sum. Dividing once at the end instead of
  per term is the distributive law, valid because the row sum is a positive real. A position above the diagonal
  carries the logit -∞ and contributes exp (-∞) = 0 to both sums, whether it lies in a visited tile or in a skipped one. All of this
  needs every score to be a real number: the precondition makes every entry of x and of the weights real, so every
  projection, every score on or below the diagonal and every row maximum (the diagonal is never masked) is real, and no
  ∞ - ∞ or 0 · ∞ arises.

  The kernel as compiled writes the mask fill as the large negative number -2.38e38; its idealization names that constant
  -∞, which is the one rewrite `preserves` records. Each program leaves its five argument arrays unchanged.
-/
import proofs.«101383_j27444841022105_2_alg».proof.Defs
import proofs.«101383_j27444841022105_2_alg».proof.Proof.Gen.Kernel
import proofs.«101383_j27444841022105_2_alg».proof.Proof.Gen.KernelIdeal
import proofs.«101383_j27444841022105_2_alg».proof.Proof.Gen.ReferenceIdeal
import proofs.«101383_j27444841022105_2_alg».proof.Proof.Gen.Pre_finite_inputs
import proofs.«101383_j27444841022105_2_alg».proof.Proof.KSched
import proofs.«101383_j27444841022105_2_alg».proof.Proof.KFrame
import proofs.«101383_j27444841022105_2_alg».proof.Proof.Sched
import proofs.«101383_j27444841022105_2_alg».proof.Proof.Frame
import proofs.«101383_j27444841022105_2_alg».proof.Proof.ValueInd
import proofs.«101383_j27444841022105_2_alg».proof.Proof.Final
import proofs.«101383_j27444841022105_2_alg».proof.Proof.EntryVals
import proofs.«101383_j27444841022105_2_alg».proof.Proof.FinitePre
import proofs.«101383_j27444841022105_2_alg».proof.Proof.RefValue
import Idealize.ShloMosaic.Adequacy
import Idealize.ShloMosaic.Init

noncomputable section

namespace Cert.Proof

open Idealize.ShloMosaic Idealize.ShloMosaic.TcCoe Idealize.SL.Sem
open Cert.KernelIdeal.Hand (argX argWq argWk argWv argM)

/-- The kernel as compiled runs and leaves its arguments unchanged. -/
theorem frame_k : Cert.frame_Kernel := fun m ρ _ => Cert.Kernel.Hand.frame m ρ (Cert.Kernel.Hand.ok m)

/-- So does its idealization. -/
theorem frame_ki : Cert.frame_KernelIdeal := fun m ρ _ => Cert.KernelIdeal.Hand.frame m ρ (Cert.KernelIdeal.Hand.ok m)

/-- So does the reference. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization, made at two sites: the mask fill -2.38e38 is named -∞. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Over the extended reals, from finite inputs, both programs end with the specification's result array of the
    argument arrays: the kernel because every row tile's last step leaves the specification's rows (the tile-by-tile
    recurrence, which needs the three projections real), the reference operation by operation. -/
theorem algebraic : Cert.algebraic_KernelIdeal_ReferenceIdeal := by
  intro m ρ m' ρ' hpre hagree
  have hfin : ∀ c : Dev Cert.KernelIdeal.nD, Cert.Attn.Finite (Cert.Attn.proj (argX m c) (argWq m c))
      ∧ Cert.Attn.Finite (Cert.Attn.proj (argX m c) (argWk m c)) ∧ Cert.Attn.Finite (Cert.Attn.proj (argX m c) (argWv m c)) := fun c => by
    obtain ⟨h0, h1, h2, h3⟩ := Cert.KernelIdeal.FinitePre.finite_of_pre m hpre c
    exact ⟨Cert.Attn.proj_finite _ _ h0 h1, Cert.Attn.proj_finite _ _ h0 h2, Cert.Attn.proj_finite _ _ h0 h3⟩
  refine ⟨fun c => Cert.Attn.result (argX m c) (argWq m c) (argWk m c) (argWv m c) (argM m c),
    Cert.KernelIdeal.Hand.run_value m ρ (Cert.KernelIdeal.Hand.ok m)
      (fun c s t ht r d => Cert.KernelIdeal.Hand.out_tile m (Cert.KernelIdeal.Hand.ok m) c (hfin c).1 (hfin c).2.1 (hfin c).2.2 s t ht r d), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
